-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v167) = v0 c
          ∧ r.2.mem ((c.tc : Thread Cert.ReferenceIdeal.nD Cert.ReferenceIdeal.τ).loc Cert.ReferenceIdeal.main_v177) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x2 .f32) (main_arg11 : FVec F S2 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x2 .f32 := Host.absf main_arg10
  let main_cst_16 : FVec F S_ .f32 := constant S_ .f32 0x7F800000#32
  let main_v45 : FVec F S64x2 .f32 := broadcastInDim S64x2 ![] bcast_S_S64x2 main_cst_16
  let main_v46 : IVec S64x2 1 := cmpf .olt main_v44 main_v45
  let main_c_17 : IVec S_ 1 := constantI S_ 1 1#1
  let main_v47 : IVec S_ 1 := (fun x v => Host.reduce IntOp.andi x v reducesTo_S64x2_S_d0_1 h_S_) main_v46 main_c_17
  let main_v48 : IVec S_ 1 := andi main_v43 main_v47
  let main_v49 : FVec F S2 .f32 := Host.absf main_arg11
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x2 .f32) (main_arg11 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x64 .f32) (main_arg1 : IVec S2x800000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x2 .f32) (main_arg11 : FVec F S2 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S1x2 : Shape := ⟨2, ![1, 2]⟩
abbrev S800000x64 : Shape := ⟨2, ![800000, 64]⟩
abbrev S50000x2 : Shape := ⟨2, ![50000, 2]⟩
abbrev S5000x64 : Shape := ⟨2, ![5000, 64]⟩
abbrev S5000x2 : Shape := ⟨2, ![5000, 2]⟩
abbrev S5000 : Shape := ⟨1, ![5000]⟩
abbrev S5000x1 : Shape := ⟨2, ![5000, 1]⟩

abbrev nBuf : Space → Nat
  | .hbm => 146
  | .vmem => 28
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S50000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S_, .f32⟩
  | 27 => ⟨S800000, .f32⟩
  | 28 => ⟨S50000, .f32⟩
  | 29 => ⟨S_, .f32⟩
  | 30 => ⟨S50000, .f32⟩
  | 31 => ⟨S50000, .f32⟩
  | 32 => ⟨S50000, .f32⟩
  | 33 => ⟨S50000, .f32⟩
  | 34 => ⟨S50000x1, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000, .f32⟩
  | 53 => ⟨S800000, .f32⟩
  | 54 => ⟨S800000x1, .f32⟩
  | 55 => ⟨S1x64, .f32⟩
  | 56 => ⟨S1x64, .f32⟩
  | 57 => ⟨S1x64, .f32⟩
  | 58 => ⟨S1x64, .f32⟩
  | 59 => ⟨S1x2, .f32⟩
  | 60 => ⟨S50000x64, .bf16⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .bf16⟩
  | 70 => ⟨S800000x64, .f32⟩
  | 71 => ⟨S800000x64, .f32⟩
  | 72 => ⟨S800000x64, .f32⟩
  | 73 => ⟨S_, .f32⟩
  | 74 => ⟨S50000x64, .f32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S50000x64, .f32⟩
  | 84 => ⟨S50000x64, .f32⟩
  | 85 => ⟨S50000x64, .f32⟩
  | 86 => ⟨S50000x64, .f32⟩
  | 87 => ⟨S50000x64, .f32⟩
  | 88 => ⟨S50000x64, .bf16⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x64, .bf16⟩
  | 98 => ⟨S800000x64, .f32⟩
  | 99 => ⟨S800000x64, .f32⟩
  | 100 => ⟨S800000x64, .f32⟩
  | 101 => ⟨S_, .f32⟩
  | 102 => ⟨S50000x64, .f32⟩
  | 103 => ⟨S_, .i32⟩
  | 104 => ⟨S800000, .i32⟩
  | 105 => ⟨S800000, .i1⟩
  | 106 => ⟨S_, .i32⟩
  | 107 => ⟨S800000, .i32⟩
  | 108 => ⟨S800000, .i32⟩
  | 109 => ⟨S800000, .i32⟩
  | 110 => ⟨S800000x1, .i32⟩
  | 111 => ⟨S50000x64, .f32⟩
  | 112 => ⟨S50000x64, .f32⟩
  | 113 => ⟨S50000x64, .f32⟩
  | 114 => ⟨S50000x64, .f32⟩
  | 115 => ⟨S50000x64, .f32⟩
  | 116 => ⟨S50000x64, .bf16⟩
  | 117 => ⟨S_, .i32⟩
  | 118 => ⟨S800000, .i32⟩
  | 119 => ⟨S800000, .i1⟩
  | 120 => ⟨S_, .i32⟩
  | 121 => ⟨S800000, .i32⟩
  | 122 => ⟨S800000, .i32⟩
  | 123 => ⟨S800000, .i32⟩
  | 124 => ⟨S800000x1, .i32⟩
  | 125 => ⟨S800000x64, .bf16⟩
  | 126 => ⟨S800000x64, .f32⟩
  | 127 => ⟨S800000x64, .f32⟩
  | _ => ⟨S50000x64, .f32⟩

abbrev hbmTy0_1 (i : Nat) : BufTy := match i % 128 with
  | 0 => ⟨S800000x64, .f32⟩
  | 1 => ⟨S_, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S50000x64, .f32⟩
  | 12 => ⟨S50000x64, .f32⟩
  | 13 => ⟨S50000x64, .f32⟩
  | 14 => ⟨S50000x64, .f32⟩
  | 15 => ⟨S50000x64, .f32⟩
  | 16 => ⟨S50000x64, .f32⟩
  | 17 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .bf16⟩
  | .local _ .vmem, ⟨4, _⟩ => ⟨S5000x64, .bf16⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x64, .f32⟩
  | .local _ .vmem, ⟨15, _⟩ => ⟨S5000x64, .bf16⟩
  | .local _ .vmem, ⟨16, _⟩ => ⟨S5000x64, .bf16⟩
  | .local _ .vmem, ⟨17, _⟩ => ⟨S5000x64, .f32⟩
  | .local _ .vmem, ⟨18, _⟩ => ⟨S5000x64, .f32⟩
  | .local _ .vmem, ⟨19, _⟩ => ⟨S1x64, .f32⟩
  | .local _ .vmem, ⟨20, _⟩ => ⟨S64x64, .f32⟩
  | .local _ .vmem, ⟨21, _⟩ => ⟨S1x64, .f32⟩
  | .local _ .vmem, ⟨22, _⟩ => ⟨S64x2, .f32⟩
  | .local _ .vmem, ⟨23, _⟩ => ⟨S1x2, .f32⟩
  | .local _ .vmem, ⟨24, _⟩ => ⟨S5000x64, .f32⟩
  | .local _ .vmem, ⟨25, _⟩ => ⟨S5000x64, .f32⟩
  | .local _ .vmem, ⟨26, _⟩ => ⟨S5000x2, .f32⟩
  | .local _ .vmem, ⟨27, _⟩ => ⟨S5000x2, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_cst : Ref sig .tc := ⟨.hbm, 16, rfl⟩
abbrev main_call0_v4 : Ref sig .tc := ⟨.hbm, 17, rfl⟩
abbrev main_call0_c : Ref sig .tc := ⟨.hbm, 18, rfl⟩
abbrev main_call0_v5 : Ref sig .tc := ⟨.hbm, 19, rfl⟩
abbrev main_call0_v6 : Ref sig .tc := ⟨.hbm, 20, rfl⟩
abbrev main_call0_c_0 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_cst_1 : Ref sig .tc := ⟨.hbm, 26, rfl⟩
abbrev main_call0_v11 : Ref sig .tc := ⟨.hbm, 27, rfl⟩
abbrev main_call0_v12 : Ref sig .tc := ⟨.hbm, 28, rfl⟩
abbrev main_call0_cst_2 : Ref sig .tc := ⟨.hbm, 29, rfl⟩
abbrev main_call0_v13 : Ref sig .tc := ⟨.hbm, 30, rfl⟩
abbrev main_call0_v14 : Ref sig .tc := ⟨.hbm, 31, rfl⟩
abbrev main_call0_v15 : Ref sig .tc := ⟨.hbm, 32, rfl⟩
abbrev main_call0_v16 : Ref sig .tc := ⟨.hbm, 33, rfl⟩
abbrev main_call0_v17 : Ref sig .tc := ⟨.hbm, 34, rfl⟩
abbrev main_call0_c_3 : Ref sig .tc := ⟨.hbm, 35, rfl⟩
abbrev main_call0_v18 : Ref sig .tc := ⟨.hbm, 36, rfl⟩
abbrev main_call0_v19 : Ref sig .tc := ⟨.hbm, 37, rfl⟩
abbrev main_call0_c_4 : Ref sig .tc := ⟨.hbm, 38, rfl⟩
abbrev main_call0_v20 : Ref sig .tc := ⟨.hbm, 39, rfl⟩
abbrev main_call0_v21 : Ref sig .tc := ⟨.hbm, 40, rfl⟩
abbrev main_call0_v22 : Ref sig .tc := ⟨.hbm, 41, rfl⟩
abbrev main_call0_v23 : Ref sig .tc := ⟨.hbm, 42, rfl⟩
abbrev main_call0_v24 : Ref sig .tc := ⟨.hbm, 43, rfl⟩
abbrev main_call0_c_5 : Ref sig .tc := ⟨.hbm, 44, rfl⟩
abbrev main_call0_v25 : Ref sig .tc := ⟨.hbm, 45, rfl⟩
abbrev main_call0_v26 : Ref sig .tc := ⟨.hbm, 46, rfl⟩
abbrev main_call0_c_6 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_v32 : Ref sig .tc := ⟨.hbm, 53, rfl⟩
abbrev main_call0_v33 : Ref sig .tc := ⟨.hbm, 54, rfl⟩
abbrev main_call0_v34 : Ref sig .tc := ⟨.hbm, 55, rfl⟩
abbrev main_call0_v35 : Ref sig .tc := ⟨.hbm, 56, rfl⟩
abbrev main_call0_v36 : Ref sig .tc := ⟨.hbm, 57, rfl⟩
abbrev main_call0_v37 : Ref sig .tc := ⟨.hbm, 58, rfl⟩
abbrev main_call0_v38 : Ref sig .tc := ⟨.hbm, 59, rfl⟩
abbrev main_call0_v39 : Ref sig .tc := ⟨.hbm, 60, rfl⟩
abbrev main_call0_c_7 : Ref sig .tc := ⟨.hbm, 61, rfl⟩
abbrev main_call0_v40 : Ref sig .tc := ⟨.hbm, 62, rfl⟩
abbrev main_call0_v41 : Ref sig .tc := ⟨.hbm, 63, rfl⟩
abbrev main_call0_c_8 : Ref sig .tc := ⟨.hbm, 64, rfl⟩
abbrev main_call0_v42 : Ref sig .tc := ⟨.hbm, 65, rfl⟩
abbrev main_call0_v43 : Ref sig .tc := ⟨.hbm, 66, rfl⟩
abbrev main_call0_v44 : Ref sig .tc := ⟨.hbm, 67, rfl⟩
abbrev main_call0_v45 : Ref sig .tc := ⟨.hbm, 68, rfl⟩
abbrev main_call0_v46 : Ref sig .tc := ⟨.hbm, 69, rfl⟩
abbrev main_call0_v47 : Ref sig .tc := ⟨.hbm, 70, rfl⟩
abbrev main_call0_v48 : Ref sig .tc := ⟨.hbm, 71, rfl⟩
abbrev main_call0_v49 : Ref sig .tc := ⟨.hbm, 72, rfl⟩
abbrev main_call0_cst_9 : Ref sig .tc := ⟨.hbm, 73, rfl⟩
abbrev main_call0_v50 : Ref sig .tc := ⟨.hbm, 74, rfl⟩
abbrev main_call0_c_10 : Ref sig .tc := ⟨.hbm, 75, rfl⟩
abbrev main_call0_v51 : Ref sig .tc := ⟨.hbm, 76, rfl⟩
abbrev main_call0_v52 : Ref sig .tc := ⟨.hbm, 77, rfl⟩
abbrev main_call0_c_11 : Ref sig .tc := ⟨.hbm, 78, rfl⟩
abbrev main_call0_v53 : Ref sig .tc := ⟨.hbm, 79, rfl⟩
abbrev main_call0_v54 : Ref sig .tc := ⟨.hbm, 80, rfl⟩
abbrev main_call0_v55 : Ref sig .tc := ⟨.hbm, 81, rfl⟩
abbrev main_call0_v56 : Ref sig .tc := ⟨.hbm, 82, rfl⟩
abbrev main_call0_v57 : Ref sig .tc := ⟨.hbm, 83, rfl⟩
abbrev main_call0_v58 : Ref sig .tc := ⟨.hbm, 84, rfl⟩
abbrev main_call0_v59 : Ref sig .tc := ⟨.hbm, 85, rfl⟩
abbrev main_call0_v60 : Ref sig .tc := ⟨.hbm, 86, rfl⟩
abbrev main_call0_v61 : Ref sig .tc := ⟨.hbm, 87, rfl⟩
abbrev main_call0_v62 : Ref sig .tc := ⟨.hbm, 88, rfl⟩
abbrev main_call0_c_12 : Ref sig .tc := ⟨.hbm, 89, rfl⟩
abbrev main_call0_v63 : Ref sig .tc := ⟨.hbm, 90, rfl⟩
abbrev main_call0_v64 : Ref sig .tc := ⟨.hbm, 91, rfl⟩
abbrev main_call0_c_13 : Ref sig .tc := ⟨.hbm, 92, rfl⟩
abbrev main_call0_v65 : Ref sig .tc := ⟨.hbm, 93, rfl⟩
abbrev main_call0_v66 : Ref sig .tc := ⟨.hbm, 94, rfl⟩
abbrev main_call0_v67 : Ref sig .tc := ⟨.hbm, 95, rfl⟩
abbrev main_call0_v68 : Ref sig .tc := ⟨.hbm, 96, rfl⟩
abbrev main_call0_v69 : Ref sig .tc := ⟨.hbm, 97, rfl⟩
abbrev main_call0_v70 : Ref sig .tc := ⟨.hbm, 98, rfl⟩
abbrev main_call0_v71 : Ref sig .tc := ⟨.hbm, 99, rfl⟩
abbrev main_call0_v72 : Ref sig .tc := ⟨.hbm, 100, rfl⟩
abbrev main_call0_cst_14 : Ref sig .tc := ⟨.hbm, 101, rfl⟩
abbrev main_call0_v73 : Ref sig .tc := ⟨.hbm, 102, rfl⟩
abbrev main_call0_c_15 : Ref sig .tc := ⟨.hbm, 103, rfl⟩
abbrev main_call0_v74 : Ref sig .tc := ⟨.hbm, 104, rfl⟩
abbrev main_call0_v75 : Ref sig .tc := ⟨.hbm, 105, rfl⟩
abbrev main_call0_c_16 : Ref sig .tc := ⟨.hbm, 106, rfl⟩
abbrev main_call0_v76 : Ref sig .tc := ⟨.hbm, 107, rfl⟩
abbrev main_call0_v77 : Ref sig .tc := ⟨.hbm, 108, rfl⟩
abbrev main_call0_v78 : Ref sig .tc := ⟨.hbm, 109, rfl⟩
abbrev main_call0_v79 : Ref sig .tc := ⟨.hbm, 110, rfl⟩
abbrev main_call0_v80 : Ref sig .tc := ⟨.hbm, 111, rfl⟩
abbrev main_call0_v81 : Ref sig .tc := ⟨.hbm, 112, rfl⟩
abbrev main_call0_v82 : Ref sig .tc := ⟨.hbm, 113, rfl⟩
abbrev main_call0_v83 : Ref sig .tc := ⟨.hbm, 114, rfl⟩
abbrev main_call0_v84 : Ref sig .tc := ⟨.hbm, 115, rfl⟩
abbrev main_call0_v85 : Ref sig .tc := ⟨.hbm, 116, rfl⟩
abbrev main_call0_c_17 : Ref sig .tc := ⟨.hbm, 117, rfl⟩
abbrev main_call0_v86 : Ref sig .tc := ⟨.hbm, 118, rfl⟩
abbrev main_call0_v87 : Ref sig .tc := ⟨.hbm, 119, rfl⟩
abbrev main_call0_c_18 : Ref sig .tc := ⟨.hbm, 120, rfl⟩
abbrev main_call0_v88 : Ref sig .tc := ⟨.hbm, 121, rfl⟩
abbrev main_call0_v89 : Ref sig .tc := ⟨.hbm, 122, rfl⟩
abbrev main_call0_v90 : Ref sig .tc := ⟨.hbm, 123, rfl⟩
abbrev main_call0_v91 : Ref sig .tc := ⟨.hbm, 124, rfl⟩
abbrev main_call0_v92 : Ref sig .tc := ⟨.hbm, 125, rfl⟩
abbrev main_call0_v93 : Ref sig .tc := ⟨.hbm, 126, rfl⟩
abbrev main_call0_v94 : Ref sig .tc := ⟨.hbm, 127, rfl⟩
abbrev main_call0_v95 : Ref sig .tc := ⟨.hbm, 128, rfl⟩
abbrev main_call0_cst_19 : Ref sig .tc := ⟨.hbm, 129, rfl⟩
abbrev main_call0_v96 : Ref sig .tc := ⟨.hbm, 130, rfl⟩
abbrev main_call0_c_20 : Ref sig .tc := ⟨.hbm, 131, rfl⟩
abbrev main_call0_v97 : Ref sig .tc := ⟨.hbm, 132, rfl⟩
abbrev main_call0_v98 : Ref sig .tc := ⟨.hbm, 133, rfl⟩
abbrev main_call0_c_21 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_v102 : Ref sig .tc := ⟨.hbm, 138, rfl⟩
abbrev main_call0_v103 : Ref sig .tc := ⟨.hbm, 139, rfl⟩
abbrev main_call0_v104 : Ref sig .tc := ⟨.hbm, 140, rfl⟩
abbrev main_call0_v105 : Ref sig .tc := ⟨.hbm, 141, rfl⟩
abbrev main_call0_v106 : Ref sig .tc := ⟨.hbm, 142, rfl⟩
abbrev main_call0_v107 : Ref sig .tc := ⟨.hbm, 143, rfl⟩
abbrev main_v0_0 : Ref sig .tc := ⟨.hbm, 144, rfl⟩
abbrev main_v0_1 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg6_1 : Ref sig .tc := ⟨.vmem, 25, rfl⟩
abbrev cc3_stg7_0 : Ref sig .tc := ⟨.vmem, 26, rfl⟩
abbrev cc3_stg7_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem6_1 : DmaSem sig := 25
abbrev cc3_sem7_0 : DmaSem sig := 26
abbrev cc3_sem7_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x2 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  shapeCasts_S50000_S50000x1 : S50000.ShapeCasts S50000x1
  shapeCasts_S800000_S800000x1 : S800000.ShapeCasts S800000x1
  shapeCasts_S64_S1x64 : S64.ShapeCasts S1x64
  shapeCasts_S2_S1x2 : S2.ShapeCasts S1x2
  bitsLt_bf16_f32 : FTy.bits .bf16 < FTy.bits .f32
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  inb_S5000x64_S5000x64_0_0 : ∀ a, (![0, 0] : Fin 2 → Nat) a + S5000x64.size a ≤ S5000x64.size a
  h_S5000x64 : 0 < S5000x64.numel
  inb_S64x64_S64x64_0_0 : ∀ a, (![0, 0] : Fin 2 → Nat) a + S64x64.size a ≤ S64x64.size a
  h_S64x64 : 0 < S64x64.numel
  packedbf16_S5000x64_S5000x64_0_0 : (Rect.unit (s := S5000x64) ![0, 0] S5000x64.size inb_S5000x64_S5000x64_0_0).PackedRows (EltTy.packing .bf16)
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .bf16 = 32 ∨ (Rect.block (s := S50000x64) S5000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .bf16 = 32 ∨ (Rect.block (s := S50000x64) S5000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x2.size a ≤ S64x2.size a
  hwx3_4 : ∀ i : grid3.Coords, EltTy.bits .f32 = 32 ∨ (Rect.block (s := S64x2) S64x2.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x2.size a ≤ S1x2.size a
  hwx3_5 : ∀ i : grid3.Coords, EltTy.bits .f32 = 32 ∨ (Rect.block (s := S1x2) S1x2.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x2.size a ≤ S50000x2.size a
  hwx3_7 : ∀ i : grid3.Coords, EltTy.bits .f32 = 32 ∨ (Rect.block (s := S50000x2) S5000x2.size (cc3_transform_7 i) (hinb3_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v39) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v61) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v34) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v62) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v84) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v35) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v85) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v107) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v36) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v37) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x2.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v38) S1x2.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v0_1) S5000x2.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S50000x2 : Shape := ⟨2, ![50000, 2]⟩
abbrev S1x2 : Shape := ⟨2, ![1, 2]⟩

abbrev nBuf : Space → Nat
  | .hbm => 252
  | .vmem => 0
  | .smem => 0
  | _ => 0

abbrev hbmTy0_0 (i : Nat) : BufTy := match i % 128 with
  | 0 => ⟨S50000x64, .f32⟩
  | 1 => ⟨S2x800000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x2, .f32⟩
  | 11 => ⟨S2, .f32⟩
  | 12 => ⟨S1x800000, .i32⟩
  | 13 => ⟨S800000, .i32⟩
  | 14 => ⟨S1x800000, .i32⟩
  | 15 => ⟨S800000, .i32⟩
  | 16 => ⟨S50000x64, .f32⟩
  | 17 => ⟨S_, .f32⟩
  | 18 => ⟨S50000, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S_, .f32⟩
  | 28 => ⟨S800000, .f32⟩
  | 29 => ⟨S50000, .f32⟩
  | 30 => ⟨S_, .f32⟩
  | 31 => ⟨S50000, .f32⟩
  | 32 => ⟨S50000, .f32⟩
  | 33 => ⟨S50000, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000, .f32⟩
  | 52 => ⟨S800000, .f32⟩
  | 53 => ⟨S_, .f32⟩
  | 54 => ⟨S50000x64, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S800000x1, .f32⟩
  | 65 => ⟨S800000x64, .f32⟩
  | 66 => ⟨S800000x64, .f32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S50000x64, .f32⟩
  | 76 => ⟨S50000, .f32⟩
  | 77 => ⟨S50000x1, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S50000x64, .f32⟩
  | 88 => ⟨S_, .f32⟩
  | 89 => ⟨S50000, .f32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S_, .f32⟩
  | 99 => ⟨S800000, .f32⟩
  | 100 => ⟨S50000, .f32⟩
  | 101 => ⟨S_, .f32⟩
  | 102 => ⟨S50000, .f32⟩
  | 103 => ⟨S50000, .f32⟩
  | 104 => ⟨S50000, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000, .f32⟩
  | 114 => ⟨S_, .i32⟩
  | 115 => ⟨S800000, .i32⟩
  | 116 => ⟨S800000, .i1⟩
  | 117 => ⟨S_, .i32⟩
  | 118 => ⟨S800000, .i32⟩
  | 119 => ⟨S800000, .i32⟩
  | 120 => ⟨S800000, .i32⟩
  | 121 => ⟨S800000x1, .i32⟩
  | 122 => ⟨S800000, .f32⟩
  | 123 => ⟨S800000, .f32⟩
  | 124 => ⟨S_, .f32⟩
  | 125 => ⟨S50000x64, .f32⟩
  | 126 => ⟨S_, .i32⟩
  | 127 => ⟨S800000, .i32⟩
  | _ => ⟨S50000x64, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x64, .f32⟩
  | 7 => ⟨S800000x1, .f32⟩
  | 8 => ⟨S800000x64, .f32⟩
  | 9 => ⟨S800000x64, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S50000x64, .f32⟩
  | 19 => ⟨S50000, .f32⟩
  | 20 => ⟨S50000x1, .f32⟩
  | 21 => ⟨S50000x64, .f32⟩
  | 22 => ⟨S50000x64, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S_, .f32⟩
  | 32 => ⟨S50000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S_, .f32⟩
  | 42 => ⟨S800000, .f32⟩
  | 43 => ⟨S50000, .f32⟩
  | 44 => ⟨S_, .f32⟩
  | 45 => ⟨S50000, .f32⟩
  | 46 => ⟨S50000, .f32⟩
  | 47 => ⟨S50000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000, .f32⟩
  | 66 => ⟨S800000, .f32⟩
  | 67 => ⟨S_, .f32⟩
  | 68 => ⟨S50000x64, .f32⟩
  | 69 => ⟨S_, .i32⟩
  | 70 => ⟨S800000, .i32⟩
  | 71 => ⟨S800000, .i1⟩
  | 72 => ⟨S_, .i32⟩
  | 73 => ⟨S800000, .i32⟩
  | 74 => ⟨S800000, .i32⟩
  | 75 => ⟨S800000, .i32⟩
  | 76 => ⟨S800000x1, .i32⟩
  | 77 => ⟨S800000x64, .f32⟩
  | 78 => ⟨S800000x1, .f32⟩
  | 79 => ⟨S800000x64, .f32⟩
  | 80 => ⟨S800000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S50000x64, .f32⟩
  | 90 => ⟨S50000, .f32⟩
  | 91 => ⟨S50000x1, .f32⟩
  | 92 => ⟨S50000x64, .f32⟩
  | 93 => ⟨S50000x64, .f32⟩
  | 94 => ⟨S50000x64, .f32⟩
  | 95 => ⟨S1x64, .f32⟩
  | 96 => ⟨S50000x64, .f32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S50000x2, .f32⟩
  | 106 => ⟨S1x2, .f32⟩
  | 107 => ⟨S50000x2, .f32⟩
  | 108 => ⟨S50000x2, .f32⟩
  | 109 => ⟨S_, .f32⟩
  | 110 => ⟨S50000, .f32⟩
  | 111 => ⟨S_, .f32⟩
  | 112 => ⟨S50000, .f32⟩
  | 113 => ⟨S50000, .f32⟩
  | 114 => ⟨S50000x1, .f32⟩
  | 115 => ⟨S50000x2, .f32⟩
  | 116 => ⟨S50000x2, .f32⟩
  | 117 => ⟨S50000x2, .f32⟩
  | 118 => ⟨S_, .f32⟩
  | 119 => ⟨S50000, .f32⟩
  | 120 => ⟨S50000x1, .f32⟩
  | 121 => ⟨S50000x1, .f32⟩
  | 122 => ⟨S50000x2, .f32⟩
  | 123 => ⟨S50000x2, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_c : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_c_8 : Ref sig .tc := ⟨.hbm, 55, rfl⟩
abbrev main_v33 : Ref sig .tc := ⟨.hbm, 56, rfl⟩
abbrev main_v34 : Ref sig .tc := ⟨.hbm, 57, rfl⟩
abbrev main_c_9 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_10 : Ref sig .tc := ⟨.hbm, 67, rfl⟩
abbrev main_v43 : Ref sig .tc := ⟨.hbm, 68, rfl⟩
abbrev main_v44 : Ref sig .tc := ⟨.hbm, 69, rfl⟩
abbrev main_c_11 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call0_cst : Ref sig .tc := ⟨.hbm, 84, rfl⟩
abbrev main_call0_v0 : Ref sig .tc := ⟨.hbm, 85, rfl⟩
abbrev main_v58 : Ref sig .tc := ⟨.hbm, 86, rfl⟩
abbrev main_v59 : Ref sig .tc := ⟨.hbm, 87, rfl⟩
abbrev main_cst_12 : Ref sig .tc := ⟨.hbm, 88, rfl⟩
abbrev main_v60 : Ref sig .tc := ⟨.hbm, 89, rfl⟩
abbrev main_c_13 : Ref sig .tc := ⟨.hbm, 90, rfl⟩
abbrev main_v61 : Ref sig .tc := ⟨.hbm, 91, rfl⟩
abbrev main_v62 : Ref sig .tc := ⟨.hbm, 92, rfl⟩
abbrev main_c_14 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_15 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_c_17 : Ref sig .tc := ⟨.hbm, 105, rfl⟩
abbrev main_v72 : Ref sig .tc := ⟨.hbm, 106, rfl⟩
abbrev main_v73 : Ref sig .tc := ⟨.hbm, 107, rfl⟩
abbrev main_c_18 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_c_19 : Ref sig .tc := ⟨.hbm, 114, rfl⟩
abbrev main_v79 : Ref sig .tc := ⟨.hbm, 115, rfl⟩
abbrev main_v80 : Ref sig .tc := ⟨.hbm, 116, rfl⟩
abbrev main_c_20 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_21 : Ref sig .tc := ⟨.hbm, 124, rfl⟩
abbrev main_v87 : Ref sig .tc := ⟨.hbm, 125, rfl⟩
abbrev main_c_22 : Ref sig .tc := ⟨.hbm, 126, rfl⟩
abbrev main_v88 : Ref sig .tc := ⟨.hbm, 127, rfl⟩
abbrev main_v89 : Ref sig .tc := ⟨.hbm, 128, rfl⟩
abbrev main_c_23 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_24 : Ref sig .tc := ⟨.hbm, 138, rfl⟩
abbrev main_v98 : Ref sig .tc := ⟨.hbm, 139, rfl⟩
abbrev main_v99 : Ref sig .tc := ⟨.hbm, 140, rfl⟩
abbrev main_c_25 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_call1_cst : Ref sig .tc := ⟨.hbm, 155, rfl⟩
abbrev main_call1_v0 : Ref sig .tc := ⟨.hbm, 156, rfl⟩
abbrev main_v113 : Ref sig .tc := ⟨.hbm, 157, rfl⟩
abbrev main_v114 : Ref sig .tc := ⟨.hbm, 158, rfl⟩
abbrev main_cst_26 : Ref sig .tc := ⟨.hbm, 159, rfl⟩
abbrev main_v115 : Ref sig .tc := ⟨.hbm, 160, rfl⟩
abbrev main_c_27 : Ref sig .tc := ⟨.hbm, 161, rfl⟩
abbrev main_v116 : Ref sig .tc := ⟨.hbm, 162, rfl⟩
abbrev main_v117 : Ref sig .tc := ⟨.hbm, 163, rfl⟩
abbrev main_c_28 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_29 : Ref sig .tc := ⟨.hbm, 169, rfl⟩
abbrev main_v122 : Ref sig .tc := ⟨.hbm, 170, rfl⟩
abbrev main_v123 : Ref sig .tc := ⟨.hbm, 171, rfl⟩
abbrev main_cst_30 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_31 : Ref sig .tc := ⟨.hbm, 176, rfl⟩
abbrev main_v127 : Ref sig .tc := ⟨.hbm, 177, rfl⟩
abbrev main_v128 : Ref sig .tc := ⟨.hbm, 178, rfl⟩
abbrev main_c_32 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_c_33 : Ref sig .tc := ⟨.hbm, 185, rfl⟩
abbrev main_v134 : Ref sig .tc := ⟨.hbm, 186, rfl⟩
abbrev main_v135 : Ref sig .tc := ⟨.hbm, 187, rfl⟩
abbrev main_c_34 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_cst_35 : Ref sig .tc := ⟨.hbm, 195, rfl⟩
abbrev main_v142 : Ref sig .tc := ⟨.hbm, 196, rfl⟩
abbrev main_c_36 : Ref sig .tc := ⟨.hbm, 197, rfl⟩
abbrev main_v143 : Ref sig .tc := ⟨.hbm, 198, rfl⟩
abbrev main_v144 : Ref sig .tc := ⟨.hbm, 199, rfl⟩
abbrev main_c_37 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_38 : Ref sig .tc := ⟨.hbm, 209, rfl⟩
abbrev main_v153 : Ref sig .tc := ⟨.hbm, 210, rfl⟩
abbrev main_v154 : Ref sig .tc := ⟨.hbm, 211, rfl⟩
abbrev main_c_39 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_call2_cst : Ref sig .tc := ⟨.hbm, 226, rfl⟩
abbrev main_call2_v0 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_call3_cst : Ref sig .tc := ⟨.hbm, 237, rfl⟩
abbrev main_call3_v0 : Ref sig .tc := ⟨.hbm, 238, rfl⟩
abbrev main_call3_cst_0 : Ref sig .tc := ⟨.hbm, 239, rfl⟩
abbrev main_call3_v1 : Ref sig .tc := ⟨.hbm, 240, rfl⟩
abbrev main_call3_v2 : Ref sig .tc := ⟨.hbm, 241, rfl⟩
abbrev main_call3_v3 : Ref sig .tc := ⟨.hbm, 242, rfl⟩
abbrev main_call3_v4 : Ref sig .tc := ⟨.hbm, 243, rfl⟩
abbrev main_call3_v5 : Ref sig .tc := ⟨.hbm, 244, rfl⟩
abbrev main_call3_v6 : Ref sig .tc := ⟨.hbm, 245, rfl⟩
abbrev main_call3_cst_1 : Ref sig .tc := ⟨.hbm, 246, rfl⟩
abbrev main_call3_v7 : Ref sig .tc := ⟨.hbm, 247, rfl⟩
abbrev main_call3_v8 : Ref sig .tc := ⟨.hbm, 248, rfl⟩
abbrev main_call3_v9 : Ref sig .tc := ⟨.hbm, 249, rfl⟩
abbrev main_call3_v10 : Ref sig .tc := ⟨.hbm, 250, rfl⟩
abbrev main_v177 : Ref sig .tc := ⟨.hbm, 251, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S800000x1_S800000x64_0_1 : S800000x1.BroadcastsInDim S800000x64 (![0, 1] : Fin 2 → Fin S800000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  reducesTo_S50000x2_S50000_d1 : S50000x2.ReducesTo [1] S50000
  h_S_ : 0 < S_.numel
  bcast_S50000x1_S50000x2_0_1 : S50000x1.BroadcastsInDim S50000x2 (![0, 1] : Fin 2 → Fin S50000x2.rank)
  dot_S50000x64_S64x64_S50000x64_1_0_0_1_n_n_wf : DotDims.WF S50000x64 S64x64 S50000x64 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x2_S50000x2_1_0_0_1_n_n_wf : DotDims.WF S50000x64 S64x2 S50000x2 [1] [0] [0] [1] [] []

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x2_S50000x2_1_0_0_1_n_n : DotDims S50000x64 S64x2 S50000x2 where
  lhsContracting := [1]
  rhsContracting := [0]
  lhsNonContracting := [0]
  rhsNonContracting := [1]
  lhsBatch := []
  rhsBatch := []
  wf := dot_S50000x64_S64x2_S50000x2_1_0_0_1_n_n_wf

class Facts : Prop extends Facts₀ where

variable [Facts]
-- ==== Proof.KernelRun.lean ====
/-
  The idealized kernel's run, with its two result arrays named.

  @main is eight segments: four stretches of host operations, each followed by a pipelined region. The run's
  final state holds every unscoped buffer at the contents the last boundary leaves; here that fact is kept for the
  two result buffers as well as for the twelve arguments, so that the results can afterwards be computed from the
  arguments boundary by boundary.
-/
import proofs.«133547_j15899968930260_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; at the end each result buffer holds what the
    last boundary's contents say it holds, and each argument is as launched. -/
theorem run_results : θ_run defs (onTc (τ := τ) (main (F := F))) ⟨m, fun _ => 0, ρ⟩ (fun r => ∀ c : Dev nD,
      r.2.mem ((c.tc : Thread nD τ).loc main_v0_0) = W8 m ρ c (Proc.devRef .tc main_v0_0)
      ∧ r.2.mem ((c.tc : Thread nD τ).loc main_v0_1) = W8 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v0_0 (by decide)), h c _ (mem_uc main_v0_1 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c)⟩)

end Cert.KernelIdeal.KernelRun

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«133547_j15899968930260_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«133547_j15899968930260_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibRowLayout.lean ====
/-
  A vector laid out as a column or as a row.

  Reshaping a vector `[n]` to a column `[n, 1]` moves no entry: entry `(i, 0)` of the column is entry `i` of the
  vector, which is also what broadcasting the vector along a new trailing unit axis gives. Likewise a vector `[q]`
  reshaped to a row `[1, q]` is the vector broadcast along a new leading unit axis. Any element type.
-/
import Idealize.ShloMosaic.Lib.ValueIdx
import Idealize.ShloMosaic.Lib.ValueLayout
import Idealize.ShloMosaic.Lib.Pipeline.Value

noncomputable section

namespace Idealize.ShloMosaic.RowLayout

open Idealize.ShloMosaic Idealize.ShloMosaic.ValueIdx

variable {α : Type}

/-- Entry `(i, 0)` of a vector reshaped to a column is entry `i` of the vector. -/
theorem reshape_col_apply {n : ℕ} (x : (⟨1, ![n]⟩ : Shape).Idx → α)
    (hc : (⟨1, ![n]⟩ : Shape).ShapeCasts ⟨2, ![n, 1]⟩) (j : (⟨2, ![n, 1]⟩ : Shape).Idx) :
    shapeCast ⟨2, ![n, 1]⟩ x hc j = x (ix1 (j 0)) := by
  have h1 : (j 1).val < 1 := (j 1).isLt
  refine shapeCast_apply x hc j (ix1 (j 0)) ?_
  rw [Shape.rowMajor_val_two, Shape.rowMajor_val_one]
  show (j 0).val = (j 0).val * 1 + (j 1).val
  omega

/-- Entry `(i, 0)` of a vector broadcast along a new trailing unit axis is entry `i` of the vector. -/
theorem broadcast_col_apply {n : ℕ} (x : (⟨1, ![n]⟩ : Shape).Idx → α)
    (hb : (⟨1, ![n]⟩ : Shape).BroadcastsInDim ⟨2, ![n, 1]⟩ ![0]) (j : (⟨2, ![n, 1]⟩ : Shape).Idx) :
    broadcastInDim ⟨2, ![n, 1]⟩ ![0] hb x j = x (ix1 (j 0)) := by
  have h0 : (j 0).val < n := (j 0).isLt
  refine broadcastInDim_apply ![0] hb x j (ix1 (j 0)) fun a => ?_
  match a with
  | ⟨0, _⟩ =>
    show (j 0).val = if n = 1 then 0 else (j 0).val
    split
    · omega
    · rfl

/-- A vector reshaped to a column is the vector broadcast along a new trailing unit axis. -/
theorem reshape_col_eq_broadcast {n : ℕ} (x : (⟨1, ![n]⟩ : Shape).Idx → α)
    (hc : (⟨1, ![n]⟩ : Shape).ShapeCasts ⟨2, ![n, 1]⟩)
    (hb : (⟨1, ![n]⟩ : Shape).BroadcastsInDim ⟨2, ![n, 1]⟩ ![0]) :
    shapeCast ⟨2, ![n, 1]⟩ x hc = broadcastInDim ⟨2, ![n, 1]⟩ ![0] hb x :=
  funext fun j => (reshape_col_apply x hc j).trans (broadcast_col_apply x hb j).symm

/-- Entry `(0, i)` of a vector reshaped to a row is entry `i` of the vector. -/
theorem reshape_row_apply {q : ℕ} (x : (⟨1, ![q]⟩ : Shape).Idx → α)
    (hc : (⟨1, ![q]⟩ : Shape).ShapeCasts ⟨2, ![1, q]⟩) (j : (⟨2, ![1, q]⟩ : Shape).Idx) :
    shapeCast ⟨2, ![1, q]⟩ x hc j = x (ix1 (j 1)) := by
  have h0 : (j 0).val < 1 := (j 0).isLt
  refine shapeCast_apply x hc j (ix1 (j 1)) ?_
  rw [Shape.rowMajor_val_two, Shape.rowMajor_val_one]
  show (j 1).val = (j 0).val * q + (j 1).val
  have : (j 0).val = 0 := by omega
  rw [this, Nat.zero_mul, Nat.zero_add]

/-- Entry `(0, i)` of a vector broadcast along a new leading unit axis is entry `i` of the vector. -/
theorem broadcast_row_apply {q : ℕ} (x : (⟨1, ![q]⟩ : Shape).Idx → α)
    (hb : (⟨1, ![q]⟩ : Shape).BroadcastsInDim ⟨2, ![1, q]⟩ ![1]) (j : (⟨2, ![1, q]⟩ : Shape).Idx) :
    broadcastInDim ⟨2, ![1, q]⟩ ![1] hb x j = x (ix1 (j 1)) := by
  have h1 : (j 1).val < q := (j 1).isLt
  refine broadcastInDim_apply ![1] hb x j (ix1 (j 1)) fun a => ?_
  match a with
  | ⟨0, _⟩ =>
    show (j 1).val = if q = 1 then 0 else (j 1).val
    split
    · omega
    · rfl

/-- A vector reshaped to a row is the vector broadcast along a new leading unit axis. -/
theorem reshape_row_eq_broadcast {q : ℕ} (x : (⟨1, ![q]⟩ : Shape).Idx → α)
    (hc : (⟨1, ![q]⟩ : Shape).ShapeCasts ⟨2, ![1, q]⟩)
    (hb : (⟨1, ![q]⟩ : Shape).BroadcastsInDim ⟨2, ![1, q]⟩ ![1]) :
    shapeCast ⟨2, ![1, q]⟩ x hc = broadcastInDim ⟨2, ![1, q]⟩ ![1] hb x :=
  funext fun j => (reshape_row_apply x hc j).trans (broadcast_row_apply x hb j).symm

end Idealize.ShloMosaic.RowLayout

end
-- ==== Proof.LibRowLocal.lean ====
/-
  Layers that act row by row.

  A dense layer `X · W`, a bias row added to every row, a rectifier and a row-wise log-softmax all compute row `i`
  of their result from row `i` of their operand alone.  So the rows `B·t … B·t + B − 1` of the result are the same
  layer applied to those rows of the operand: a computation carried out block of rows by block of rows agrees with
  the computation carried out on the whole array.  The layers are stated entry by entry over the extended reals, and
  a matrix unit's product into a zero accumulator, the host's product, and the two ways of adding a bias row or
  taking a maximum with zero are each shown to be the entrywise layer.
-/
import proofs.«133547_j15899968930260_2_alg».proof.Proof.LibDenseHost
import proofs.«133547_j15899968930260_2_alg».proof.Proof.LibDenseLayer
import proofs.«133547_j15899968930260_2_alg».proof.Proof.LibRowLayout

noncomputable section

namespace Idealize.ShloMosaic.RowLocal

open Idealize.ShloMosaic Idealize.ShloMosaic.ValueIdx Idealize.ShloMosaic.DenseBlock

/-- A `K × Q` array of extended reals. -/
abbrev Mat (K Q : ℕ) : Type := (⟨2, ![K, Q]⟩ : Shape).Idx → EReal

/-- `X · W`: entry `(i, q)` is `Σ n, X (i, n) · W (n, q)`. -/
def dense {K N Q : ℕ} (X : Mat K N) (W : Mat N Q) : Mat K Q :=
  fun i => ∑ n : Fin N, X (ix2 (i 0) n) * W (ix2 n (i 1))

/-- The row `R` added to every row of `A`. -/
def biased {K Q : ℕ} (A : Mat K Q) (R : Mat 1 Q) : Mat K Q :=
  fun i => A i + R (ix2 (0 : Fin 1) (i 1))

/-- The maximum of every entry with zero. -/
def relu {K Q : ℕ} (A : Mat K Q) : Mat K Q :=
  fun i => max (A i) (Ideal.ofBits .f32 0x00000000#32)

/-- Rows `B·t … B·t + B − 1` of an array. -/
def rowsOf {K Q : ℕ} (B t : ℕ) (hB : ∀ p : Fin B, B * t + p.val < K) (X : Mat K Q) : Mat B Q :=
  fun j => X (ix2 ⟨B * t + (j 0).val, hB (j 0)⟩ (j 1))

section Locality
variable {K N Q : ℕ} (B t : ℕ) (hB : ∀ p : Fin B, B * t + p.val < K)

/-- A block of rows of a product is the product of that block of rows. -/
theorem rowsOf_dense (X : Mat K N) (W : Mat N Q) : rowsOf B t hB (dense X W) = dense (rowsOf B t hB X) W := rfl

/-- A block of rows of a biased array is that block of rows, biased. -/
theorem rowsOf_biased (A : Mat K Q) (R : Mat 1 Q) : rowsOf B t hB (biased A R) = biased (rowsOf B t hB A) R := rfl

/-- A block of rows of a rectified array is that block of rows, rectified. -/
theorem rowsOf_relu (A : Mat K Q) : rowsOf B t hB (relu A) = relu (rowsOf B t hB A) := rfl

end Locality

section Readings
variable {K N Q : ℕ}

/-- A matrix unit's product into a zero accumulator is the entrywise product. -/
theorem matmul_eq_dense (wf : DotDims.WF ⟨2, ![K, N]⟩ ⟨2, ![N, Q]⟩ ⟨2, ![K, Q]⟩ [1] [0] [0] [1] [] []) {φ₁ φ₂ : FTy}
    (X : FVec Ideal ⟨2, ![K, N]⟩ φ₁) (W : FVec Ideal ⟨2, ![N, Q]⟩ φ₂) :
    FloatOps.matmul (mmDims K N Q wf) none X W (constant ⟨2, ![K, Q]⟩ .f32 0x00000000#32) = dense (K := K) X W := by
  funext i
  obtain ⟨k, q, rfl⟩ : ∃ (k : Fin K) (q : Fin Q), i = ix2 k q := ⟨i 0, i 1, eq_ix2 i⟩
  exact matmul_zero_apply wf X W k q

/-- The host's product is the entrywise product. -/
theorem hostDot_eq_dense (wf : DotDims.WF ⟨2, ![K, N]⟩ ⟨2, ![N, Q]⟩ ⟨2, ![K, Q]⟩ [1] [0] [0] [1] [] []) {φ₁ φ₂ : FTy}
    (X : FVec Ideal ⟨2, ![K, N]⟩ φ₁) (W : FVec Ideal ⟨2, ![N, Q]⟩ φ₂) :
    (Host.dotGeneral (mmDims K N Q wf) none X W : FVec Ideal ⟨2, ![K, Q]⟩ .f32) = dense (K := K) X W := by
  funext i
  obtain ⟨k, q, rfl⟩ : ∃ (k : Fin K) (q : Fin Q), i = ix2 k q := ⟨i 0, i 1, eq_ix2 i⟩
  simp only [Host.dotGeneral]
  exact dotGeneral_apply_ix2 wf _ X W k q

/-- Adding a `[1, Q]` row broadcast along the rows (a vector broadcast) is `biased`. -/
theorem addRow_eq_biased (A : FVec Ideal ⟨2, ![K, Q]⟩ .f32) (R : FVec Ideal ⟨2, ![1, Q]⟩ .f32)
    (hb : (⟨2, ![1, Q]⟩ : Shape).Broadcasts ⟨2, ![K, Q]⟩) :
    addf A (broadcastTo ⟨2, ![K, Q]⟩ R hb) = biased (K := K) A R := by
  funext i
  obtain ⟨p, q, rfl⟩ : ∃ (p : Fin K) (q : Fin Q), i = ix2 p q := ⟨i 0, i 1, eq_ix2 i⟩
  show A (ix2 p q) + broadcastTo ⟨2, ![K, Q]⟩ R hb (ix2 p q) = A (ix2 p q) + R (ix2 (0 : Fin 1) q)
  rw [broadcastTo_1b_ab_apply]

/-- A `[1, Q]` row broadcast along the rows by the host, read at an entry. -/
theorem hostRow_apply {α : Type} (R : (⟨2, ![1, Q]⟩ : Shape).Idx → α)
    (hb : (⟨2, ![1, Q]⟩ : Shape).BroadcastsInDim ⟨2, ![K, Q]⟩ ![0, 1]) (p : Fin K) (q : Fin Q) :
    broadcastInDim ⟨2, ![K, Q]⟩ ![0, 1] hb R (ix2 p q) = R (ix2 (0 : Fin 1) q) := by
  refine broadcastInDim_apply ![0, 1] hb R (ix2 p q) (ix2 (0 : Fin 1) q) fun a => ?_
  match a with
  | ⟨0, _⟩ => exact (if_pos rfl).symm
  | ⟨1, _⟩ =>
    show q.val = if Q = 1 then 0 else q.val
    split
    · have := q.isLt; omega
    · rfl

/-- Adding a `[1, Q]` row broadcast along the rows by the host is `biased`. -/
theorem hostAddRow_eq_biased (A : FVec Ideal ⟨2, ![K, Q]⟩ .f32) (R : FVec Ideal ⟨2, ![1, Q]⟩ .f32)
    (hb : (⟨2, ![1, Q]⟩ : Shape).BroadcastsInDim ⟨2, ![K, Q]⟩ ![0, 1]) :
    addf A (broadcastInDim ⟨2, ![K, Q]⟩ ![0, 1] hb R) = biased (K := K) A R := by
  funext i
  obtain ⟨p, q, rfl⟩ : ∃ (p : Fin K) (q : Fin Q), i = ix2 p q := ⟨i 0, i 1, eq_ix2 i⟩
  show A (ix2 p q) + broadcastInDim ⟨2, ![K, Q]⟩ ![0, 1] hb R (ix2 p q) = A (ix2 p q) + R (ix2 (0 : Fin 1) q)
  rw [hostRow_apply]

/-- The maximum with a splat of the zero word is `relu`. -/
theorem maxZero_eq_relu (A : FVec Ideal ⟨2, ![K, Q]⟩ .f32) :
    maximumf A (broadcast ⟨2, ![K, Q]⟩ (Scalar.ofBits (F := Ideal) .f32 0x00000000#32)) = relu (K := K) A := rfl

/-- The maximum with the host's broadcast of the zero constant is `relu`. -/
theorem hostMaxZero_eq_relu (A : FVec Ideal ⟨2, ![K, Q]⟩ .f32)
    (h0 : (⟨0, ![]⟩ : Shape).BroadcastsInDim ⟨2, ![K, Q]⟩ ![]) :
    maximumf A (broadcastInDim ⟨2, ![K, Q]⟩ ![] h0 (constant (F := Ideal) ⟨0, ![]⟩ .f32 0x00000000#32)) = relu (K := K) A := by
  funext i
  show max (A i) (broadcastInDim ⟨2, ![K, Q]⟩ ![] h0 (constant (F := Ideal) ⟨0, ![]⟩ .f32 0x00000000#32) i) = max (A i) _
  rw [broadcastInDim_apply ![] h0 _ i ix0 (fun a => a.elim0)]
  rfl

end Readings

end Idealize.ShloMosaic.RowLocal

end
-- ==== Proof.LibLogSoftmax.lean ====
/-
  A log-softmax over rows of two entries.

  For a row `y` of two entries the layer is `(y q − M) − log (Σ k, exp (y k − M))` with `M` the row's maximum taken
  from −∞.  It acts row by row.  Inside a kernel the maximum and the sum are lane reductions of a block, laid back
  along the row through a column `[K, 1]`; on the host they are reduces over the second axis, the maximum met once
  more with −∞ and the sum started from zero, neither of which changes its value.  Both are the entrywise layer.
-/
import proofs.«133547_j15899968930260_2_alg».proof.Proof.LibRowLocal
import Idealize.ShloMosaic.PureOps.Reduce
import Idealize.ShloMosaic.PureOps.Ideal.Laws

noncomputable section

namespace Idealize.ShloMosaic.RowLocal

open Idealize.ShloMosaic Idealize.ShloMosaic.ValueIdx Idealize.ShloMosaic.RowLayout

/-- The maximum of a row of two entries, taken from −∞. -/
def rowMax (y : Fin 2 → EReal) : EReal :=
  (Finset.univ : Finset (Fin 2)).fold max (Ideal.ofBits .f32 0xFF800000#32) y

/-- The log-softmax of a row of two entries, at entry `q`. -/
def lsm (y : Fin 2 → EReal) (q : Fin 2) : EReal :=
  (y q - rowMax y) - Ideal.log (∑ k : Fin 2, Ideal.exp (y k - rowMax y))

/-- The row-wise log-softmax of a `K × 2` array. -/
def logSoftmax {K : ℕ} (Y : Mat K 2) : Mat K 2 := fun i => lsm (fun k => Y (ix2 (i 0) k)) (i 1)

/-- A block of rows of a log-softmax is the log-softmax of that block of rows. -/
theorem rowsOf_logSoftmax {K : ℕ} (B t : ℕ) (hB : ∀ p : Fin B, B * t + p.val < K) (Y : Mat K 2) :
    rowsOf B t hB (logSoftmax Y) = logSoftmax (rowsOf B t hB Y) := rfl

section
variable {K : ℕ}

/-- Row `p` with column `k` put back is `(p, k)`. -/
theorem lift_row (h : (⟨2, ![K, 2]⟩ : Shape).Reduces [1] ⟨1, ![K]⟩) (p : Fin K)
    (k : Fin ((⟨2, ![K, 2]⟩ : Shape).size 1)) : h.lift (ix1 p) k = ix2 p (⟨k.val, k.isLt⟩ : Fin 2) := by
  funext c; apply Fin.ext
  fin_cases c <;> rfl

/-- A column `[K, 1]` broadcast to `[K, 2]` inside a kernel reads, at `(p, q)`, the column at `p`. -/
theorem col_broadcastTo_apply {α : Type} (v : (⟨2, ![K, 1]⟩ : Shape).Idx → α)
    (hb : (⟨2, ![K, 1]⟩ : Shape).Broadcasts ⟨2, ![K, 2]⟩) (p : Fin K) (q : Fin 2) :
    broadcastTo ⟨2, ![K, 2]⟩ v hb (ix2 p q) = v (ix2 p (0 : Fin 1)) := by
  refine broadcastTo_apply v hb (ix2 p q) (ix2 p (0 : Fin 1)) fun a => ?_
  match a with
  | ⟨0, _⟩ =>
    show p.val = if K = 1 then 0 else p.val
    split
    · have := p.isLt; omega
    · rfl
  | ⟨1, _⟩ => exact (if_pos rfl).symm

/-- A column `[K, 1]` broadcast to `[K, 2]` by the host reads, at `(p, q)`, the column at `p`. -/
theorem col_broadcastInDim_apply {α : Type} (v : (⟨2, ![K, 1]⟩ : Shape).Idx → α)
    (hb : (⟨2, ![K, 1]⟩ : Shape).BroadcastsInDim ⟨2, ![K, 2]⟩ ![0, 1]) (p : Fin K) (q : Fin 2) :
    broadcastInDim ⟨2, ![K, 2]⟩ ![0, 1] hb v (ix2 p q) = v (ix2 p (0 : Fin 1)) := by
  refine broadcastInDim_apply ![0, 1] hb v (ix2 p q) (ix2 p (0 : Fin 1)) fun a => ?_
  match a with
  | ⟨0, _⟩ =>
    show p.val = if K = 1 then 0 else p.val
    split
    · have := p.isLt; omega
    · rfl
  | ⟨1, _⟩ => exact (if_pos rfl).symm

/-- The lane maximum of a block's row, from −∞, is the row's maximum. -/
theorem kernelRowMax (Y : FVec Ideal ⟨2, ![K, 2]⟩ .f32) (h : (⟨2, ![K, 2]⟩ : Shape).Reduces [1] ⟨1, ![K]⟩)
    (hφ : FKind.Formats .f32) (hacc : (0xFF800000#32 : BitVec 32) = FKind.maximumf.neutral .f32 hφ) (p : Fin K) :
    multiReduction .maximumf [1] ⟨1, ![K]⟩ Y 0xFF800000#32 h hφ hacc (ix1 p) = rowMax (fun k => Y (ix2 p k)) := by
  rw [Ideal.multiReduction_maximumf_single]
  have hf : (Y ∘ h.lift (ix1 p)) = fun k : Fin 2 => Y (ix2 p k) := funext fun k => congrArg Y (lift_row h p k)
  exact congrArg (fun f => Finset.fold max (Ideal.ofBits .f32 0xFF800000#32) f (Finset.univ : Finset (Fin 2))) hf

/-- The lane sum of a block's row is the row's sum. -/
theorem kernelRowSum (Z : FVec Ideal ⟨2, ![K, 2]⟩ .f32) (h : (⟨2, ![K, 2]⟩ : Shape).Reduces [1] ⟨1, ![K]⟩)
    (hφ : FKind.Formats .f32) (hacc : (0x00000000#32 : BitVec 32) = FKind.add.neutral .f32 hφ) (p : Fin K) :
    multiReduction .add [1] ⟨1, ![K]⟩ Z 0x00000000#32 h hφ hacc (ix1 p) = ∑ k : Fin 2, Z (ix2 p k) := by
  rw [Ideal.multiReduction_add_single]
  exact Finset.sum_congr rfl fun k _ => congrArg Z (lift_row h p k)

/-- The lane maximum laid back along the row through a column. -/
theorem kernelMaxCol (Y : FVec Ideal ⟨2, ![K, 2]⟩ .f32) (h : (⟨2, ![K, 2]⟩ : Shape).Reduces [1] ⟨1, ![K]⟩)
    (hφ : FKind.Formats .f32) (hacc : (0xFF800000#32 : BitVec 32) = FKind.maximumf.neutral .f32 hφ)
    (hc : (⟨1, ![K]⟩ : Shape).ShapeCasts ⟨2, ![K, 1]⟩) (hb : (⟨2, ![K, 1]⟩ : Shape).Broadcasts ⟨2, ![K, 2]⟩)
    (p : Fin K) (q : Fin 2) :
    broadcastTo ⟨2, ![K, 2]⟩ (shapeCast ⟨2, ![K, 1]⟩ (multiReduction .maximumf [1] ⟨1, ![K]⟩ Y 0xFF800000#32 h hφ hacc) hc) hb (ix2 p q)
      = rowMax (fun k => Y (ix2 p k)) := by
  rw [col_broadcastTo_apply, reshape_col_apply]
  exact kernelRowMax Y h hφ hacc p

/-- Inside a kernel: shift by the row maximum `M`, exponentiate, sum the lanes, take the logarithm, subtract. -/
theorem kernelLogSoftmax_eq (Y M : FVec Ideal ⟨2, ![K, 2]⟩ .f32)
    (hM : ∀ (p : Fin K) (q : Fin 2), M (ix2 p q) = rowMax (fun k => Y (ix2 p k)))
    (h : (⟨2, ![K, 2]⟩ : Shape).Reduces [1] ⟨1, ![K]⟩) (hφ : FKind.Formats .f32)
    (hacc : (0x00000000#32 : BitVec 32) = FKind.add.neutral .f32 hφ)
    (hc : (⟨1, ![K]⟩ : Shape).ShapeCasts ⟨2, ![K, 1]⟩) (hb : (⟨2, ![K, 1]⟩ : Shape).Broadcasts ⟨2, ![K, 2]⟩) :
    subf (subf Y M) (broadcastTo ⟨2, ![K, 2]⟩ (log (shapeCast ⟨2, ![K, 1]⟩
        (multiReduction .add [1] ⟨1, ![K]⟩ (exp (subf Y M)) 0x00000000#32 h hφ hacc) hc)) hb)
      = logSoftmax (K := K) Y := by
  funext i
  obtain ⟨p, q, rfl⟩ : ∃ (p : Fin K) (q : Fin 2), i = ix2 p q := ⟨i 0, i 1, eq_ix2 i⟩
  show (Y (ix2 p q) - M (ix2 p q)) - broadcastTo ⟨2, ![K, 2]⟩ (log (shapeCast ⟨2, ![K, 1]⟩
        (multiReduction .add [1] ⟨1, ![K]⟩ (exp (subf Y M)) 0x00000000#32 h hφ hacc) hc)) hb (ix2 p q)
      = lsm (fun k => Y (ix2 p k)) q
  rw [col_broadcastTo_apply, hM]
  show _ - Ideal.log (shapeCast ⟨2, ![K, 1]⟩
        (multiReduction .add [1] ⟨1, ![K]⟩ (exp (subf Y M)) 0x00000000#32 h hφ hacc) hc (ix2 p (0 : Fin 1))) = _
  rw [reshape_col_apply]
  show _ - Ideal.log (multiReduction .add [1] ⟨1, ![K]⟩ (exp (subf Y M)) 0x00000000#32 h hφ hacc (ix1 p)) = _
  rw [kernelRowSum]
  unfold lsm
  refine congrArg (fun s => (Y (ix2 p q) - rowMax fun k => Y (ix2 p k)) - Ideal.log s) ?_
  refine Finset.sum_congr rfl fun k _ => ?_
  show Ideal.exp (Y (ix2 p k) - M (ix2 p k)) = _
  rw [hM]

/-- Meeting a value with −∞ once more leaves it. -/
theorem max_negInf (y : EReal) : max (Ideal.ofBits .f32 0xFF800000#32) y = y := by
  simp [Ideal.ofBits, Ideal.ieee]

/-- The host's maximum over the second axis, from −∞, at row `p`. -/
theorem hostRowMax (Y : FVec Ideal ⟨2, ![K, 2]⟩ .f32) (h' : (⟨2, ![K, 2]⟩ : Shape).ReducesTo [1] ⟨1, ![K]⟩)
    (h : (⟨2, ![K, 2]⟩ : Shape).Reduces [1] ⟨1, ![K]⟩) (hu : 0 < (⟨0, ![]⟩ : Shape).numel) (p : Fin K) :
    Host.reduce FloatOps.maximumf Y (constant (F := Ideal) ⟨0, ![]⟩ .f32 0xFF800000#32) h' hu (ix1 p)
      = rowMax (fun k => Y (ix2 p k)) := by
  rw [Host.reduce_eq_fold_single FloatOps.maximumf Y _ h' h hu]
  have hf : (Y ∘ h.lift (ix1 p)) = fun k : Fin 2 => Y (ix2 p k) := funext fun k => congrArg Y (lift_row h p k)
  exact congrArg (fun f => Finset.fold max (Ideal.ofBits .f32 0xFF800000#32) f (Finset.univ : Finset (Fin 2))) hf

/-- The host's maximum, met with −∞ and laid back along the row through a column. -/
theorem hostMaxCol (Y : FVec Ideal ⟨2, ![K, 2]⟩ .f32) (h' : (⟨2, ![K, 2]⟩ : Shape).ReducesTo [1] ⟨1, ![K]⟩)
    (h : (⟨2, ![K, 2]⟩ : Shape).Reduces [1] ⟨1, ![K]⟩) (hu : 0 < (⟨0, ![]⟩ : Shape).numel)
    (hb0 : (⟨0, ![]⟩ : Shape).BroadcastsInDim ⟨1, ![K]⟩ ![])
    (hb1 : (⟨1, ![K]⟩ : Shape).BroadcastsInDim ⟨2, ![K, 1]⟩ ![0])
    (hb2 : (⟨2, ![K, 1]⟩ : Shape).BroadcastsInDim ⟨2, ![K, 2]⟩ ![0, 1]) (p : Fin K) (q : Fin 2) :
    broadcastInDim ⟨2, ![K, 2]⟩ ![0, 1] hb2 (broadcastInDim ⟨2, ![K, 1]⟩ ![0] hb1
        (maximumf (broadcastInDim ⟨1, ![K]⟩ ![] hb0 (constant (F := Ideal) ⟨0, ![]⟩ .f32 0xFF800000#32))
          (Host.reduce FloatOps.maximumf Y (constant (F := Ideal) ⟨0, ![]⟩ .f32 0xFF800000#32) h' hu))) (ix2 p q)
      = rowMax (fun k => Y (ix2 p k)) := by
  rw [col_broadcastInDim_apply, broadcast_col_apply]
  show max (broadcastInDim ⟨1, ![K]⟩ ![] hb0 (constant (F := Ideal) ⟨0, ![]⟩ .f32 0xFF800000#32) (ix1 p))
      (Host.reduce FloatOps.maximumf Y (constant (F := Ideal) ⟨0, ![]⟩ .f32 0xFF800000#32) h' hu (ix1 p)) = _
  rw [broadcastInDim_apply ![] hb0 _ (ix1 p) ix0 (fun a => a.elim0), hostRowMax Y h' h hu p]
  exact max_negInf _

/-- On the host: shift by the row maximum `M`, exponentiate, sum over the second axis from zero, take the
    logarithm, subtract. -/
theorem hostLogSoftmax_eq (Y M : FVec Ideal ⟨2, ![K, 2]⟩ .f32)
    (hM : ∀ (p : Fin K) (q : Fin 2), M (ix2 p q) = rowMax (fun k => Y (ix2 p k)))
    (h' : (⟨2, ![K, 2]⟩ : Shape).ReducesTo [1] ⟨1, ![K]⟩) (h : (⟨2, ![K, 2]⟩ : Shape).Reduces [1] ⟨1, ![K]⟩)
    (hu : 0 < (⟨0, ![]⟩ : Shape).numel)
    (hb1 : (⟨1, ![K]⟩ : Shape).BroadcastsInDim ⟨2, ![K, 1]⟩ ![0])
    (hb2 : (⟨2, ![K, 1]⟩ : Shape).BroadcastsInDim ⟨2, ![K, 2]⟩ ![0, 1]) :
    subf (subf Y M) (broadcastInDim ⟨2, ![K, 2]⟩ ![0, 1] hb2 (Host.log (broadcastInDim ⟨2, ![K, 1]⟩ ![0] hb1
        (Host.reduceAdd (Host.exp (subf Y M)) (constant (F := Ideal) ⟨0, ![]⟩ .f32 0x00000000#32) h' hu))))
      = logSoftmax (K := K) Y := by
  funext i
  obtain ⟨p, q, rfl⟩ : ∃ (p : Fin K) (q : Fin 2), i = ix2 p q := ⟨i 0, i 1, eq_ix2 i⟩
  show (Y (ix2 p q) - M (ix2 p q)) - broadcastInDim ⟨2, ![K, 2]⟩ ![0, 1] hb2 (Host.log (broadcastInDim ⟨2, ![K, 1]⟩ ![0] hb1
        (Host.reduceAdd (Host.exp (subf Y M)) (constant (F := Ideal) ⟨0, ![]⟩ .f32 0x00000000#32) h' hu))) (ix2 p q)
      = lsm (fun k => Y (ix2 p k)) q
  rw [col_broadcastInDim_apply, hM]
  show _ - Ideal.log (broadcastInDim ⟨2, ![K, 1]⟩ ![0] hb1
        (Host.reduceAdd (Host.exp (subf Y M)) (constant (F := Ideal) ⟨0, ![]⟩ .f32 0x00000000#32) h' hu) (ix2 p (0 : Fin 1))) = _
  rw [broadcast_col_apply]
  simp only [Host.reduceAdd, Ideal.hostReduceAdd_def]
  rw [Ideal.hostReduceAdd_single h' h]
  unfold lsm
  refine congrArg (fun s => (Y (ix2 p q) - rowMax fun k => Y (ix2 p k)) - Ideal.log s) ?_
  show Ideal.ofBits .f32 0x00000000#32 + _ = _
  rw [Ideal.ofBits_zero_f32, zero_add]
  refine Finset.sum_congr rfl fun k _ => ?_
  show Ideal.exp (Y (h.lift (ix1 p) k) - M (h.lift (ix1 p) k)) = _
  rw [lift_row h p k, hM]
  rfl

end

end Idealize.ShloMosaic.RowLocal

end
-- ==== Proof.Region0.lean ====
import proofs.«133547_j15899968930260_2_alg».proof.Proof.Gen.KernelIdeal.Frame
import proofs.«133547_j15899968930260_2_alg».proof.Proof.LibDenseLayer
import proofs.«133547_j15899968930260_2_alg».proof.Proof.LibLogSoftmax
set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.DenseBlock

variable (V : (c : Dev nD) → (b : Ref sig .tc) → Buf (Elt Ideal) ((c : Thread nD τ).loc b))

open Idealize.ShloMosaic.RowLocal

/-! # Region 0: the first layer's product `x · W1`, block of rows by block of rows -/

theorem hz : (![0, 0] : Fin 2 → Nat) = fun _ => 0 := funext fun a => by fin_cases a <;> rfl

/-- The grid has ten points; point `t` owns rows `5000·t … 5000·t + 4999`. -/
theorem hB (t : Fin cfg0.N) : ∀ p : Fin 5000, 5000 * t.val + p.val < 50000 := fun p => by
  have h1 : t.val < 10 := lt_of_lt_of_eq t.isLt N_0
  have h2 := p.isLt
  omega

/-- The printed index maps, decided over the grid: a row window's block index is `(t, 0)`, a whole window's `(0, 0)`. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Window 0's block at point `t` is rows `5000·t …` of its array as the region finds it. -/
theorem iblk_0 (c : Dev nD) (t : Fin cfg0.N) :
    (iblk0 V c 0 t : Mat 5000 64) = rowsOf 5000 t.val (hB t) (V c main_arg0 : Mat 50000 64) := by
  obtain ⟨e0, e1, e2, e3, e4, e5⟩ := idx_facts t
  funext j
  unfold iblk0 rowsOf
  rw [View.read_apply]
  show V c main_arg0 _ = V c main_arg0 _
  congr 1
  funext a; apply Fin.ext
  match a with
  | ⟨0, _⟩ => show win0_0.index t (0 : Fin 2) * 5000 + 1 * (j 0).val = 5000 * t.val + (j 0).val; omega
  | ⟨1, _⟩ => show win0_0.index t (1 : Fin 2) * 64 + 1 * (j 1).val = (j 1).val; omega

/-- Window 1's block at every point is its whole array as the region finds it. -/
theorem iblk_1 (c : Dev nD) (t : Fin cfg0.N) :
    (iblk0 V c 1 t : Mat 64 64) = (V c main_arg2 : Mat 64 64) := by
  obtain ⟨e0, e1, e2, e3, e4, e5⟩ := idx_facts t
  funext j
  unfold iblk0
  rw [View.read_apply]
  show V c main_arg2 _ = V c main_arg2 _
  congr 1
  funext a; apply Fin.ext
  match a with
  | ⟨0, _⟩ => show win0_1.index t (0 : Fin 2) * 64 + 1 * (j 0).val = (j 0).val; omega
  | ⟨1, _⟩ => show win0_1.index t (1 : Fin 2) * 64 + 1 * (j 1).val = (j 1).val; omega

/-- The body's payload: the block times the weights, into a zero accumulator; the changes of float format are identities. -/
theorem pay_eq (x0 : Vec Ideal S5000x64 .f32) (x1 : Vec Ideal S64x64 .f32) :
    (k0_pay1 x0 x1 : Mat 5000 64) = dense (x0 : Mat 5000 64) (x1 : Mat 64 64) := by
  unfold k0_pay1
  exact matmul_eq_dense (K := 5000) (N := 64) (Q := 64) dot_S5000x64_S64x64_S5000x64_1_0_0_1_n_n.wf
    (φ₁ := .bf16) (φ₂ := .bf16) x0 x1

/-- Entry `j` of output window 2's block at point `t` is entry `(5000·t + j 0, j 1)` of the array. -/
theorem emb_blk_2 (t : Fin cfg0.N) (j : S5000x64.Idx) :
    ((cfg0.win 2).blk t).view.emb j = ix2 (⟨5000 * t.val + (j 0).val, hB t (j 0)⟩ : Fin 50000) (j 1) := by
  obtain ⟨e0, e1, e2, e3, e4, e5⟩ := idx_facts t
  funext a; apply Fin.ext
  match a with
  | ⟨0, _⟩ => show win0_2.index t (0 : Fin 2) * 5000 + 1 * (j 0).val = 5000 * t.val + (j 0).val; omega
  | ⟨1, _⟩ => show win0_2.index t (1 : Fin 2) * 64 + 1 * (j 1).val = (j 1).val; omega

/-- The whole-array result of output window 2. -/
abbrev G2 (c : Dev nD) : Mat 50000 64 := dense (V c main_arg0 : Mat 50000 64) (V c main_arg2 : Mat 64 64)

/-- What point `t` writes back through output window 2 is block `t` of the whole-array result. -/
theorem flushed_eq_2 (c : Dev nD) (t : Fin cfg0.N) :
    (dat0 V c).flushed 2 t = ((cfg0.win 2).blk t).view.read (Elt Ideal) (G2 V c) := by
  show (cfg0.win 2).cut (grid0.coords t) ((dat0 V c).after 2 t) = _
  rw [after0_2]
  unfold out0_2
  rw [View.canon_unit_zero hz]
  simp only [View.ld_unit_zero (S := S5000x64) hz, View.ld_unit_zero (S := S64x64) hz]
  funext j
  show (k0_pay1 (iblk0 V c 0 t) (iblk0 V c 1 t) : Mat 5000 64) j = G2 V c (((cfg0.win 2).blk t).view.emb j)
  rw [pay_eq, iblk_0, iblk_1, emb_blk_2 t j]
  rfl

/-- An index of the array is in point `t`'s block iff each coordinate is in the block's range on its axis. -/
theorem mem_blk_2 (t : Fin cfg0.N) (i : S50000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_call0_v39).slice (win0_2.rect t)).set ↔ _
  rw [View.set_slice_whole, Rect.mem_set_unit]
  exact Iff.rfl

/-- The ten blocks tile the array (row `i` is in block `i / 5000`), so after the region the array holds the whole-array result. -/
theorem final_2 (c : Dev nD) : (dat0 V c).arrAt 2 cfg0.N = G2 V c :=
  (dat0 V c).arrAt_eq_of_cover 2 _ (fun t _ => flushed_eq_2 V c t) fun i => by
    have hi0 : (i 0).val < 50000 := (i 0).isLt
    have hi1 : (i 1).val < 64 := (i 1).isLt
    have hN : cfg0.N = 10 := N_0
    let t : Fin cfg0.N := ⟨(i 0).val / 5000, by rw [hN]; omega⟩
    refine ⟨t, flush0_2 t, ?_⟩
    rw [mem_blk_2]
    obtain ⟨e0, e1, e2, e3, e4, e5⟩ := idx_facts t
    intro a
    match a with
    | ⟨0, _⟩ =>
      show win0_2.index t (0 : Fin 2) * 5000 ≤ (i 0).val ∧ (i 0).val < win0_2.index t (0 : Fin 2) * 5000 + 5000
      rw [e4]
      show (i 0).val / 5000 * 5000 ≤ (i 0).val ∧ (i 0).val < (i 0).val / 5000 * 5000 + 5000
      omega
    | ⟨1, _⟩ =>
      show win0_2.index t (1 : Fin 2) * 64 ≤ (i 1).val ∧ (i 1).val < win0_2.index t (1 : Fin 2) * 64 + 64
      rw [e5]
      omega

end Cert.KernelIdeal.Region0

end
-- ==== Proof.Region1.lean ====
import proofs.«133547_j15899968930260_2_alg».proof.Proof.Gen.KernelIdeal.Frame
import proofs.«133547_j15899968930260_2_alg».proof.Proof.LibDenseLayer
import proofs.«133547_j15899968930260_2_alg».proof.Proof.LibLogSoftmax
set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.DenseBlock

variable (V : (c : Dev nD) → (b : Ref sig .tc) → Buf (Elt Ideal) ((c : Thread nD τ).loc b))

open Idealize.ShloMosaic.RowLocal

/-! # Region 1: a bias row, the rectifier and the next layer's product, block of rows by block of rows -/

theorem hz : (![0, 0] : Fin 2 → Nat) = fun _ => 0 := funext fun a => by fin_cases a <;> rfl

/-- The grid has ten points; point `t` owns rows `5000·t … 5000·t + 4999`. -/
theorem hB (t : Fin cfg1.N) : ∀ p : Fin 5000, 5000 * t.val + p.val < 50000 := fun p => by
  have h1 : t.val < 10 := lt_of_lt_of_eq t.isLt N_1
  have h2 := p.isLt
  omega

/-- The printed index maps, decided over the grid: a row window's block index is `(t, 0)`, a whole window's `(0, 0)`. -/
theorem idx_facts : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Window 0's block at point `t` is rows `5000·t …` of its array as the region finds it. -/
theorem iblk_0 (c : Dev nD) (t : Fin cfg1.N) :
    (iblk1 V c 0 t : Mat 5000 64) = rowsOf 5000 t.val (hB t) (V c main_call0_v61 : Mat 50000 64) := by
  obtain ⟨e0, e1, e2, e3, e4, e5, e6, e7⟩ := idx_facts t
  funext j
  unfold iblk1 rowsOf
  rw [View.read_apply]
  show V c main_call0_v61 _ = V c main_call0_v61 _
  congr 1
  funext a; apply Fin.ext
  match a with
  | ⟨0, _⟩ => show win1_0.index t (0 : Fin 2) * 5000 + 1 * (j 0).val = 5000 * t.val + (j 0).val; omega
  | ⟨1, _⟩ => show win1_0.index t (1 : Fin 2) * 64 + 1 * (j 1).val = (j 1).val; omega

/-- Window 1's block at every point is its whole array as the region finds it. -/
theorem iblk_1 (c : Dev nD) (t : Fin cfg1.N) :
    (iblk1 V c 1 t : Mat 1 64) = (V c main_call0_v34 : Mat 1 64) := by
  obtain ⟨e0, e1, e2, e3, e4, e5, e6, e7⟩ := idx_facts t
  funext j
  unfold iblk1
  rw [View.read_apply]
  show V c main_call0_v34 _ = V c main_call0_v34 _
  congr 1
  funext a; apply Fin.ext
  match a with
  | ⟨0, _⟩ => show win1_1.index t (0 : Fin 2) * 1 + 1 * (j 0).val = (j 0).val; omega
  | ⟨1, _⟩ => show win1_1.index t (1 : Fin 2) * 64 + 1 * (j 1).val = (j 1).val; omega

/-- Window 2's block at every point is its whole array as the region finds it. -/
theorem iblk_2 (c : Dev nD) (t : Fin cfg1.N) :
    (iblk1 V c 2 t : Mat 64 64) = (V c main_arg4 : Mat 64 64) := by
  obtain ⟨e0, e1, e2, e3, e4, e5, e6, e7⟩ := idx_facts t
  funext j
  unfold iblk1
  rw [View.read_apply]
  show V c main_arg4 _ = V c main_arg4 _
  congr 1
  funext a; apply Fin.ext
  match a with
  | ⟨0, _⟩ => show win1_2.index t (0 : Fin 2) * 64 + 1 * (j 0).val = (j 0).val; omega
  | ⟨1, _⟩ => show win1_2.index t (1 : Fin 2) * 64 + 1 * (j 1).val = (j 1).val; omega

/-- The body's payload: the bias row added to the block, the maximum with zero, then the product with the weights
    into a zero accumulator; the changes of float format and the same-shape casts are identities. -/
theorem pay_eq (x0 : Vec Ideal S5000x64 .f32) (x1 : Vec Ideal S1x64 .f32) (x2 : Vec Ideal S64x64 .f32) :
    (k1_pay1 x0 x1 x2 : Mat 5000 64)
      = dense (relu (biased (x0 : Mat 5000 64) (x1 : Mat 1 64))) (x2 : Mat 64 64) := by
  unfold k1_pay1
  have hX : (maximumf (addf (shapeCast S5000x64 x0 shapeCasts_S5000x64_S5000x64)
        (broadcastTo S5000x64 (shapeCast S1x64 x1 shapeCasts_S1x64_S1x64) broadcasts_S1x64_S5000x64))
      (broadcast S5000x64 (Scalar.ofBits (F := Ideal) .f32 0x00000000#32)) : Mat 5000 64)
      = relu (biased (x0 : Mat 5000 64) (x1 : Mat 1 64)) := by
    rw [shapeCast_self, shapeCast_self, addRow_eq_biased]
    rfl
  exact (matmul_eq_dense (K := 5000) (N := 64) (Q := 64) dot_S5000x64_S64x64_S5000x64_1_0_0_1_n_n.wf
    (φ₁ := .bf16) (φ₂ := .bf16) _ x2).trans (congrArg (fun X : Mat 5000 64 => dense X (x2 : Mat 64 64)) hX)

/-- Entry `j` of output window 3's block at point `t` is entry `(5000·t + j 0, j 1)` of the array. -/
theorem emb_blk_3 (t : Fin cfg1.N) (j : S5000x64.Idx) :
    ((cfg1.win 3).blk t).view.emb j = ix2 (⟨5000 * t.val + (j 0).val, hB t (j 0)⟩ : Fin 50000) (j 1) := by
  obtain ⟨e0, e1, e2, e3, e4, e5, e6, e7⟩ := idx_facts t
  funext a; apply Fin.ext
  match a with
  | ⟨0, _⟩ => show win1_3.index t (0 : Fin 2) * 5000 + 1 * (j 0).val = 5000 * t.val + (j 0).val; omega
  | ⟨1, _⟩ => show win1_3.index t (1 : Fin 2) * 64 + 1 * (j 1).val = (j 1).val; omega

/-- The whole-array result of output window 3. -/
abbrev G3 (c : Dev nD) : Mat 50000 64 := dense (relu (biased (V c main_call0_v61 : Mat 50000 64) (V c main_call0_v34 : Mat 1 64))) (V c main_arg4 : Mat 64 64)

/-- What point `t` writes back through output window 3 is block `t` of the whole-array result. -/
theorem flushed_eq_3 (c : Dev nD) (t : Fin cfg1.N) :
    (dat1 V c).flushed 3 t = ((cfg1.win 3).blk t).view.read (Elt Ideal) (G3 V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x64) hz]
  funext j
  show (k1_pay1 (iblk1 V c 0 t) (iblk1 V c 1 t) (iblk1 V c 2 t) : Mat 5000 64) j = G3 V c (((cfg1.win 3).blk t).view.emb j)
  rw [pay_eq, iblk_0, iblk_1, iblk_2, emb_blk_3 t j]
  rfl

/-- An index of the array is in point `t`'s block iff each coordinate is in the block's range on its axis. -/
theorem mem_blk_3 (t : Fin cfg1.N) (i : S50000x64.Idx) :
    i ∈ ((cfg1.win 3).blk t).view.set ↔ ∀ a : Fin 2, win1_3.index t a * S5000x64.size a ≤ (i a).val
      ∧ (i a).val < win1_3.index t a * S5000x64.size a + S5000x64.size a := by
  show i ∈ ((View.whole main_call0_v62).slice (win1_3.rect t)).set ↔ _
  rw [View.set_slice_whole, Rect.mem_set_unit]
  exact Iff.rfl

/-- The ten blocks tile the array (row `i` is in block `i / 5000`), so after the region the array holds the whole-array result. -/
theorem final_3 (c : Dev nD) : (dat1 V c).arrAt 3 cfg1.N = G3 V c :=
  (dat1 V c).arrAt_eq_of_cover 3 _ (fun t _ => flushed_eq_3 V c t) fun i => by
    have hi0 : (i 0).val < 50000 := (i 0).isLt
    have hi1 : (i 1).val < 64 := (i 1).isLt
    have hN : cfg1.N = 10 := N_1
    let t : Fin cfg1.N := ⟨(i 0).val / 5000, by rw [hN]; omega⟩
    refine ⟨t, flush1_3 t, ?_⟩
    rw [mem_blk_3]
    obtain ⟨e0, e1, e2, e3, e4, e5, e6, e7⟩ := idx_facts t
    intro a
    match a with
    | ⟨0, _⟩ =>
      show win1_3.index t (0 : Fin 2) * 5000 ≤ (i 0).val ∧ (i 0).val < win1_3.index t (0 : Fin 2) * 5000 + 5000
      rw [e6]
      show (i 0).val / 5000 * 5000 ≤ (i 0).val ∧ (i 0).val < (i 0).val / 5000 * 5000 + 5000
      omega
    | ⟨1, _⟩ =>
      show win1_3.index t (1 : Fin 2) * 64 ≤ (i 1).val ∧ (i 1).val < win1_3.index t (1 : Fin 2) * 64 + 64
      rw [e7]
      omega

end Cert.KernelIdeal.Region1

end
-- ==== Proof.Region2.lean ====
import proofs.«133547_j15899968930260_2_alg».proof.Proof.Gen.KernelIdeal.Frame
import proofs.«133547_j15899968930260_2_alg».proof.Proof.LibDenseLayer
import proofs.«133547_j15899968930260_2_alg».proof.Proof.LibLogSoftmax
set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.DenseBlock

variable (V : (c : Dev nD) → (b : Ref sig .tc) → Buf (Elt Ideal) ((c : Thread nD τ).loc b))

open Idealize.ShloMosaic.RowLocal

/-! # Region 2: a bias row, the rectifier and the next layer's product, block of rows by block of rows -/

theorem hz : (![0, 0] : Fin 2 → Nat) = fun _ => 0 := funext fun a => by fin_cases a <;> rfl

/-- The grid has ten points; point `t` owns rows `5000·t … 5000·t + 4999`. -/
theorem hB (t : Fin cfg2.N) : ∀ p : Fin 5000, 5000 * t.val + p.val < 50000 := fun p => by
  have h1 : t.val < 10 := lt_of_lt_of_eq t.isLt N_2
  have h2 := p.isLt
  omega

/-- The printed index maps, decided over the grid: a row window's block index is `(t, 0)`, a whole window's `(0, 0)`. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- Window 0's block at point `t` is rows `5000·t …` of its array as the region finds it. -/
theorem iblk_0 (c : Dev nD) (t : Fin cfg2.N) :
    (iblk2 V c 0 t : Mat 5000 64) = rowsOf 5000 t.val (hB t) (V c main_call0_v84 : Mat 50000 64) := by
  obtain ⟨e0, e1, e2, e3, e4, e5, e6, e7⟩ := idx_facts t
  funext j
  unfold iblk2 rowsOf
  rw [View.read_apply]
  show V c main_call0_v84 _ = V c main_call0_v84 _
  congr 1
  funext a; apply Fin.ext
  match a with
  | ⟨0, _⟩ => show win2_0.index t (0 : Fin 2) * 5000 + 1 * (j 0).val = 5000 * t.val + (j 0).val; omega
  | ⟨1, _⟩ => show win2_0.index t (1 : Fin 2) * 64 + 1 * (j 1).val = (j 1).val; omega

/-- Window 1's block at every point is its whole array as the region finds it. -/
theorem iblk_1 (c : Dev nD) (t : Fin cfg2.N) :
    (iblk2 V c 1 t : Mat 1 64) = (V c main_call0_v35 : Mat 1 64) := by
  obtain ⟨e0, e1, e2, e3, e4, e5, e6, e7⟩ := idx_facts t
  funext j
  unfold iblk2
  rw [View.read_apply]
  show V c main_call0_v35 _ = V c main_call0_v35 _
  congr 1
  funext a; apply Fin.ext
  match a with
  | ⟨0, _⟩ => show win2_1.index t (0 : Fin 2) * 1 + 1 * (j 0).val = (j 0).val; omega
  | ⟨1, _⟩ => show win2_1.index t (1 : Fin 2) * 64 + 1 * (j 1).val = (j 1).val; omega

/-- Window 2's block at every point is its whole array as the region finds it. -/
theorem iblk_2 (c : Dev nD) (t : Fin cfg2.N) :
    (iblk2 V c 2 t : Mat 64 64) = (V c main_arg6 : Mat 64 64) := by
  obtain ⟨e0, e1, e2, e3, e4, e5, e6, e7⟩ := idx_facts t
  funext j
  unfold iblk2
  rw [View.read_apply]
  show V c main_arg6 _ = V c main_arg6 _
  congr 1
  funext a; apply Fin.ext
  match a with
  | ⟨0, _⟩ => show win2_2.index t (0 : Fin 2) * 64 + 1 * (j 0).val = (j 0).val; omega
  | ⟨1, _⟩ => show win2_2.index t (1 : Fin 2) * 64 + 1 * (j 1).val = (j 1).val; omega

/-- The body's payload: the bias row added to the block, the maximum with zero, then the product with the weights
    into a zero accumulator; the changes of float format and the same-shape casts are identities. -/
theorem pay_eq (x0 : Vec Ideal S5000x64 .f32) (x1 : Vec Ideal S1x64 .f32) (x2 : Vec Ideal S64x64 .f32) :
    (k2_pay1 x0 x1 x2 : Mat 5000 64)
      = dense (relu (biased (x0 : Mat 5000 64) (x1 : Mat 1 64))) (x2 : Mat 64 64) := by
  unfold k2_pay1
  have hX : (maximumf (addf (shapeCast S5000x64 x0 shapeCasts_S5000x64_S5000x64)
        (broadcastTo S5000x64 (shapeCast S1x64 x1 shapeCasts_S1x64_S1x64) broadcasts_S1x64_S5000x64))
      (broadcast S5000x64 (Scalar.ofBits (F := Ideal) .f32 0x00000000#32)) : Mat 5000 64)
      = relu (biased (x0 : Mat 5000 64) (x1 : Mat 1 64)) := by
    rw [shapeCast_self, shapeCast_self, addRow_eq_biased]
    rfl
  exact (matmul_eq_dense (K := 5000) (N := 64) (Q := 64) dot_S5000x64_S64x64_S5000x64_1_0_0_1_n_n.wf
    (φ₁ := .bf16) (φ₂ := .bf16) _ x2).trans (congrArg (fun X : Mat 5000 64 => dense X (x2 : Mat 64 64)) hX)

/-- Entry `j` of output window 3's block at point `t` is entry `(5000·t + j 0, j 1)` of the array. -/
theorem emb_blk_3 (t : Fin cfg2.N) (j : S5000x64.Idx) :
    ((cfg2.win 3).blk t).view.emb j = ix2 (⟨5000 * t.val + (j 0).val, hB t (j 0)⟩ : Fin 50000) (j 1) := by
  obtain ⟨e0, e1, e2, e3, e4, e5, e6, e7⟩ := idx_facts t
  funext a; apply Fin.ext
  match a with
  | ⟨0, _⟩ => show win2_3.index t (0 : Fin 2) * 5000 + 1 * (j 0).val = 5000 * t.val + (j 0).val; omega
  | ⟨1, _⟩ => show win2_3.index t (1 : Fin 2) * 64 + 1 * (j 1).val = (j 1).val; omega

/-- The whole-array result of output window 3. -/
abbrev G3 (c : Dev nD) : Mat 50000 64 := dense (relu (biased (V c main_call0_v84 : Mat 50000 64) (V c main_call0_v35 : Mat 1 64))) (V c main_arg6 : Mat 64 64)

/-- What point `t` writes back through output window 3 is block `t` of the whole-array result. -/
theorem flushed_eq_3 (c : Dev nD) (t : Fin cfg2.N) :
    (dat2 V c).flushed 3 t = ((cfg2.win 3).blk t).view.read (Elt Ideal) (G3 V c) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x64) hz]
  funext j
  show (k2_pay1 (iblk2 V c 0 t) (iblk2 V c 1 t) (iblk2 V c 2 t) : Mat 5000 64) j = G3 V c (((cfg2.win 3).blk t).view.emb j)
  rw [pay_eq, iblk_0, iblk_1, iblk_2, emb_blk_3 t j]
  rfl

/-- An index of the array is in point `t`'s block iff each coordinate is in the block's range on its axis. -/
theorem mem_blk_3 (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_call0_v85).slice (win2_3.rect t)).set ↔ _
  rw [View.set_slice_whole, Rect.mem_set_unit]
  exact Iff.rfl

/-- The ten blocks tile the array (row `i` is in block `i / 5000`), so after the region the array holds the whole-array result. -/
theorem final_3 (c : Dev nD) : (dat2 V c).arrAt 3 cfg2.N = G3 V c :=
  (dat2 V c).arrAt_eq_of_cover 3 _ (fun t _ => flushed_eq_3 V c t) fun i => by
    have hi0 : (i 0).val < 50000 := (i 0).isLt
    have hi1 : (i 1).val < 64 := (i 1).isLt
    have hN : cfg2.N = 10 := N_2
    let t : Fin cfg2.N := ⟨(i 0).val / 5000, by rw [hN]; omega⟩
    refine ⟨t, flush2_3 t, ?_⟩
    rw [mem_blk_3]
    obtain ⟨e0, e1, e2, e3, e4, e5, e6, e7⟩ := idx_facts t
    intro a
    match a with
    | ⟨0, _⟩ =>
      show win2_3.index t (0 : Fin 2) * 5000 ≤ (i 0).val ∧ (i 0).val < win2_3.index t (0 : Fin 2) * 5000 + 5000
      rw [e6]
      show (i 0).val / 5000 * 5000 ≤ (i 0).val ∧ (i 0).val < (i 0).val / 5000 * 5000 + 5000
      omega
    | ⟨1, _⟩ =>
      show win2_3.index t (1 : Fin 2) * 64 ≤ (i 1).val ∧ (i 1).val < win2_3.index t (1 : Fin 2) * 64 + 64
      rw [e7]
      omega

end Cert.KernelIdeal.Region2

end
-- ==== Proof.Region3.lean ====
import proofs.«133547_j15899968930260_2_alg».proof.Proof.Gen.KernelIdeal.Frame
import proofs.«133547_j15899968930260_2_alg».proof.Proof.LibDenseLayer
import proofs.«133547_j15899968930260_2_alg».proof.Proof.LibLogSoftmax
set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.DenseBlock

variable (V : (c : Dev nD) → (b : Ref sig .tc) → Buf (Elt Ideal) ((c : Thread nD τ).loc b))

open Idealize.ShloMosaic.RowLocal

/-! # Region 3: the last bias row (the embedding) and the head with its log-softmax, block of rows by block of rows -/

theorem hz : (![0, 0] : Fin 2 → Nat) = fun _ => 0 := funext fun a => by fin_cases a <;> rfl

/-- The grid has ten points; point `t` owns rows `5000·t … 5000·t + 4999`. -/
theorem hB (t : Fin cfg3.N) : ∀ p : Fin 5000, 5000 * t.val + p.val < 50000 := fun p => by
  have h1 : t.val < 10 := lt_of_lt_of_eq t.isLt N_3
  have h2 := p.isLt
  omega

/-- The printed index maps, decided over the grid: a row window's block index is `(t, 0)`, a whole window's `(0, 0)`. -/
theorem idx_facts : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0
    ∧ win3_7.index t (0 : Fin 2) = t.val
    ∧ win3_7.index t (1 : Fin 2) = 0 :=
  (by decide +kernel : ∀ t : Fin grid3.N, _)

/-- Window 0's block at point `t` is rows `5000·t …` of its array as the region finds it. -/
theorem iblk_0 (c : Dev nD) (t : Fin cfg3.N) :
    (iblk3 V c 0 t : Mat 5000 64) = rowsOf 5000 t.val (hB t) (V c main_call0_v107 : Mat 50000 64) := by
  obtain ⟨e0, e1, e2, e3, e4, e5, e6, e7, e8, e9, e10, e11, e12, e13, e14, e15⟩ := idx_facts t
  funext j
  unfold iblk3 rowsOf
  rw [View.read_apply]
  show V c main_call0_v107 _ = V c main_call0_v107 _
  congr 1
  funext a; apply Fin.ext
  match a with
  | ⟨0, _⟩ => show win3_0.index t (0 : Fin 2) * 5000 + 1 * (j 0).val = 5000 * t.val + (j 0).val; omega
  | ⟨1, _⟩ => show win3_0.index t (1 : Fin 2) * 64 + 1 * (j 1).val = (j 1).val; omega

/-- Window 1's block at every point is its whole array as the region finds it. -/
theorem iblk_1 (c : Dev nD) (t : Fin cfg3.N) :
    (iblk3 V c 1 t : Mat 1 64) = (V c main_call0_v36 : Mat 1 64) := by
  obtain ⟨e0, e1, e2, e3, e4, e5, e6, e7, e8, e9, e10, e11, e12, e13, e14, e15⟩ := idx_facts t
  funext j
  unfold iblk3
  rw [View.read_apply]
  show V c main_call0_v36 _ = V c main_call0_v36 _
  congr 1
  funext a; apply Fin.ext
  match a with
  | ⟨0, _⟩ => show win3_1.index t (0 : Fin 2) * 1 + 1 * (j 0).val = (j 0).val; omega
  | ⟨1, _⟩ => show win3_1.index t (1 : Fin 2) * 64 + 1 * (j 1).val = (j 1).val; omega

/-- Window 2's block at every point is its whole array as the region finds it. -/
theorem iblk_2 (c : Dev nD) (t : Fin cfg3.N) :
    (iblk3 V c 2 t : Mat 64 64) = (V c main_arg8 : Mat 64 64) := by
  obtain ⟨e0, e1, e2, e3, e4, e5, e6, e7, e8, e9, e10, e11, e12, e13, e14, e15⟩ := idx_facts t
  funext j
  unfold iblk3
  rw [View.read_apply]
  show V c main_arg8 _ = V c main_arg8 _
  congr 1
  funext a; apply Fin.ext
  match a with
  | ⟨0, _⟩ => show win3_2.index t (0 : Fin 2) * 64 + 1 * (j 0).val = (j 0).val; omega
  | ⟨1, _⟩ => show win3_2.index t (1 : Fin 2) * 64 + 1 * (j 1).val = (j 1).val; omega

/-- Window 3's block at every point is its whole array as the region finds it. -/
theorem iblk_3 (c : Dev nD) (t : Fin cfg3.N) :
    (iblk3 V c 3 t : Mat 1 64) = (V c main_call0_v37 : Mat 1 64) := by
  obtain ⟨e0, e1, e2, e3, e4, e5, e6, e7, e8, e9, e10, e11, e12, e13, e14, e15⟩ := idx_facts t
  funext j
  unfold iblk3
  rw [View.read_apply]
  show V c main_call0_v37 _ = V c main_call0_v37 _
  congr 1
  funext a; apply Fin.ext
  match a with
  | ⟨0, _⟩ => show win3_3.index t (0 : Fin 2) * 1 + 1 * (j 0).val = (j 0).val; omega
  | ⟨1, _⟩ => show win3_3.index t (1 : Fin 2) * 64 + 1 * (j 1).val = (j 1).val; omega

/-- Window 4's block at every point is its whole array as the region finds it. -/
theorem iblk_4 (c : Dev nD) (t : Fin cfg3.N) :
    (iblk3 V c 4 t : Mat 64 2) = (V c main_arg10 : Mat 64 2) := by
  obtain ⟨e0, e1, e2, e3, e4, e5, e6, e7, e8, e9, e10, e11, e12, e13, e14, e15⟩ := idx_facts t
  funext j
  unfold iblk3
  rw [View.read_apply]
  show V c main_arg10 _ = V c main_arg10 _
  congr 1
  funext a; apply Fin.ext
  match a with
  | ⟨0, _⟩ => show win3_4.index t (0 : Fin 2) * 64 + 1 * (j 0).val = (j 0).val; omega
  | ⟨1, _⟩ => show win3_4.index t (1 : Fin 2) * 2 + 1 * (j 1).val = (j 1).val; omega

/-- Window 5's block at every point is its whole array as the region finds it. -/
theorem iblk_5 (c : Dev nD) (t : Fin cfg3.N) :
    (iblk3 V c 5 t : Mat 1 2) = (V c main_call0_v38 : Mat 1 2) := by
  obtain ⟨e0, e1, e2, e3, e4, e5, e6, e7, e8, e9, e10, e11, e12, e13, e14, e15⟩ := idx_facts t
  funext j
  unfold iblk3
  rw [View.read_apply]
  show V c main_call0_v38 _ = V c main_call0_v38 _
  congr 1
  funext a; apply Fin.ext
  match a with
  | ⟨0, _⟩ => show win3_5.index t (0 : Fin 2) * 1 + 1 * (j 0).val = (j 0).val; omega
  | ⟨1, _⟩ => show win3_5.index t (1 : Fin 2) * 2 + 1 * (j 1).val = (j 1).val; omega

/-- The first store's payload: the bias row added to the block (the embedding before the rectifier). -/
theorem pay1_eq (x0 : Vec Ideal S5000x64 .f32) (x1 : Vec Ideal S1x64 .f32) :
    (k3_pay1 x0 x1 : Mat 5000 64) = biased (x0 : Mat 5000 64) (x1 : Mat 1 64) := by
  unfold k3_pay1
  rw [shapeCast_self, shapeCast_self]
  exact addRow_eq_biased _ _ _

/-- The head's pre-softmax values on a block: rectify the embedding, multiply by the first head weights and add
    their bias row, multiply by the second head weights and add their bias row. -/
abbrev headPre {K : ℕ} (x0 : Mat K 64) (x1 : Mat 1 64) (x2 : Mat 64 64) (x3 : Mat 1 64) (x4 : Mat 64 2) (x5 : Mat 1 2) : Mat K 2 :=
  biased (dense (biased (dense (relu (biased x0 x1)) x2) x3) x4) x5

/-- The second store's payload: the row-wise log-softmax of the head's values. The lane maximum and the lane sum go
    through a column laid back along the rows; the changes of float format and the same-shape casts are identities. -/
theorem pay2_eq (x0 : Vec Ideal S5000x64 .f32) (x1 : Vec Ideal S1x64 .f32) (x2 : Vec Ideal S64x64 .f32)
    (x3 : Vec Ideal S1x64 .f32) (x4 : Vec Ideal S64x2 .f32) (x5 : Vec Ideal S1x2 .f32) :
    (k3_pay2 x0 x1 x2 x3 x4 x5 : Mat 5000 2)
      = logSoftmax (headPre (x0 : Mat 5000 64) (x1 : Mat 1 64) (x2 : Mat 64 64) (x3 : Mat 1 64) (x4 : Mat 64 2) (x5 : Mat 1 2)) := by
  unfold k3_pay2
  dsimp only
  refine (kernelLogSoftmax_eq (K := 5000) _ _ (fun p q => kernelMaxCol (K := 5000) _ reduces_S5000x2_S5000 (.inl rfl) rfl
      shapeCasts_S5000_S5000x1 broadcasts_S5000x1_S5000x2 p q)
    reduces_S5000x2_S5000 (.inl rfl) rfl shapeCasts_S5000_S5000x1 broadcasts_S5000x1_S5000x2).trans ?_
  refine congrArg (fun Y : Mat 5000 2 => logSoftmax Y) ?_
  rw [shapeCast_self, shapeCast_self]
  refine (addRow_eq_biased (K := 5000) (Q := 2) _ x5 broadcasts_S1x2_S5000x2).trans ?_
  refine congrArg (fun X : Mat 5000 2 => biased X (x5 : Mat 1 2)) ?_
  refine (matmul_eq_dense (K := 5000) (N := 64) (Q := 2) dot_S5000x64_S64x2_S5000x2_1_0_0_1_n_n.wf
    (φ₁ := .bf16) (φ₂ := .bf16) _ x4).trans ?_
  refine congrArg (fun X : Mat 5000 64 => dense X (x4 : Mat 64 2)) ?_
  refine (addRow_eq_biased (K := 5000) (Q := 64) _ x3 broadcasts_S1x64_S5000x64).trans ?_
  refine congrArg (fun X : Mat 5000 64 => biased X (x3 : Mat 1 64)) ?_
  refine (matmul_eq_dense (K := 5000) (N := 64) (Q := 64) dot_S5000x64_S64x64_S5000x64_1_0_0_1_n_n.wf
    (φ₁ := .bf16) (φ₂ := .bf16) _ x2).trans ?_
  refine congrArg (fun X : Mat 5000 64 => dense X (x2 : Mat 64 64)) ?_
  rw [pay1_eq]
  rfl

/-- Entry `j` of output window 6's block at point `t` is entry `(5000·t + j 0, j 1)` of the array. -/
theorem emb_blk_6 (t : Fin cfg3.N) (j : S5000x64.Idx) :
    ((cfg3.win 6).blk t).view.emb j = ix2 (⟨5000 * t.val + (j 0).val, hB t (j 0)⟩ : Fin 50000) (j 1) := by
  obtain ⟨e0, e1, e2, e3, e4, e5, e6, e7, e8, e9, e10, e11, e12, e13, e14, e15⟩ := idx_facts t
  funext a; apply Fin.ext
  match a with
  | ⟨0, _⟩ => show win3_6.index t (0 : Fin 2) * 5000 + 1 * (j 0).val = 5000 * t.val + (j 0).val; omega
  | ⟨1, _⟩ => show win3_6.index t (1 : Fin 2) * 64 + 1 * (j 1).val = (j 1).val; omega

/-- The whole-array result of output window 6. -/
abbrev G6 (c : Dev nD) : Mat 50000 64 := biased (V c main_call0_v107 : Mat 50000 64) (V c main_call0_v36 : Mat 1 64)

/-- What point `t` writes back through output window 6 is block `t` of the whole-array result. -/
theorem flushed_eq_6 (c : Dev nD) (t : Fin cfg3.N) :
    (dat3 V c).flushed 6 t = ((cfg3.win 6).blk t).view.read (Elt Ideal) (G6 V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S1x64) hz, View.ld_unit_zero (S := S64x64) hz, View.ld_unit_zero (S := S64x2) hz, View.ld_unit_zero (S := S1x2) hz]
  funext j
  show (k3_pay1 (iblk3 V c 0 t) (iblk3 V c 1 t) : Mat 5000 64) j = G6 V c (((cfg3.win 6).blk t).view.emb j)
  rw [pay1_eq, iblk_0, iblk_1, emb_blk_6 t j]
  rfl

/-- An index of the array is in point `t`'s block iff each coordinate is in the block's range on its axis. -/
theorem mem_blk_6 (t : Fin cfg3.N) (i : S50000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v0_0).slice (win3_6.rect t)).set ↔ _
  rw [View.set_slice_whole, Rect.mem_set_unit]
  exact Iff.rfl

/-- The ten blocks tile the array (row `i` is in block `i / 5000`), so after the region the array holds the whole-array result. -/
theorem final_6 (c : Dev nD) : (dat3 V c).arrAt 6 cfg3.N = G6 V c :=
  (dat3 V c).arrAt_eq_of_cover 6 _ (fun t _ => flushed_eq_6 V c t) fun i => by
    have hi0 : (i 0).val < 50000 := (i 0).isLt
    have hi1 : (i 1).val < 64 := (i 1).isLt
    have hN : cfg3.N = 10 := N_3
    let t : Fin cfg3.N := ⟨(i 0).val / 5000, by rw [hN]; omega⟩
    refine ⟨t, flush3_6 t, ?_⟩
    rw [mem_blk_6]
    obtain ⟨e0, e1, e2, e3, e4, e5, e6, e7, e8, e9, e10, e11, e12, e13, e14, e15⟩ := idx_facts t
    intro a
    match a with
    | ⟨0, _⟩ =>
      show win3_6.index t (0 : Fin 2) * 5000 ≤ (i 0).val ∧ (i 0).val < win3_6.index t (0 : Fin 2) * 5000 + 5000
      rw [e12]
      show (i 0).val / 5000 * 5000 ≤ (i 0).val ∧ (i 0).val < (i 0).val / 5000 * 5000 + 5000
      omega
    | ⟨1, _⟩ =>
      show win3_6.index t (1 : Fin 2) * 64 ≤ (i 1).val ∧ (i 1).val < win3_6.index t (1 : Fin 2) * 64 + 64
      rw [e13]
      omega

/-- Entry `j` of output window 7's block at point `t` is entry `(5000·t + j 0, j 1)` of the array. -/
theorem emb_blk_7 (t : Fin cfg3.N) (j : S5000x2.Idx) :
    ((cfg3.win 7).blk t).view.emb j = ix2 (⟨5000 * t.val + (j 0).val, hB t (j 0)⟩ : Fin 50000) (j 1) := by
  obtain ⟨e0, e1, e2, e3, e4, e5, e6, e7, e8, e9, e10, e11, e12, e13, e14, e15⟩ := idx_facts t
  funext a; apply Fin.ext
  match a with
  | ⟨0, _⟩ => show win3_7.index t (0 : Fin 2) * 5000 + 1 * (j 0).val = 5000 * t.val + (j 0).val; omega
  | ⟨1, _⟩ => show win3_7.index t (1 : Fin 2) * 2 + 1 * (j 1).val = (j 1).val; omega

/-- The whole-array result of output window 7. -/
abbrev G7 (c : Dev nD) : Mat 50000 2 := logSoftmax (headPre (V c main_call0_v107 : Mat 50000 64) (V c main_call0_v36 : Mat 1 64) (V c main_arg8 : Mat 64 64) (V c main_call0_v37 : Mat 1 64) (V c main_arg10 : Mat 64 2) (V c main_call0_v38 : Mat 1 2))

/-- What point `t` writes back through output window 7 is block `t` of the whole-array result. -/
theorem flushed_eq_7 (c : Dev nD) (t : Fin cfg3.N) :
    (dat3 V c).flushed 7 t = ((cfg3.win 7).blk t).view.read (Elt Ideal) (G7 V c) := by
  show (cfg3.win 7).cut (grid3.coords t) ((dat3 V c).after 7 t) = _
  rw [after3_7]
  unfold out3_7
  rw [View.canon_unit_zero hz]
  simp only [View.ld_unit_zero (S := S5000x64) hz, View.ld_unit_zero (S := S1x64) hz, View.ld_unit_zero (S := S64x64) hz, View.ld_unit_zero (S := S64x2) hz, View.ld_unit_zero (S := S1x2) hz]
  funext j
  show (k3_pay2 (iblk3 V c 0 t) (iblk3 V c 1 t) (iblk3 V c 2 t) (iblk3 V c 3 t) (iblk3 V c 4 t) (iblk3 V c 5 t) : Mat 5000 2) j = G7 V c (((cfg3.win 7).blk t).view.emb j)
  rw [pay2_eq, iblk_0, iblk_1, iblk_2, iblk_3, iblk_4, iblk_5, emb_blk_7 t j]
  rfl

/-- An index of the array is in point `t`'s block iff each coordinate is in the block's range on its axis. -/
theorem mem_blk_7 (t : Fin cfg3.N) (i : S50000x2.Idx) :
    i ∈ ((cfg3.win 7).blk t).view.set ↔ ∀ a : Fin 2, win3_7.index t a * S5000x2.size a ≤ (i a).val
      ∧ (i a).val < win3_7.index t a * S5000x2.size a + S5000x2.size a := by
  show i ∈ ((View.whole main_v0_1).slice (win3_7.rect t)).set ↔ _
  rw [View.set_slice_whole, Rect.mem_set_unit]
  exact Iff.rfl

/-- The ten blocks tile the array (row `i` is in block `i / 5000`), so after the region the array holds the whole-array result. -/
theorem final_7 (c : Dev nD) : (dat3 V c).arrAt 7 cfg3.N = G7 V c :=
  (dat3 V c).arrAt_eq_of_cover 7 _ (fun t _ => flushed_eq_7 V c t) fun i => by
    have hi0 : (i 0).val < 50000 := (i 0).isLt
    have hi1 : (i 1).val < 2 := (i 1).isLt
    have hN : cfg3.N = 10 := N_3
    let t : Fin cfg3.N := ⟨(i 0).val / 5000, by rw [hN]; omega⟩
    refine ⟨t, flush3_7 t, ?_⟩
    rw [mem_blk_7]
    obtain ⟨e0, e1, e2, e3, e4, e5, e6, e7, e8, e9, e10, e11, e12, e13, e14, e15⟩ := idx_facts t
    intro a
    match a with
    | ⟨0, _⟩ =>
      show win3_7.index t (0 : Fin 2) * 5000 ≤ (i 0).val ∧ (i 0).val < win3_7.index t (0 : Fin 2) * 5000 + 5000
      rw [e14]
      show (i 0).val / 5000 * 5000 ≤ (i 0).val ∧ (i 0).val < (i 0).val / 5000 * 5000 + 5000
      omega
    | ⟨1, _⟩ =>
      show win3_7.index t (1 : Fin 2) * 2 ≤ (i 1).val ∧ (i 1).val < win3_7.index t (1 : Fin 2) * 2 + 2
      rw [e15]
      omega

end Cert.KernelIdeal.Region3

end
-- ==== Proof.Stages.lean ====
/-
  The graph network's stages, once.

  Both programs compute, per layer, the same aggregation of a node array `h` over the graph: with `s`, `d` the
  edges' source and destination lists, `deg` the in-degree plus one and `dis = deg^(-1/2)`,
  `aggregate h = scatter-add over d of (h[s] · dis[s] · dis[d]) + h · dis²`.  The stages are written here once, as the
  host operations both programs apply, so that each program's value can be stated over them; the dense parts (a
  product, a bias row, a rectifier, the head's log-softmax) are the entrywise layers.  What the network returns is
  `emb`, the third layer before its rectifier, and `logp`, the head's row-wise log-softmax.
-/
import proofs.«133547_j15899968930260_2_alg».proof.ReferenceIdeal
import proofs.«133547_j15899968930260_2_alg».proof.Proof.Gen.ReferenceIdeal
import proofs.«133547_j15899968930260_2_alg».proof.Proof.LibLogSoftmax

set_option maxRecDepth 16384

noncomputable section

namespace Cert.ReferenceIdeal.Stages

open Cert.ReferenceIdeal Cert.ReferenceIdeal.Gen Idealize.ShloMosaic Idealize.ShloMosaic.TcCoe
open Idealize.ShloMosaic.RowLocal Idealize.ShloMosaic.DenseBlock

/-- An edge list: one 32-bit node number per edge. -/
abbrev Edges : Type := IVec S800000 32
/-- The edge index as given: row 0 the sources, row 1 the destinations. -/
abbrev EdgeIndex : Type := IVec S2x800000 32
/-- A node array with 64 features. -/
abbrev Nodes : Type := FVec Ideal S50000x64 .f32

/-- The sources: row 0 of the edge index. -/
def src (x1 : EdgeIndex) : Edges :=
  shapeCast S800000 (extractStridedSlice S1x800000 ![0, 0] x1 slices_S2x800000_S1x800000_0_0) shapeCasts_S1x800000_S800000

/-- The destinations: row 1 of the edge index. -/
def dst (x1 : EdgeIndex) : Edges :=
  shapeCast S800000 (extractStridedSlice S1x800000 ![1, 0] x1 slices_S2x800000_S1x800000_1_0) shapeCasts_S1x800000_S800000

/-- Node numbers as index vectors: a negative number counts from the end. -/
def nidx (e : Edges) : IVec S800000x1 32 :=
  broadcastInDim S800000x1 ![0] bcast_S800000_S800000x1_0
    (select (cmpi .slt e (broadcastInDim S800000 ![] bcast_S_S800000 (constantI S_ 32 0#32)))
      (addi e (broadcastInDim S800000 ![] bcast_S_S800000 (constantI S_ 32 50000#32))) e)

/-- `(in-degree + 1)^(-1/2)` per node. -/
def dis (d : Edges) : FVec Ideal S50000 .f32 :=
  Host.rsqrt (F := Ideal) (addf (Host.scatterAdd scatter_S50000_S800000x1_S800000_n_0_0_1
      (broadcastInDim S50000 ![] bcast_S_S50000 (constant (F := Ideal) S_ .f32 0x00000000#32)) (nidx d)
      (broadcastInDim S800000 ![] bcast_S_S800000 (constant (F := Ideal) S_ .f32 0x3F800000#32)))
    (broadcastInDim S50000 ![] bcast_S_S50000 (constant (F := Ideal) S_ .f32 0x3F800000#32)))

/-- The edge coefficients `dis[s] · dis[d]`. -/
def coef (s d : Edges) : FVec Ideal S800000 .f32 :=
  mulf (Host.gather gather_S50000_S800000x1_S800000_n_0_n_n_0_1_1 (dis d) (nidx s))
    (Host.gather gather_S50000_S800000x1_S800000_n_0_n_n_0_1_1 (dis d) (nidx d))

/-- The edge coefficients as a column. -/
def coefCol (s d : Edges) : FVec Ideal S800000x1 .f32 :=
  broadcastInDim S800000x1 ![0] bcast_S800000_S800000x1_0 (coef s d)

/-- `dis²` as a column: the self-loop weight `1 / deg`. -/
def dis2Col (d : Edges) : FVec Ideal S50000x1 .f32 :=
  broadcastInDim S50000x1 ![0] bcast_S50000_S50000x1_0 (mulf (dis d) (dis d))

/-- One layer's aggregation of the node array `h`. -/
def aggregate (h : Nodes) (s d : Edges) : Nodes :=
  addf (Host.scatterAdd scatter_S50000x64_S800000x1_S800000x64_1_0_0_1
      (broadcastInDim S50000x64 ![] bcast_S_S50000x64 (constant (F := Ideal) S_ .f32 0x00000000#32)) (nidx d)
      (mulf (Host.gather gather_S50000x64_S800000x1_S800000x64_1_0_n_n_0_1_164 h (nidx s))
        (broadcastInDim S800000x64 ![0, 1] bcast_S800000x1_S800000x64_0_1 (coefCol s d))))
    (mulf h (broadcastInDim S50000x64 ![0, 1] bcast_S50000x1_S50000x64_0_1 (dis2Col d)))

/-- A bias vector as one row. -/
def row64 (b : FVec Ideal S64 .f32) : FVec Ideal S1x64 .f32 :=
  broadcastInDim S1x64 ![1] bcast_S64_S1x64_1 b

/-- The head's last bias vector as one row. -/
def row2 (b : FVec Ideal S2 .f32) : FVec Ideal S1x2 .f32 :=
  broadcastInDim S1x2 ![1] bcast_S2_S1x2_1 b

/-! ## The reference's forms of a layer and of the head -/

/-- A layer before its rectifier, as the reference computes it: the host's product, the aggregation, the bias. -/
def pre (h : Nodes) (W : FVec Ideal S64x64 .f32) (b : FVec Ideal S64 .f32)
    (s d : Edges) : Nodes :=
  addf (aggregate (Host.dotGeneral dot_S50000x64_S64x64_S50000x64_1_0_0_1_n_n none h W) s d)
    (broadcastInDim S50000x64 ![0, 1] bcast_S1x64_S50000x64_0_1 (row64 b))

/-- The reference's rectifier. -/
def reluH (a : Nodes) : Nodes :=
  maximumf a (broadcastInDim S50000x64 ![] bcast_S_S50000x64 (constant (F := Ideal) S_ .f32 0x00000000#32))

/-- The head's values before the log-softmax, as the reference computes them. -/
def headH (h : Nodes) (Wp1 : FVec Ideal S64x64 .f32) (bp1 : FVec Ideal S64 .f32)
    (Wp2 : FVec Ideal S64x2 .f32) (bp2 : FVec Ideal S2 .f32) :
    FVec Ideal S50000x2 .f32 :=
  addf (Host.dotGeneral dot_S50000x64_S64x2_S50000x2_1_0_0_1_n_n none
      (addf (Host.dotGeneral dot_S50000x64_S64x64_S50000x64_1_0_0_1_n_n none h Wp1)
        (broadcastInDim S50000x64 ![0, 1] bcast_S1x64_S50000x64_0_1 (row64 bp1))) Wp2)
    (broadcastInDim S50000x2 ![0, 1] bcast_S1x2_S50000x2_0_1 (row2 bp2))

/-- The row maximum met with −∞ and laid back along the rows, as the reference computes it. -/
def maxColH (Y : FVec Ideal S50000x2 .f32) : FVec Ideal S50000x2 .f32 :=
  broadcastInDim S50000x2 ![0, 1] bcast_S50000x1_S50000x2_0_1 (broadcastInDim S50000x1 ![0] bcast_S50000_S50000x1_0
    (maximumf (broadcastInDim S50000 ![] bcast_S_S50000 (constant (F := Ideal) S_ .f32 0xFF800000#32))
      (Host.reduce (FloatOps.maximumf (F := Ideal) (φ := .f32)) Y (constant (F := Ideal) S_ .f32 0xFF800000#32) reducesTo_S50000x2_S50000_d1 h_S_)))

/-- The reference's log-softmax. -/
def logSoftmaxH (Y : FVec Ideal S50000x2 .f32) : FVec Ideal S50000x2 .f32 :=
  subf (subf Y (maxColH Y)) (broadcastInDim S50000x2 ![0, 1] bcast_S50000x1_S50000x2_0_1 (Host.log (F := Ideal)
    (broadcastInDim S50000x1 ![0] bcast_S50000_S50000x1_0
      (Host.reduceAdd (Host.exp (F := Ideal) (subf Y (maxColH Y))) (constant (F := Ideal) S_ .f32 0x00000000#32) reducesTo_S50000x2_S50000_d1 h_S_))))

/-! ## The same, entry by entry -/

/-- The reference's rectified layer is the entrywise one over the aggregation of the entrywise product. -/
theorem reluH_pre_eq (h : Nodes) (W : FVec Ideal S64x64 .f32)
    (b : FVec Ideal S64 .f32) (s d : Edges) :
    (reluH (pre h W b s d) : Mat 50000 64)
      = relu (biased (aggregate (dense (h : Mat 50000 64) (W : Mat 64 64)) s d : Mat 50000 64) (row64 b : Mat 1 64)) := by
  unfold reluH pre
  rw [hostMaxZero_eq_relu, hostAddRow_eq_biased]
  exact congrArg (fun X : Mat 50000 64 => relu (biased (aggregate X s d : Mat 50000 64) (row64 b : Mat 1 64)))
    (hostDot_eq_dense (K := 50000) (N := 64) (Q := 64) dot_S50000x64_S64x64_S50000x64_1_0_0_1_n_n.wf h W)

/-- The reference's unrectified layer likewise. -/
theorem pre_eq (h : Nodes) (W : FVec Ideal S64x64 .f32)
    (b : FVec Ideal S64 .f32) (s d : Edges) :
    (pre h W b s d : Mat 50000 64)
      = biased (aggregate (dense (h : Mat 50000 64) (W : Mat 64 64)) s d : Mat 50000 64) (row64 b : Mat 1 64) := by
  unfold pre
  rw [hostAddRow_eq_biased]
  exact congrArg (fun X : Mat 50000 64 => biased (aggregate X s d : Mat 50000 64) (row64 b : Mat 1 64))
    (hostDot_eq_dense (K := 50000) (N := 64) (Q := 64) dot_S50000x64_S64x64_S50000x64_1_0_0_1_n_n.wf h W)

/-- The reference's head values, entry by entry. -/
theorem headH_eq (h : Nodes) (Wp1 : FVec Ideal S64x64 .f32) (bp1 : FVec Ideal S64 .f32)
    (Wp2 : FVec Ideal S64x2 .f32) (bp2 : FVec Ideal S2 .f32) :
    (headH h Wp1 bp1 Wp2 bp2 : Mat 50000 2)
      = biased (dense (biased (dense (h : Mat 50000 64) (Wp1 : Mat 64 64)) (row64 bp1 : Mat 1 64)) (Wp2 : Mat 64 2)) (row2 bp2 : Mat 1 2) := by
  unfold headH
  rw [hostAddRow_eq_biased]
  refine congrArg (fun X : Mat 50000 2 => biased X (row2 bp2 : Mat 1 2)) ?_
  refine (hostDot_eq_dense (K := 50000) (N := 64) (Q := 2) dot_S50000x64_S64x2_S50000x2_1_0_0_1_n_n.wf _ Wp2).trans ?_
  refine congrArg (fun X : Mat 50000 64 => dense X (Wp2 : Mat 64 2)) ?_
  rw [hostAddRow_eq_biased]
  exact congrArg (fun X : Mat 50000 64 => biased X (row64 bp1 : Mat 1 64))
    (hostDot_eq_dense (K := 50000) (N := 64) (Q := 64) dot_S50000x64_S64x64_S50000x64_1_0_0_1_n_n.wf h Wp1)

/-- The reference's log-softmax is the entrywise one. -/
theorem logSoftmaxH_eq (Y : FVec Ideal S50000x2 .f32) :
    (logSoftmaxH Y : Mat 50000 2) = logSoftmax (Y : Mat 50000 2) := by
  have hred : (⟨2, ![50000, 2]⟩ : Shape).Reduces [1] ⟨1, ![50000]⟩ := by decide
  unfold logSoftmaxH
  exact hostLogSoftmax_eq (K := 50000) Y (maxColH Y)
    (fun p q => hostMaxCol (K := 50000) Y reducesTo_S50000x2_S50000_d1 hred h_S_ bcast_S_S50000 bcast_S50000_S50000x1_0
      bcast_S50000x1_S50000x2_0_1 p q)
    reducesTo_S50000x2_S50000_d1 hred h_S_ bcast_S50000_S50000x1_0 bcast_S50000x1_S50000x2_0_1

/-! ## What the network returns, as one function of its arguments -/

section Net
variable (x0 : Nodes) (x1 : EdgeIndex)
  (W1 : FVec Ideal S64x64 .f32) (b1 : FVec Ideal S64 .f32)
  (W2 : FVec Ideal S64x64 .f32) (b2 : FVec Ideal S64 .f32)
  (W3 : FVec Ideal S64x64 .f32) (b3 : FVec Ideal S64 .f32)

/-- The first layer's aggregation. -/
def agg1 : Nodes := aggregate (dense (x0 : Mat 50000 64) (W1 : Mat 64 64)) (src x1) (dst x1)
/-- The second layer's aggregation. -/
def agg2 : Nodes :=
  aggregate (dense (relu (biased (agg1 x0 x1 W1 : Mat 50000 64) (row64 b1 : Mat 1 64))) (W2 : Mat 64 64)) (src x1) (dst x1)
/-- The third layer's aggregation. -/
def agg3 : Nodes :=
  aggregate (dense (relu (biased (agg2 x0 x1 W1 b1 W2 : Mat 50000 64) (row64 b2 : Mat 1 64))) (W3 : Mat 64 64)) (src x1) (dst x1)
/-- The embedding: the third layer before its rectifier. -/
def emb : Mat 50000 64 := biased (agg3 x0 x1 W1 b1 W2 b2 W3 : Mat 50000 64) (row64 b3 : Mat 1 64)

variable (Wp1 : FVec Ideal S64x64 .f32) (bp1 : FVec Ideal S64 .f32)
  (Wp2 : FVec Ideal S64x2 .f32) (bp2 : FVec Ideal S2 .f32)

/-- The head's log-probabilities. -/
def logp : Mat 50000 2 :=
  logSoftmax (biased (dense (biased (dense (relu (emb x0 x1 W1 b1 W2 b2 W3 b3)) (Wp1 : Mat 64 64)) (row64 bp1 : Mat 1 64))
    (Wp2 : Mat 64 2)) (row2 bp2 : Mat 1 2))

end Net

end Cert.ReferenceIdeal.Stages

end
-- ==== Proof.LibHostCast.lean ====
/-
  A value stored through a typed buffer reference and read back.

  A host operation's builder transports a value at the operation's stated type to the buffer's own type, and an
  operand's contents back; the two types are equal, so reading back what was stored gives the value.
-/
import Idealize.ShloMosaic.Lib.StableHlo

noncomputable section

namespace Idealize.ShloMosaic.HostCast

open Idealize.ShloMosaic Idealize.ShloMosaic.StableHlo

/-- Stored, then read back: the value. -/
theorem ofBuf_toBuf {sg : RefSig} {Val : EltTy → Type} {T : BufTy} (x : TRef sg T) (v : T.Contents Val) :
    x.ofBuf (x.toBuf v) = v := by
  obtain ⟨r, h, _, _⟩ := x
  subst h
  rfl

end Idealize.ShloMosaic.HostCast

end
-- ==== Proof.KFirst.lean ====
/-
  What the kernel's first stretch of host operations leaves.

  It depends on the graph and the bias vectors alone: the edge lists, `dis²` and the edge coefficients, each
  reshaped to a column — the same array as the vector broadcast to a column —, and the five bias vectors reshaped
  to rows — the same arrays as the vectors broadcast to rows.  The weights and the node features pass through it.
  Each buffer is read off the fold of the stretch's operations; stored-and-read-back pairs are cancelled first, so
  that what is compared with the stage functions is the plain composition of the operations.
-/
import proofs.«133547_j15899968930260_2_alg».proof.Proof.Gen.KernelIdeal.Frame
import proofs.«133547_j15899968930260_2_alg».proof.Proof.Stages
import proofs.«133547_j15899968930260_2_alg».proof.Proof.LibHostCast
import Idealize.ShloMosaic.Lib.StableHlo.Run

set_option maxRecDepth 16384

noncomputable section

namespace Cert.KernelIdeal.KFirst

open Cert.KernelIdeal Cert.KernelIdeal.Gen
open Idealize.ShloMosaic Idealize.ShloMosaic.TcCoe Idealize.SL.Sem Idealize.ShloMosaic.StableHlo
open Idealize.ShloMosaic.RowLocal Idealize.ShloMosaic.RowLayout Idealize.ShloMosaic.HostCast

variable (m : (ℓ : Loc nD τ sig) → Buf (Elt Ideal) ℓ) (ρ : Dev nD → PrngReg) (c : Dev nD)

/-! ## What the first stretch leaves -/

theorem W1_arg0 : W1 m ρ c (Proc.devRef .tc main_arg0) = (m ((c : Thread nD τ).loc main_arg0)) := by
  show StableHlo.after hostOps0 (W0 m ρ c) (Proc.devRef .tc main_arg0) = _
  after_results_simp <;> rfl
theorem W1_arg2 : W1 m ρ c (Proc.devRef .tc main_arg2) = (m ((c : Thread nD τ).loc main_arg2)) := by
  show StableHlo.after hostOps0 (W0 m ρ c) (Proc.devRef .tc main_arg2) = _
  after_results_simp <;> rfl
theorem W1_arg4 : W1 m ρ c (Proc.devRef .tc main_arg4) = (m ((c : Thread nD τ).loc main_arg4)) := by
  show StableHlo.after hostOps0 (W0 m ρ c) (Proc.devRef .tc main_arg4) = _
  after_results_simp <;> rfl
theorem W1_arg6 : W1 m ρ c (Proc.devRef .tc main_arg6) = (m ((c : Thread nD τ).loc main_arg6)) := by
  show StableHlo.after hostOps0 (W0 m ρ c) (Proc.devRef .tc main_arg6) = _
  after_results_simp <;> rfl
theorem W1_arg8 : W1 m ρ c (Proc.devRef .tc main_arg8) = (m ((c : Thread nD τ).loc main_arg8)) := by
  show StableHlo.after hostOps0 (W0 m ρ c) (Proc.devRef .tc main_arg8) = _
  after_results_simp <;> rfl
theorem W1_arg10 : W1 m ρ c (Proc.devRef .tc main_arg10) = (m ((c : Thread nD τ).loc main_arg10)) := by
  show StableHlo.after hostOps0 (W0 m ρ c) (Proc.devRef .tc main_arg10) = _
  after_results_simp <;> rfl
/-- The source list. -/
theorem W1_v1w : (TRef.of (T := ⟨S800000, .i32⟩) main_call0_v1).ofBuf (W1 m ρ c (Proc.devRef .tc main_call0_v1)) = Cert.ReferenceIdeal.Stages.src (m ((c : Thread nD τ).loc main_arg1)) := by
  show (TRef.of (T := ⟨S800000, .i32⟩) main_call0_v1).ofBuf (StableHlo.after hostOps0 (W0 m ρ c) (Proc.devRef .tc main_call0_v1)) = _
  after_results_simp
  try simp only [ofBuf_toBuf]
  rfl
theorem W1_v1 : W1 m ρ c (Proc.devRef .tc main_call0_v1) = Cert.ReferenceIdeal.Stages.src (m ((c : Thread nD τ).loc main_arg1)) := (cast_eq _ _).symm.trans (W1_v1w m ρ c)
/-- The destination list. -/
theorem W1_v3w : (TRef.of (T := ⟨S800000, .i32⟩) main_call0_v3).ofBuf (W1 m ρ c (Proc.devRef .tc main_call0_v3)) = Cert.ReferenceIdeal.Stages.dst (m ((c : Thread nD τ).loc main_arg1)) := by
  show (TRef.of (T := ⟨S800000, .i32⟩) main_call0_v3).ofBuf (StableHlo.after hostOps0 (W0 m ρ c) (Proc.devRef .tc main_call0_v3)) = _
  after_results_simp
  try simp only [ofBuf_toBuf]
  rfl
theorem W1_v3 : W1 m ρ c (Proc.devRef .tc main_call0_v3) = Cert.ReferenceIdeal.Stages.dst (m ((c : Thread nD τ).loc main_arg1)) := (cast_eq _ _).symm.trans (W1_v3w m ρ c)
/-- The reshape of a stored vector, read back, is the reshape of the vector (any vector). -/
theorem reshape_v17 (X : FVec Ideal S50000 .f32) (hp : main_call0_v16.ty.shape.ShapeCasts main_call0_v17.ty.shape) :
    (TRef.of (T := ⟨S50000x1, .f32⟩) main_call0_v17).ofBuf (Val := Elt Ideal)
        (fun i => shapeCast main_call0_v17.ty.shape ((TRef.of (T := ⟨S50000, .f32⟩) main_call0_v16).toBuf (Val := Elt Ideal) X) hp i)
      = (shapeCast S50000x1 X shapeCasts_S50000_S50000x1 : (⟨S50000x1, .f32⟩ : BufTy).Contents (Elt Ideal)) := rfl

/-- `dis²`, reshaped to a column: the same array as the vector broadcast to a column. -/
theorem W1_v17w : (TRef.of (T := ⟨S50000x1, .f32⟩) main_call0_v17).ofBuf (W1 m ρ c (Proc.devRef .tc main_call0_v17)) = Cert.ReferenceIdeal.Stages.dis2Col (Cert.ReferenceIdeal.Stages.dst (m ((c : Thread nD τ).loc main_arg1))) := by
  show (TRef.of (T := ⟨S50000x1, .f32⟩) main_call0_v17).ofBuf (StableHlo.after hostOps0 (W0 m ρ c) (Proc.devRef .tc main_call0_v17)) = _
  after_results_simp
  try simp only [ofBuf_toBuf]
  refine (reshape_v17 _ _).trans ?_
  refine (congrArg (fun X : FVec Ideal S50000 .f32 => shapeCast S50000x1 X shapeCasts_S50000_S50000x1) (?_ : _ = mulf (Cert.ReferenceIdeal.Stages.dis (Cert.ReferenceIdeal.Stages.dst (m ((c : Thread nD τ).loc main_arg1)))) (Cert.ReferenceIdeal.Stages.dis (Cert.ReferenceIdeal.Stages.dst (m ((c : Thread nD τ).loc main_arg1)))))).trans ?_
  · rfl
  · exact reshape_col_eq_broadcast _ _ _
theorem W1_v17 : W1 m ρ c (Proc.devRef .tc main_call0_v17) = Cert.ReferenceIdeal.Stages.dis2Col (Cert.ReferenceIdeal.Stages.dst (m ((c : Thread nD τ).loc main_arg1))) := (cast_eq _ _).symm.trans (W1_v17w m ρ c)
/-- The reshape of a stored vector, read back, is the reshape of the vector (any vector). -/
theorem reshape_v33 (X : FVec Ideal S800000 .f32) (hp : main_call0_v32.ty.shape.ShapeCasts main_call0_v33.ty.shape) :
    (TRef.of (T := ⟨S800000x1, .f32⟩) main_call0_v33).ofBuf (Val := Elt Ideal)
        (fun i => shapeCast main_call0_v33.ty.shape ((TRef.of (T := ⟨S800000, .f32⟩) main_call0_v32).toBuf (Val := Elt Ideal) X) hp i)
      = (shapeCast S800000x1 X shapeCasts_S800000_S800000x1 : (⟨S800000x1, .f32⟩ : BufTy).Contents (Elt Ideal)) := rfl

/-- The edge coefficients, reshaped to a column: the same array as the vector broadcast to a column. -/
theorem W1_v33w : (TRef.of (T := ⟨S800000x1, .f32⟩) main_call0_v33).ofBuf (W1 m ρ c (Proc.devRef .tc main_call0_v33)) = Cert.ReferenceIdeal.Stages.coefCol (Cert.ReferenceIdeal.Stages.src (m ((c : Thread nD τ).loc main_arg1))) (Cert.ReferenceIdeal.Stages.dst (m ((c : Thread nD τ).loc main_arg1))) := by
  show (TRef.of (T := ⟨S800000x1, .f32⟩) main_call0_v33).ofBuf (StableHlo.after hostOps0 (W0 m ρ c) (Proc.devRef .tc main_call0_v33)) = _
  after_results_simp
  try simp only [ofBuf_toBuf]
  refine (reshape_v33 _ _).trans ?_
  refine (congrArg (fun X : FVec Ideal S800000 .f32 => shapeCast S800000x1 X shapeCasts_S800000_S800000x1) (?_ : _ = Cert.ReferenceIdeal.Stages.coef (Cert.ReferenceIdeal.Stages.src (m ((c : Thread nD τ).loc main_arg1))) (Cert.ReferenceIdeal.Stages.dst (m ((c : Thread nD τ).loc main_arg1))))).trans ?_
  · rfl
  · exact reshape_col_eq_broadcast _ _ _
theorem W1_v33 : W1 m ρ c (Proc.devRef .tc main_call0_v33) = Cert.ReferenceIdeal.Stages.coefCol (Cert.ReferenceIdeal.Stages.src (m ((c : Thread nD τ).loc main_arg1))) (Cert.ReferenceIdeal.Stages.dst (m ((c : Thread nD τ).loc main_arg1))) := (cast_eq _ _).symm.trans (W1_v33w m ρ c)
/-- A bias vector reshaped to one row is the vector broadcast to a row. -/
theorem W1_v34w : (TRef.of (T := ⟨S1x64, .f32⟩) main_call0_v34).ofBuf (W1 m ρ c (Proc.devRef .tc main_call0_v34)) = Cert.ReferenceIdeal.Stages.row64 (m ((c : Thread nD τ).loc main_arg3)) := by
  show (TRef.of (T := ⟨S1x64, .f32⟩) main_call0_v34).ofBuf (StableHlo.after hostOps0 (W0 m ρ c) (Proc.devRef .tc main_call0_v34)) = _
  after_results_simp
  try simp only [ofBuf_toBuf]
  refine Eq.trans (b := shapeCast S1x64 (m ((c : Thread nD τ).loc main_arg3)) shapeCasts_S64_S1x64) rfl ?_
  exact reshape_row_eq_broadcast _ _ _
theorem W1_v34 : W1 m ρ c (Proc.devRef .tc main_call0_v34) = Cert.ReferenceIdeal.Stages.row64 (m ((c : Thread nD τ).loc main_arg3)) := (cast_eq _ _).symm.trans (W1_v34w m ρ c)
/-- A bias vector reshaped to one row is the vector broadcast to a row. -/
theorem W1_v35w : (TRef.of (T := ⟨S1x64, .f32⟩) main_call0_v35).ofBuf (W1 m ρ c (Proc.devRef .tc main_call0_v35)) = Cert.ReferenceIdeal.Stages.row64 (m ((c : Thread nD τ).loc main_arg5)) := by
  show (TRef.of (T := ⟨S1x64, .f32⟩) main_call0_v35).ofBuf (StableHlo.after hostOps0 (W0 m ρ c) (Proc.devRef .tc main_call0_v35)) = _
  after_results_simp
  try simp only [ofBuf_toBuf]
  refine Eq.trans (b := shapeCast S1x64 (m ((c : Thread nD τ).loc main_arg5)) shapeCasts_S64_S1x64) rfl ?_
  exact reshape_row_eq_broadcast _ _ _
theorem W1_v35 : W1 m ρ c (Proc.devRef .tc main_call0_v35) = Cert.ReferenceIdeal.Stages.row64 (m ((c : Thread nD τ).loc main_arg5)) := (cast_eq _ _).symm.trans (W1_v35w m ρ c)
/-- A bias vector reshaped to one row is the vector broadcast to a row. -/
theorem W1_v36w : (TRef.of (T := ⟨S1x64, .f32⟩) main_call0_v36).ofBuf (W1 m ρ c (Proc.devRef .tc main_call0_v36)) = Cert.ReferenceIdeal.Stages.row64 (m ((c : Thread nD τ).loc main_arg7)) := by
  show (TRef.of (T := ⟨S1x64, .f32⟩) main_call0_v36).ofBuf (StableHlo.after hostOps0 (W0 m ρ c) (Proc.devRef .tc main_call0_v36)) = _
  after_results_simp
  try simp only [ofBuf_toBuf]
  refine Eq.trans (b := shapeCast S1x64 (m ((c : Thread nD τ).loc main_arg7)) shapeCasts_S64_S1x64) rfl ?_
  exact reshape_row_eq_broadcast _ _ _
theorem W1_v36 : W1 m ρ c (Proc.devRef .tc main_call0_v36) = Cert.ReferenceIdeal.Stages.row64 (m ((c : Thread nD τ).loc main_arg7)) := (cast_eq _ _).symm.trans (W1_v36w m ρ c)
/-- A bias vector reshaped to one row is the vector broadcast to a row. -/
theorem W1_v37w : (TRef.of (T := ⟨S1x64, .f32⟩) main_call0_v37).ofBuf (W1 m ρ c (Proc.devRef .tc main_call0_v37)) = Cert.ReferenceIdeal.Stages.row64 (m ((c : Thread nD τ).loc main_arg9)) := by
  show (TRef.of (T := ⟨S1x64, .f32⟩) main_call0_v37).ofBuf (StableHlo.after hostOps0 (W0 m ρ c) (Proc.devRef .tc main_call0_v37)) = _
  after_results_simp
  try simp only [ofBuf_toBuf]
  refine Eq.trans (b := shapeCast S1x64 (m ((c : Thread nD τ).loc main_arg9)) shapeCasts_S64_S1x64) rfl ?_
  exact reshape_row_eq_broadcast _ _ _
theorem W1_v37 : W1 m ρ c (Proc.devRef .tc main_call0_v37) = Cert.ReferenceIdeal.Stages.row64 (m ((c : Thread nD τ).loc main_arg9)) := (cast_eq _ _).symm.trans (W1_v37w m ρ c)
/-- A bias vector reshaped to one row is the vector broadcast to a row. -/
theorem W1_v38w : (TRef.of (T := ⟨S1x2, .f32⟩) main_call0_v38).ofBuf (W1 m ρ c (Proc.devRef .tc main_call0_v38)) = Cert.ReferenceIdeal.Stages.row2 (m ((c : Thread nD τ).loc main_arg11)) := by
  show (TRef.of (T := ⟨S1x2, .f32⟩) main_call0_v38).ofBuf (StableHlo.after hostOps0 (W0 m ρ c) (Proc.devRef .tc main_call0_v38)) = _
  after_results_simp
  try simp only [ofBuf_toBuf]
  refine Eq.trans (b := shapeCast S1x2 (m ((c : Thread nD τ).loc main_arg11)) shapeCasts_S2_S1x2) rfl ?_
  exact reshape_row_eq_broadcast _ _ _
theorem W1_v38 : W1 m ρ c (Proc.devRef .tc main_call0_v38) = Cert.ReferenceIdeal.Stages.row2 (m ((c : Thread nD τ).loc main_arg11)) := (cast_eq _ _).symm.trans (W1_v38w m ρ c)

end Cert.KernelIdeal.KFirst

end
-- ==== Proof.KCarry.lean ====
/-
  Buffers the kernel's later stretches and regions only read.

  The edge lists, the two columns, the bias rows and the weights are written by no host operation after the first
  stretch and by no region (a region reads them through input windows or not at all), so every later boundary finds
  them as the first stretch left them.
-/
import proofs.«133547_j15899968930260_2_alg».proof.Proof.Gen.KernelIdeal.Frame
import proofs.«133547_j15899968930260_2_alg».proof.Proof.LibLogSoftmax
import Idealize.ShloMosaic.Lib.StableHlo.Run

set_option maxRecDepth 16384

noncomputable section

namespace Cert.KernelIdeal.KCarry

open Cert.KernelIdeal Cert.KernelIdeal.Gen
open Idealize.ShloMosaic Idealize.ShloMosaic.TcCoe Idealize.SL.Sem Idealize.ShloMosaic.StableHlo
open Idealize.ShloMosaic.RowLocal Idealize.ShloMosaic.RowLayout

variable (m : (ℓ : Loc nD τ sig) → Buf (Elt Ideal) ℓ) (ρ : Dev nD → PrngReg) (c : Dev nD)

/-! ## Buffers no later stretch or region writes are found as the first stretch left them -/

theorem keep1_v1 : W3 m ρ c (Proc.devRef .tc main_call0_v1) = W2 m ρ c (Proc.devRef .tc main_call0_v1) :=
  StableHlo.after_of_forall_not_mem (b := (Proc.devRef .tc main_call0_v1)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v3 : W3 m ρ c (Proc.devRef .tc main_call0_v3) = W2 m ρ c (Proc.devRef .tc main_call0_v3) :=
  StableHlo.after_of_forall_not_mem (b := (Proc.devRef .tc main_call0_v3)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v33 : W3 m ρ c (Proc.devRef .tc main_call0_v33) = W2 m ρ c (Proc.devRef .tc main_call0_v33) :=
  StableHlo.after_of_forall_not_mem (b := (Proc.devRef .tc main_call0_v33)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v17 : W3 m ρ c (Proc.devRef .tc main_call0_v17) = W2 m ρ c (Proc.devRef .tc main_call0_v17) :=
  StableHlo.after_of_forall_not_mem (b := (Proc.devRef .tc main_call0_v17)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v34 : W3 m ρ c (Proc.devRef .tc main_call0_v34) = W2 m ρ c (Proc.devRef .tc main_call0_v34) :=
  StableHlo.after_of_forall_not_mem (b := (Proc.devRef .tc main_call0_v34)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg4 : W3 m ρ c (Proc.devRef .tc main_arg4) = W2 m ρ c (Proc.devRef .tc main_arg4) :=
  StableHlo.after_of_forall_not_mem (b := (Proc.devRef .tc main_arg4)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v35 : W3 m ρ c (Proc.devRef .tc main_call0_v35) = W2 m ρ c (Proc.devRef .tc main_call0_v35) :=
  StableHlo.after_of_forall_not_mem (b := (Proc.devRef .tc main_call0_v35)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg6 : W3 m ρ c (Proc.devRef .tc main_arg6) = W2 m ρ c (Proc.devRef .tc main_arg6) :=
  StableHlo.after_of_forall_not_mem (b := (Proc.devRef .tc main_arg6)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v36 : W3 m ρ c (Proc.devRef .tc main_call0_v36) = W2 m ρ c (Proc.devRef .tc main_call0_v36) :=
  StableHlo.after_of_forall_not_mem (b := (Proc.devRef .tc main_call0_v36)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg8 : W3 m ρ c (Proc.devRef .tc main_arg8) = W2 m ρ c (Proc.devRef .tc main_arg8) :=
  StableHlo.after_of_forall_not_mem (b := (Proc.devRef .tc main_arg8)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v37 : W3 m ρ c (Proc.devRef .tc main_call0_v37) = W2 m ρ c (Proc.devRef .tc main_call0_v37) :=
  StableHlo.after_of_forall_not_mem (b := (Proc.devRef .tc main_call0_v37)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg10 : W3 m ρ c (Proc.devRef .tc main_arg10) = W2 m ρ c (Proc.devRef .tc main_arg10) :=
  StableHlo.after_of_forall_not_mem (b := (Proc.devRef .tc main_arg10)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v38 : W3 m ρ c (Proc.devRef .tc main_call0_v38) = W2 m ρ c (Proc.devRef .tc main_call0_v38) :=
  StableHlo.after_of_forall_not_mem (b := (Proc.devRef .tc main_call0_v38)) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v1 : W5 m ρ c (Proc.devRef .tc main_call0_v1) = W4 m ρ c (Proc.devRef .tc main_call0_v1) :=
  StableHlo.after_of_forall_not_mem (b := (Proc.devRef .tc main_call0_v1)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v3 : W5 m ρ c (Proc.devRef .tc main_call0_v3) = W4 m ρ c (Proc.devRef .tc main_call0_v3) :=
  StableHlo.after_of_forall_not_mem (b := (Proc.devRef .tc main_call0_v3)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v33 : W5 m ρ c (Proc.devRef .tc main_call0_v33) = W4 m ρ c (Proc.devRef .tc main_call0_v33) :=
  StableHlo.after_of_forall_not_mem (b := (Proc.devRef .tc main_call0_v33)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v17 : W5 m ρ c (Proc.devRef .tc main_call0_v17) = W4 m ρ c (Proc.devRef .tc main_call0_v17) :=
  StableHlo.after_of_forall_not_mem (b := (Proc.devRef .tc main_call0_v17)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v35 : W5 m ρ c (Proc.devRef .tc main_call0_v35) = W4 m ρ c (Proc.devRef .tc main_call0_v35) :=
  StableHlo.after_of_forall_not_mem (b := (Proc.devRef .tc main_call0_v35)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg6 : W5 m ρ c (Proc.devRef .tc main_arg6) = W4 m ρ c (Proc.devRef .tc main_arg6) :=
  StableHlo.after_of_forall_not_mem (b := (Proc.devRef .tc main_arg6)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v36 : W5 m ρ c (Proc.devRef .tc main_call0_v36) = W4 m ρ c (Proc.devRef .tc main_call0_v36) :=
  StableHlo.after_of_forall_not_mem (b := (Proc.devRef .tc main_call0_v36)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg8 : W5 m ρ c (Proc.devRef .tc main_arg8) = W4 m ρ c (Proc.devRef .tc main_arg8) :=
  StableHlo.after_of_forall_not_mem (b := (Proc.devRef .tc main_arg8)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v37 : W5 m ρ c (Proc.devRef .tc main_call0_v37) = W4 m ρ c (Proc.devRef .tc main_call0_v37) :=
  StableHlo.after_of_forall_not_mem (b := (Proc.devRef .tc main_call0_v37)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg10 : W5 m ρ c (Proc.devRef .tc main_arg10) = W4 m ρ c (Proc.devRef .tc main_arg10) :=
  StableHlo.after_of_forall_not_mem (b := (Proc.devRef .tc main_arg10)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v38 : W5 m ρ c (Proc.devRef .tc main_call0_v38) = W4 m ρ c (Proc.devRef .tc main_call0_v38) :=
  StableHlo.after_of_forall_not_mem (b := (Proc.devRef .tc main_call0_v38)) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v36 : W7 m ρ c (Proc.devRef .tc main_call0_v36) = W6 m ρ c (Proc.devRef .tc main_call0_v36) :=
  StableHlo.after_of_forall_not_mem (b := (Proc.devRef .tc main_call0_v36)) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg8 : W7 m ρ c (Proc.devRef .tc main_arg8) = W6 m ρ c (Proc.devRef .tc main_arg8) :=
  StableHlo.after_of_forall_not_mem (b := (Proc.devRef .tc main_arg8)) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v37 : W7 m ρ c (Proc.devRef .tc main_call0_v37) = W6 m ρ c (Proc.devRef .tc main_call0_v37) :=
  StableHlo.after_of_forall_not_mem (b := (Proc.devRef .tc main_call0_v37)) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_arg10 : W7 m ρ c (Proc.devRef .tc main_arg10) = W6 m ρ c (Proc.devRef .tc main_arg10) :=
  StableHlo.after_of_forall_not_mem (b := (Proc.devRef .tc main_arg10)) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v38 : W7 m ρ c (Proc.devRef .tc main_call0_v38) = W6 m ρ c (Proc.devRef .tc main_call0_v38) :=
  StableHlo.after_of_forall_not_mem (b := (Proc.devRef .tc main_call0_v38)) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem at2_v1 : W2 m ρ c (Proc.devRef .tc main_call0_v1) = W1 m ρ c (Proc.devRef .tc main_call0_v1) := W2_of_ne m ρ c main_call0_v1 (by decide)
theorem at3_v1 : W3 m ρ c (Proc.devRef .tc main_call0_v1) = W1 m ρ c (Proc.devRef .tc main_call0_v1) := (keep1_v1 m ρ c).trans (at2_v1 m ρ c)
theorem at2_v3 : W2 m ρ c (Proc.devRef .tc main_call0_v3) = W1 m ρ c (Proc.devRef .tc main_call0_v3) := W2_of_ne m ρ c main_call0_v3 (by decide)
theorem at3_v3 : W3 m ρ c (Proc.devRef .tc main_call0_v3) = W1 m ρ c (Proc.devRef .tc main_call0_v3) := (keep1_v3 m ρ c).trans (at2_v3 m ρ c)
theorem at2_v33 : W2 m ρ c (Proc.devRef .tc main_call0_v33) = W1 m ρ c (Proc.devRef .tc main_call0_v33) := W2_of_ne m ρ c main_call0_v33 (by decide)
theorem at3_v33 : W3 m ρ c (Proc.devRef .tc main_call0_v33) = W1 m ρ c (Proc.devRef .tc main_call0_v33) := (keep1_v33 m ρ c).trans (at2_v33 m ρ c)
theorem at2_v17 : W2 m ρ c (Proc.devRef .tc main_call0_v17) = W1 m ρ c (Proc.devRef .tc main_call0_v17) := W2_of_ne m ρ c main_call0_v17 (by decide)
theorem at3_v17 : W3 m ρ c (Proc.devRef .tc main_call0_v17) = W1 m ρ c (Proc.devRef .tc main_call0_v17) := (keep1_v17 m ρ c).trans (at2_v17 m ρ c)
theorem at2_v34 : W2 m ρ c (Proc.devRef .tc main_call0_v34) = W1 m ρ c (Proc.devRef .tc main_call0_v34) := W2_of_ne m ρ c main_call0_v34 (by decide)
theorem at3_v34 : W3 m ρ c (Proc.devRef .tc main_call0_v34) = W1 m ρ c (Proc.devRef .tc main_call0_v34) := (keep1_v34 m ρ c).trans (at2_v34 m ρ c)
theorem at2_arg4 : W2 m ρ c (Proc.devRef .tc main_arg4) = W1 m ρ c (Proc.devRef .tc main_arg4) := W2_of_ne m ρ c main_arg4 (by decide)
theorem at3_arg4 : W3 m ρ c (Proc.devRef .tc main_arg4) = W1 m ρ c (Proc.devRef .tc main_arg4) := (keep1_arg4 m ρ c).trans (at2_arg4 m ρ c)
theorem at2_v35 : W2 m ρ c (Proc.devRef .tc main_call0_v35) = W1 m ρ c (Proc.devRef .tc main_call0_v35) := W2_of_ne m ρ c main_call0_v35 (by decide)
theorem at3_v35 : W3 m ρ c (Proc.devRef .tc main_call0_v35) = W1 m ρ c (Proc.devRef .tc main_call0_v35) := (keep1_v35 m ρ c).trans (at2_v35 m ρ c)
theorem at2_arg6 : W2 m ρ c (Proc.devRef .tc main_arg6) = W1 m ρ c (Proc.devRef .tc main_arg6) := W2_of_ne m ρ c main_arg6 (by decide)
theorem at3_arg6 : W3 m ρ c (Proc.devRef .tc main_arg6) = W1 m ρ c (Proc.devRef .tc main_arg6) := (keep1_arg6 m ρ c).trans (at2_arg6 m ρ c)
theorem at2_v36 : W2 m ρ c (Proc.devRef .tc main_call0_v36) = W1 m ρ c (Proc.devRef .tc main_call0_v36) := W2_of_ne m ρ c main_call0_v36 (by decide)
theorem at3_v36 : W3 m ρ c (Proc.devRef .tc main_call0_v36) = W1 m ρ c (Proc.devRef .tc main_call0_v36) := (keep1_v36 m ρ c).trans (at2_v36 m ρ c)
theorem at2_arg8 : W2 m ρ c (Proc.devRef .tc main_arg8) = W1 m ρ c (Proc.devRef .tc main_arg8) := W2_of_ne m ρ c main_arg8 (by decide)
theorem at3_arg8 : W3 m ρ c (Proc.devRef .tc main_arg8) = W1 m ρ c (Proc.devRef .tc main_arg8) := (keep1_arg8 m ρ c).trans (at2_arg8 m ρ c)
theorem at2_v37 : W2 m ρ c (Proc.devRef .tc main_call0_v37) = W1 m ρ c (Proc.devRef .tc main_call0_v37) := W2_of_ne m ρ c main_call0_v37 (by decide)
theorem at3_v37 : W3 m ρ c (Proc.devRef .tc main_call0_v37) = W1 m ρ c (Proc.devRef .tc main_call0_v37) := (keep1_v37 m ρ c).trans (at2_v37 m ρ c)
theorem at2_arg10 : W2 m ρ c (Proc.devRef .tc main_arg10) = W1 m ρ c (Proc.devRef .tc main_arg10) := W2_of_ne m ρ c main_arg10 (by decide)
theorem at3_arg10 : W3 m ρ c (Proc.devRef .tc main_arg10) = W1 m ρ c (Proc.devRef .tc main_arg10) := (keep1_arg10 m ρ c).trans (at2_arg10 m ρ c)
theorem at2_v38 : W2 m ρ c (Proc.devRef .tc main_call0_v38) = W1 m ρ c (Proc.devRef .tc main_call0_v38) := W2_of_ne m ρ c main_call0_v38 (by decide)
theorem at3_v38 : W3 m ρ c (Proc.devRef .tc main_call0_v38) = W1 m ρ c (Proc.devRef .tc main_call0_v38) := (keep1_v38 m ρ c).trans (at2_v38 m ρ c)
theorem at4_v1 : W4 m ρ c (Proc.devRef .tc main_call0_v1) = W1 m ρ c (Proc.devRef .tc main_call0_v1) := (W4_of_ne m ρ c main_call0_v1 (by decide)).trans (at3_v1 m ρ c)
theorem at5_v1 : W5 m ρ c (Proc.devRef .tc main_call0_v1) = W1 m ρ c (Proc.devRef .tc main_call0_v1) := (keep2_v1 m ρ c).trans (at4_v1 m ρ c)
theorem at4_v3 : W4 m ρ c (Proc.devRef .tc main_call0_v3) = W1 m ρ c (Proc.devRef .tc main_call0_v3) := (W4_of_ne m ρ c main_call0_v3 (by decide)).trans (at3_v3 m ρ c)
theorem at5_v3 : W5 m ρ c (Proc.devRef .tc main_call0_v3) = W1 m ρ c (Proc.devRef .tc main_call0_v3) := (keep2_v3 m ρ c).trans (at4_v3 m ρ c)
theorem at4_v33 : W4 m ρ c (Proc.devRef .tc main_call0_v33) = W1 m ρ c (Proc.devRef .tc main_call0_v33) := (W4_of_ne m ρ c main_call0_v33 (by decide)).trans (at3_v33 m ρ c)
theorem at5_v33 : W5 m ρ c (Proc.devRef .tc main_call0_v33) = W1 m ρ c (Proc.devRef .tc main_call0_v33) := (keep2_v33 m ρ c).trans (at4_v33 m ρ c)
theorem at4_v17 : W4 m ρ c (Proc.devRef .tc main_call0_v17) = W1 m ρ c (Proc.devRef .tc main_call0_v17) := (W4_of_ne m ρ c main_call0_v17 (by decide)).trans (at3_v17 m ρ c)
theorem at5_v17 : W5 m ρ c (Proc.devRef .tc main_call0_v17) = W1 m ρ c (Proc.devRef .tc main_call0_v17) := (keep2_v17 m ρ c).trans (at4_v17 m ρ c)
theorem at4_v35 : W4 m ρ c (Proc.devRef .tc main_call0_v35) = W1 m ρ c (Proc.devRef .tc main_call0_v35) := (W4_of_ne m ρ c main_call0_v35 (by decide)).trans (at3_v35 m ρ c)
theorem at5_v35 : W5 m ρ c (Proc.devRef .tc main_call0_v35) = W1 m ρ c (Proc.devRef .tc main_call0_v35) := (keep2_v35 m ρ c).trans (at4_v35 m ρ c)
theorem at4_arg6 : W4 m ρ c (Proc.devRef .tc main_arg6) = W1 m ρ c (Proc.devRef .tc main_arg6) := (W4_of_ne m ρ c main_arg6 (by decide)).trans (at3_arg6 m ρ c)
theorem at5_arg6 : W5 m ρ c (Proc.devRef .tc main_arg6) = W1 m ρ c (Proc.devRef .tc main_arg6) := (keep2_arg6 m ρ c).trans (at4_arg6 m ρ c)
theorem at4_v36 : W4 m ρ c (Proc.devRef .tc main_call0_v36) = W1 m ρ c (Proc.devRef .tc main_call0_v36) := (W4_of_ne m ρ c main_call0_v36 (by decide)).trans (at3_v36 m ρ c)
theorem at5_v36 : W5 m ρ c (Proc.devRef .tc main_call0_v36) = W1 m ρ c (Proc.devRef .tc main_call0_v36) := (keep2_v36 m ρ c).trans (at4_v36 m ρ c)
theorem at4_arg8 : W4 m ρ c (Proc.devRef .tc main_arg8) = W1 m ρ c (Proc.devRef .tc main_arg8) := (W4_of_ne m ρ c main_arg8 (by decide)).trans (at3_arg8 m ρ c)
theorem at5_arg8 : W5 m ρ c (Proc.devRef .tc main_arg8) = W1 m ρ c (Proc.devRef .tc main_arg8) := (keep2_arg8 m ρ c).trans (at4_arg8 m ρ c)
theorem at4_v37 : W4 m ρ c (Proc.devRef .tc main_call0_v37) = W1 m ρ c (Proc.devRef .tc main_call0_v37) := (W4_of_ne m ρ c main_call0_v37 (by decide)).trans (at3_v37 m ρ c)
theorem at5_v37 : W5 m ρ c (Proc.devRef .tc main_call0_v37) = W1 m ρ c (Proc.devRef .tc main_call0_v37) := (keep2_v37 m ρ c).trans (at4_v37 m ρ c)
theorem at4_arg10 : W4 m ρ c (Proc.devRef .tc main_arg10) = W1 m ρ c (Proc.devRef .tc main_arg10) := (W4_of_ne m ρ c main_arg10 (by decide)).trans (at3_arg10 m ρ c)
theorem at5_arg10 : W5 m ρ c (Proc.devRef .tc main_arg10) = W1 m ρ c (Proc.devRef .tc main_arg10) := (keep2_arg10 m ρ c).trans (at4_arg10 m ρ c)
theorem at4_v38 : W4 m ρ c (Proc.devRef .tc main_call0_v38) = W1 m ρ c (Proc.devRef .tc main_call0_v38) := (W4_of_ne m ρ c main_call0_v38 (by decide)).trans (at3_v38 m ρ c)
theorem at5_v38 : W5 m ρ c (Proc.devRef .tc main_call0_v38) = W1 m ρ c (Proc.devRef .tc main_call0_v38) := (keep2_v38 m ρ c).trans (at4_v38 m ρ c)
theorem at6_v1 : W6 m ρ c (Proc.devRef .tc main_call0_v1) = W1 m ρ c (Proc.devRef .tc main_call0_v1) := (W6_of_ne m ρ c main_call0_v1 (by decide)).trans (at5_v1 m ρ c)
theorem at6_v3 : W6 m ρ c (Proc.devRef .tc main_call0_v3) = W1 m ρ c (Proc.devRef .tc main_call0_v3) := (W6_of_ne m ρ c main_call0_v3 (by decide)).trans (at5_v3 m ρ c)
theorem at6_v33 : W6 m ρ c (Proc.devRef .tc main_call0_v33) = W1 m ρ c (Proc.devRef .tc main_call0_v33) := (W6_of_ne m ρ c main_call0_v33 (by decide)).trans (at5_v33 m ρ c)
theorem at6_v17 : W6 m ρ c (Proc.devRef .tc main_call0_v17) = W1 m ρ c (Proc.devRef .tc main_call0_v17) := (W6_of_ne m ρ c main_call0_v17 (by decide)).trans (at5_v17 m ρ c)
theorem at6_v36 : W6 m ρ c (Proc.devRef .tc main_call0_v36) = W1 m ρ c (Proc.devRef .tc main_call0_v36) := (W6_of_ne m ρ c main_call0_v36 (by decide)).trans (at5_v36 m ρ c)
theorem at6_arg8 : W6 m ρ c (Proc.devRef .tc main_arg8) = W1 m ρ c (Proc.devRef .tc main_arg8) := (W6_of_ne m ρ c main_arg8 (by decide)).trans (at5_arg8 m ρ c)
theorem at6_v37 : W6 m ρ c (Proc.devRef .tc main_call0_v37) = W1 m ρ c (Proc.devRef .tc main_call0_v37) := (W6_of_ne m ρ c main_call0_v37 (by decide)).trans (at5_v37 m ρ c)
theorem at6_arg10 : W6 m ρ c (Proc.devRef .tc main_arg10) = W1 m ρ c (Proc.devRef .tc main_arg10) := (W6_of_ne m ρ c main_arg10 (by decide)).trans (at5_arg10 m ρ c)
theorem at6_v38 : W6 m ρ c (Proc.devRef .tc main_call0_v38) = W1 m ρ c (Proc.devRef .tc main_call0_v38) := (W6_of_ne m ρ c main_call0_v38 (by decide)).trans (at5_v38 m ρ c)
theorem at7_v36 : W7 m ρ c (Proc.devRef .tc main_call0_v36) = W1 m ρ c (Proc.devRef .tc main_call0_v36) := (keep3_v36 m ρ c).trans (at6_v36 m ρ c)
theorem at7_arg8 : W7 m ρ c (Proc.devRef .tc main_arg8) = W1 m ρ c (Proc.devRef .tc main_arg8) := (keep3_arg8 m ρ c).trans (at6_arg8 m ρ c)
theorem at7_v37 : W7 m ρ c (Proc.devRef .tc main_call0_v37) = W1 m ρ c (Proc.devRef .tc main_call0_v37) := (keep3_v37 m ρ c).trans (at6_v37 m ρ c)
theorem at7_arg10 : W7 m ρ c (Proc.devRef .tc main_arg10) = W1 m ρ c (Proc.devRef .tc main_arg10) := (keep3_arg10 m ρ c).trans (at6_arg10 m ρ c)
theorem at7_v38 : W7 m ρ c (Proc.devRef .tc main_call0_v38) = W1 m ρ c (Proc.devRef .tc main_call0_v38) := (keep3_v38 m ρ c).trans (at6_v38 m ρ c)

end Cert.KernelIdeal.KCarry

end
-- ==== Proof.KStages.lean ====
/-
  The idealized kernel's results, boundary by boundary.

  @main of the kernel alternates stretches of host operations with four pipelined regions.  The first stretch
  computes what depends on the graph alone; those buffers are then only read, so each later boundary finds them as
  the first stretch left them.  Each region leaves its output array at the entrywise layer of what it found (one
  module per region), and each later stretch aggregates the region's output over the graph — in the kernel's
  spelling: the product arrives in the short float format and is widened, an identity over the extended reals, and
  the coefficients and self-loop weights arrive as columns.  Chaining the boundaries gives the two result buffers
  as `emb` and `logp` of the twelve arguments.
-/
import proofs.«133547_j15899968930260_2_alg».proof.Proof.KernelRun
import proofs.«133547_j15899968930260_2_alg».proof.Proof.Region0
import proofs.«133547_j15899968930260_2_alg».proof.Proof.Region1
import proofs.«133547_j15899968930260_2_alg».proof.Proof.Region2
import proofs.«133547_j15899968930260_2_alg».proof.Proof.Region3
import proofs.«133547_j15899968930260_2_alg».proof.Proof.Stages
import proofs.«133547_j15899968930260_2_alg».proof.Proof.KFirst
import proofs.«133547_j15899968930260_2_alg».proof.Proof.KCarry
import proofs.«133547_j15899968930260_2_alg».proof.Proof.LibHostCast
import Idealize.ShloMosaic.Lib.StableHlo.Run

set_option maxRecDepth 16384

noncomputable section

namespace Cert.KernelIdeal.KStages

open Cert.KernelIdeal Cert.KernelIdeal.Gen
open Idealize.ShloMosaic Idealize.ShloMosaic.TcCoe Idealize.SL.Sem Idealize.ShloMosaic.StableHlo
open Idealize.ShloMosaic.RowLocal Idealize.ShloMosaic.RowLayout Idealize.ShloMosaic.HostCast
open Cert.KernelIdeal.KFirst Cert.KernelIdeal.KCarry

variable (m : (ℓ : Loc nD τ sig) → Buf (Elt Ideal) ℓ) (ρ : Dev nD → PrngReg) (c : Dev nD)

/-! ## The kernel's spelling of the aggregation -/

/-- One layer's aggregation as the kernel's host operations spell it. -/
def aggregateK (h : FVec Ideal S50000x64 .bf16) (s d : IVec S800000 32) (cc : FVec Ideal S800000x1 .f32)
    (d2 : FVec Ideal S50000x1 .f32) : FVec Ideal S50000x64 .f32 :=
  addf (Host.scatterAdd scatter_S50000x64_S800000x1_S800000x64_1_0_0_1
      (broadcastInDim S50000x64 ![] bcast_S_S50000x64 (constant (F := Ideal) S_ .f32 0x00000000#32))
      (broadcastInDim S800000x1 ![0] bcast_S800000_S800000x1_0
        (select (cmpi .slt d (broadcastInDim S800000 ![] bcast_S_S800000 (constantI S_ 32 0#32)))
          (addi d (broadcastInDim S800000 ![] bcast_S_S800000 (constantI S_ 32 50000#32))) d))
      (mulf (extf .f32 (Host.gather gather_S50000x64_S800000x1_S800000x64_1_0_n_n_0_1_164 h
          (broadcastInDim S800000x1 ![0] bcast_S800000_S800000x1_0
        (select (cmpi .slt s (broadcastInDim S800000 ![] bcast_S_S800000 (constantI S_ 32 0#32)))
          (addi s (broadcastInDim S800000 ![] bcast_S_S800000 (constantI S_ 32 50000#32))) s))) bitsLt_bf16_f32)
        (broadcastInDim S800000x64 ![0, 1] bcast_S800000x1_S800000x64_0_1 cc)))
    (mulf (extf .f32 h bitsLt_bf16_f32) (broadcastInDim S50000x64 ![0, 1] bcast_S50000x1_S50000x64_0_1 d2))

/-- With the coefficient and self-loop columns it is the shared aggregation: widening is the identity. -/
theorem aggregateK_eq (h : FVec Ideal S50000x64 .bf16) (s d : IVec S800000 32) :
    aggregateK h s d (Cert.ReferenceIdeal.Stages.coefCol s d) (Cert.ReferenceIdeal.Stages.dis2Col d) = Cert.ReferenceIdeal.Stages.aggregate h s d := rfl

/-! ## The boundaries in order -/

/-- Region 0 leaves the first layer's product `x · W1`. -/
theorem hw1 : (W2 m ρ c (Proc.devRef .tc main_call0_v39) : Mat 50000 64) = dense ((m ((c : Thread nD τ).loc main_arg0)) : Mat 50000 64) ((m ((c : Thread nD τ).loc main_arg2)) : Mat 64 64) := by
  refine (W2_arr m ρ c 2).trans ((Region0.final_2 (V1 m ρ) c).trans ?_)
  show dense (W1 m ρ c (Proc.devRef .tc main_arg0) : Mat 50000 64) (W1 m ρ c (Proc.devRef .tc main_arg2) : Mat 64 64) = _
  rw [W1_arg0, W1_arg2]

/-- The second stretch aggregates the first product over the graph. -/
theorem agg1_eqw : ((TRef.of (T := ⟨S50000x64, .f32⟩) main_call0_v61).ofBuf (W3 m ρ c (Proc.devRef .tc main_call0_v61)))
    = aggregateK ((TRef.of (T := ⟨S50000x64, .bf16⟩) main_call0_v39).ofBuf (W2 m ρ c (Proc.devRef .tc main_call0_v39))) ((TRef.of (T := ⟨S800000, .i32⟩) main_call0_v1).ofBuf (W2 m ρ c (Proc.devRef .tc main_call0_v1))) ((TRef.of (T := ⟨S800000, .i32⟩) main_call0_v3).ofBuf (W2 m ρ c (Proc.devRef .tc main_call0_v3)))
        ((TRef.of (T := ⟨S800000x1, .f32⟩) main_call0_v33).ofBuf (W2 m ρ c (Proc.devRef .tc main_call0_v33))) ((TRef.of (T := ⟨S50000x1, .f32⟩) main_call0_v17).ofBuf (W2 m ρ c (Proc.devRef .tc main_call0_v17))) := by
  show (TRef.of (T := ⟨S50000x64, .f32⟩) main_call0_v61).ofBuf (StableHlo.after hostOps1 (W2 m ρ c) (Proc.devRef .tc main_call0_v61)) = _
  after_results_simp
  try simp only [ofBuf_toBuf]
  rfl

theorem agg1_eq : W3 m ρ c (Proc.devRef .tc main_call0_v61) = Cert.ReferenceIdeal.Stages.agg1 (m ((c : Thread nD τ).loc main_arg0)) (m ((c : Thread nD τ).loc main_arg1)) (m ((c : Thread nD τ).loc main_arg2)) := by
  have L0 : ((TRef.of (T := ⟨S50000x64, .bf16⟩) main_call0_v39).ofBuf (W2 m ρ c (Proc.devRef .tc main_call0_v39))) = (dense ((m ((c : Thread nD τ).loc main_arg0)) : Mat 50000 64) ((m ((c : Thread nD τ).loc main_arg2)) : Mat 64 64) : Mat 50000 64) := (cast_eq _ _).trans (hw1 m ρ c)
  have L1 : ((TRef.of (T := ⟨S800000, .i32⟩) main_call0_v1).ofBuf (W2 m ρ c (Proc.devRef .tc main_call0_v1))) = Cert.ReferenceIdeal.Stages.src (m ((c : Thread nD τ).loc main_arg1)) := (cast_eq _ _).trans ((at2_v1 m ρ c).trans (W1_v1 m ρ c))
  have L3 : ((TRef.of (T := ⟨S800000, .i32⟩) main_call0_v3).ofBuf (W2 m ρ c (Proc.devRef .tc main_call0_v3))) = Cert.ReferenceIdeal.Stages.dst (m ((c : Thread nD τ).loc main_arg1)) := (cast_eq _ _).trans ((at2_v3 m ρ c).trans (W1_v3 m ρ c))
  have L33 : ((TRef.of (T := ⟨S800000x1, .f32⟩) main_call0_v33).ofBuf (W2 m ρ c (Proc.devRef .tc main_call0_v33))) = Cert.ReferenceIdeal.Stages.coefCol (Cert.ReferenceIdeal.Stages.src (m ((c : Thread nD τ).loc main_arg1))) (Cert.ReferenceIdeal.Stages.dst (m ((c : Thread nD τ).loc main_arg1))) := (cast_eq _ _).trans ((at2_v33 m ρ c).trans (W1_v33 m ρ c))
  have L17 : ((TRef.of (T := ⟨S50000x1, .f32⟩) main_call0_v17).ofBuf (W2 m ρ c (Proc.devRef .tc main_call0_v17))) = Cert.ReferenceIdeal.Stages.dis2Col (Cert.ReferenceIdeal.Stages.dst (m ((c : Thread nD τ).loc main_arg1))) := (cast_eq _ _).trans ((at2_v17 m ρ c).trans (W1_v17 m ρ c))
  refine (cast_eq _ _).symm.trans ((agg1_eqw m ρ c).trans ?_)
  rw [L0, L1, L3, L33, L17, aggregateK_eq]
  rfl

/-- Region 1 leaves the second layer's product. -/
theorem hw2 : (W4 m ρ c (Proc.devRef .tc main_call0_v62) : Mat 50000 64) = (dense (relu (biased (Cert.ReferenceIdeal.Stages.agg1 (m ((c : Thread nD τ).loc main_arg0)) (m ((c : Thread nD τ).loc main_arg1)) (m ((c : Thread nD τ).loc main_arg2)) : Mat 50000 64) (Cert.ReferenceIdeal.Stages.row64 (m ((c : Thread nD τ).loc main_arg3)) : Mat 1 64))) ((m ((c : Thread nD τ).loc main_arg4)) : Mat 64 64) : Mat 50000 64) := by
  refine (W4_arr m ρ c 3).trans ((Region1.final_3 (V3 m ρ) c).trans ?_)
  show dense (relu (biased (W3 m ρ c (Proc.devRef .tc main_call0_v61) : Mat 50000 64) (W3 m ρ c (Proc.devRef .tc main_call0_v34) : Mat 1 64)))
      (W3 m ρ c (Proc.devRef .tc main_arg4) : Mat 64 64) = _
  rw [agg1_eq, at3_v34, W1_v34, at3_arg4, W1_arg4]

/-- The third stretch aggregates the second product over the graph. -/
theorem agg2_eqw : ((TRef.of (T := ⟨S50000x64, .f32⟩) main_call0_v84).ofBuf (W5 m ρ c (Proc.devRef .tc main_call0_v84)))
    = aggregateK ((TRef.of (T := ⟨S50000x64, .bf16⟩) main_call0_v62).ofBuf (W4 m ρ c (Proc.devRef .tc main_call0_v62))) ((TRef.of (T := ⟨S800000, .i32⟩) main_call0_v1).ofBuf (W4 m ρ c (Proc.devRef .tc main_call0_v1))) ((TRef.of (T := ⟨S800000, .i32⟩) main_call0_v3).ofBuf (W4 m ρ c (Proc.devRef .tc main_call0_v3)))
        ((TRef.of (T := ⟨S800000x1, .f32⟩) main_call0_v33).ofBuf (W4 m ρ c (Proc.devRef .tc main_call0_v33))) ((TRef.of (T := ⟨S50000x1, .f32⟩) main_call0_v17).ofBuf (W4 m ρ c (Proc.devRef .tc main_call0_v17))) := by
  show (TRef.of (T := ⟨S50000x64, .f32⟩) main_call0_v84).ofBuf (StableHlo.after hostOps2 (W4 m ρ c) (Proc.devRef .tc main_call0_v84)) = _
  after_results_simp
  try simp only [ofBuf_toBuf]
  rfl

theorem agg2_eq : W5 m ρ c (Proc.devRef .tc main_call0_v84) = Cert.ReferenceIdeal.Stages.agg2 (m ((c : Thread nD τ).loc main_arg0)) (m ((c : Thread nD τ).loc main_arg1)) (m ((c : Thread nD τ).loc main_arg2)) (m ((c : Thread nD τ).loc main_arg3)) (m ((c : Thread nD τ).loc main_arg4)) := by
  have L0 : ((TRef.of (T := ⟨S50000x64, .bf16⟩) main_call0_v62).ofBuf (W4 m ρ c (Proc.devRef .tc main_call0_v62))) = (dense (relu (biased (Cert.ReferenceIdeal.Stages.agg1 (m ((c : Thread nD τ).loc main_arg0)) (m ((c : Thread nD τ).loc main_arg1)) (m ((c : Thread nD τ).loc main_arg2)) : Mat 50000 64) (Cert.ReferenceIdeal.Stages.row64 (m ((c : Thread nD τ).loc main_arg3)) : Mat 1 64))) ((m ((c : Thread nD τ).loc main_arg4)) : Mat 64 64) : Mat 50000 64) := (cast_eq _ _).trans (hw2 m ρ c)
  have L1 : ((TRef.of (T := ⟨S800000, .i32⟩) main_call0_v1).ofBuf (W4 m ρ c (Proc.devRef .tc main_call0_v1))) = Cert.ReferenceIdeal.Stages.src (m ((c : Thread nD τ).loc main_arg1)) := (cast_eq _ _).trans ((at4_v1 m ρ c).trans (W1_v1 m ρ c))
  have L3 : ((TRef.of (T := ⟨S800000, .i32⟩) main_call0_v3).ofBuf (W4 m ρ c (Proc.devRef .tc main_call0_v3))) = Cert.ReferenceIdeal.Stages.dst (m ((c : Thread nD τ).loc main_arg1)) := (cast_eq _ _).trans ((at4_v3 m ρ c).trans (W1_v3 m ρ c))
  have L33 : ((TRef.of (T := ⟨S800000x1, .f32⟩) main_call0_v33).ofBuf (W4 m ρ c (Proc.devRef .tc main_call0_v33))) = Cert.ReferenceIdeal.Stages.coefCol (Cert.ReferenceIdeal.Stages.src (m ((c : Thread nD τ).loc main_arg1))) (Cert.ReferenceIdeal.Stages.dst (m ((c : Thread nD τ).loc main_arg1))) := (cast_eq _ _).trans ((at4_v33 m ρ c).trans (W1_v33 m ρ c))
  have L17 : ((TRef.of (T := ⟨S50000x1, .f32⟩) main_call0_v17).ofBuf (W4 m ρ c (Proc.devRef .tc main_call0_v17))) = Cert.ReferenceIdeal.Stages.dis2Col (Cert.ReferenceIdeal.Stages.dst (m ((c : Thread nD τ).loc main_arg1))) := (cast_eq _ _).trans ((at4_v17 m ρ c).trans (W1_v17 m ρ c))
  refine (cast_eq _ _).symm.trans ((agg2_eqw m ρ c).trans ?_)
  rw [L0, L1, L3, L33, L17, aggregateK_eq]
  rfl

/-- Region 2 leaves the third layer's product. -/
theorem hw3 : (W6 m ρ c (Proc.devRef .tc main_call0_v85) : Mat 50000 64) = (dense (relu (biased (Cert.ReferenceIdeal.Stages.agg2 (m ((c : Thread nD τ).loc main_arg0)) (m ((c : Thread nD τ).loc main_arg1)) (m ((c : Thread nD τ).loc main_arg2)) (m ((c : Thread nD τ).loc main_arg3)) (m ((c : Thread nD τ).loc main_arg4)) : Mat 50000 64) (Cert.ReferenceIdeal.Stages.row64 (m ((c : Thread nD τ).loc main_arg5)) : Mat 1 64))) ((m ((c : Thread nD τ).loc main_arg6)) : Mat 64 64) : Mat 50000 64) := by
  refine (W6_arr m ρ c 3).trans ((Region2.final_3 (V5 m ρ) c).trans ?_)
  show dense (relu (biased (W5 m ρ c (Proc.devRef .tc main_call0_v84) : Mat 50000 64) (W5 m ρ c (Proc.devRef .tc main_call0_v35) : Mat 1 64)))
      (W5 m ρ c (Proc.devRef .tc main_arg6) : Mat 64 64) = _
  rw [agg2_eq, at5_v35, W1_v35, at5_arg6, W1_arg6]

/-- The fourth stretch aggregates the third product over the graph. -/
theorem agg3_eqw : ((TRef.of (T := ⟨S50000x64, .f32⟩) main_call0_v107).ofBuf (W7 m ρ c (Proc.devRef .tc main_call0_v107)))
    = aggregateK ((TRef.of (T := ⟨S50000x64, .bf16⟩) main_call0_v85).ofBuf (W6 m ρ c (Proc.devRef .tc main_call0_v85))) ((TRef.of (T := ⟨S800000, .i32⟩) main_call0_v1).ofBuf (W6 m ρ c (Proc.devRef .tc main_call0_v1))) ((TRef.of (T := ⟨S800000, .i32⟩) main_call0_v3).ofBuf (W6 m ρ c (Proc.devRef .tc main_call0_v3)))
        ((TRef.of (T := ⟨S800000x1, .f32⟩) main_call0_v33).ofBuf (W6 m ρ c (Proc.devRef .tc main_call0_v33))) ((TRef.of (T := ⟨S50000x1, .f32⟩) main_call0_v17).ofBuf (W6 m ρ c (Proc.devRef .tc main_call0_v17))) := by
  show (TRef.of (T := ⟨S50000x64, .f32⟩) main_call0_v107).ofBuf (StableHlo.after hostOps3 (W6 m ρ c) (Proc.devRef .tc main_call0_v107)) = _
  after_results_simp
  try simp only [ofBuf_toBuf]
  rfl

theorem agg3_eq : W7 m ρ c (Proc.devRef .tc main_call0_v107) = Cert.ReferenceIdeal.Stages.agg3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have L0 : ((TRef.of (T := ⟨S50000x64, .bf16⟩) main_call0_v85).ofBuf (W6 m ρ c (Proc.devRef .tc main_call0_v85))) = (dense (relu (biased (Cert.ReferenceIdeal.Stages.agg2 (m ((c : Thread nD τ).loc main_arg0)) (m ((c : Thread nD τ).loc main_arg1)) (m ((c : Thread nD τ).loc main_arg2)) (m ((c : Thread nD τ).loc main_arg3)) (m ((c : Thread nD τ).loc main_arg4)) : Mat 50000 64) (Cert.ReferenceIdeal.Stages.row64 (m ((c : Thread nD τ).loc main_arg5)) : Mat 1 64))) ((m ((c : Thread nD τ).loc main_arg6)) : Mat 64 64) : Mat 50000 64) := (cast_eq _ _).trans (hw3 m ρ c)
  have L1 : ((TRef.of (T := ⟨S800000, .i32⟩) main_call0_v1).ofBuf (W6 m ρ c (Proc.devRef .tc main_call0_v1))) = Cert.ReferenceIdeal.Stages.src (m ((c : Thread nD τ).loc main_arg1)) := (cast_eq _ _).trans ((at6_v1 m ρ c).trans (W1_v1 m ρ c))
  have L3 : ((TRef.of (T := ⟨S800000, .i32⟩) main_call0_v3).ofBuf (W6 m ρ c (Proc.devRef .tc main_call0_v3))) = Cert.ReferenceIdeal.Stages.dst (m ((c : Thread nD τ).loc main_arg1)) := (cast_eq _ _).trans ((at6_v3 m ρ c).trans (W1_v3 m ρ c))
  have L33 : ((TRef.of (T := ⟨S800000x1, .f32⟩) main_call0_v33).ofBuf (W6 m ρ c (Proc.devRef .tc main_call0_v33))) = Cert.ReferenceIdeal.Stages.coefCol (Cert.ReferenceIdeal.Stages.src (m ((c : Thread nD τ).loc main_arg1))) (Cert.ReferenceIdeal.Stages.dst (m ((c : Thread nD τ).loc main_arg1))) := (cast_eq _ _).trans ((at6_v33 m ρ c).trans (W1_v33 m ρ c))
  have L17 : ((TRef.of (T := ⟨S50000x1, .f32⟩) main_call0_v17).ofBuf (W6 m ρ c (Proc.devRef .tc main_call0_v17))) = Cert.ReferenceIdeal.Stages.dis2Col (Cert.ReferenceIdeal.Stages.dst (m ((c : Thread nD τ).loc main_arg1))) := (cast_eq _ _).trans ((at6_v17 m ρ c).trans (W1_v17 m ρ c))
  refine (cast_eq _ _).symm.trans ((agg3_eqw m ρ c).trans ?_)
  rw [L0, L1, L3, L33, L17, aggregateK_eq]
  rfl

/-- Region 3's first output: the embedding. -/
theorem emb_eq : (W8 m ρ c (Proc.devRef .tc main_v0_0) : Mat 50000 64)
    = Cert.ReferenceIdeal.Stages.emb (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 6).trans ((Region3.final_6 (V7 m ρ) c).trans ?_)
  show biased (W7 m ρ c (Proc.devRef .tc main_call0_v107) : Mat 50000 64) (W7 m ρ c (Proc.devRef .tc main_call0_v36) : Mat 1 64) = _
  rw [agg3_eq, at7_v36, W1_v36]
  rfl

/-- Region 3's second output: the head's log-probabilities. -/
theorem logp_eq : (W8 m ρ c (Proc.devRef .tc main_v0_1) : Mat 50000 2)
    = Cert.ReferenceIdeal.Stages.logp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 7).trans ((Region3.final_7 (V7 m ρ) c).trans ?_)
  show logSoftmax (Region3.headPre (W7 m ρ c (Proc.devRef .tc main_call0_v107) : Mat 50000 64) (W7 m ρ c (Proc.devRef .tc main_call0_v36) : Mat 1 64)
      (W7 m ρ c (Proc.devRef .tc main_arg8) : Mat 64 64) (W7 m ρ c (Proc.devRef .tc main_call0_v37) : Mat 1 64)
      (W7 m ρ c (Proc.devRef .tc main_arg10) : Mat 64 2) (W7 m ρ c (Proc.devRef .tc main_call0_v38) : Mat 1 2)) = _
  rw [agg3_eq, at7_v36, W1_v36, at7_arg8, W1_arg8, at7_v37, W1_v37, at7_arg10, W1_arg10, at7_v38, W1_v38]
  rfl

end Cert.KernelIdeal.KStages

end
-- ==== Proof.RefOps.lean ====
/-
  The reference's @main as a list of host operations.

  @main of the reference is a straight line of 240 host operations (a called function's operations stand in its
  call's place): three layers, each followed by its rectifier, then the head's two dense layers and its log-softmax.
  The list is given whole, and in eight stretches — each layer, each rectifier, the head's dense part, the
  log-softmax —.
-/
import proofs.«133547_j15899968930260_2_alg».proof.ReferenceIdeal
import proofs.«133547_j15899968930260_2_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- Stretch `lay1`. -/
abbrev lay1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v16 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    nullary main_cst_7 (constant S_ .f32 0x00000000#32),
    unary main_cst_7 main_v32 (broadcastInDim S50000x64 ![] bcast_S_S50000x64 : (⟨S_, .f32⟩ : BufTy).Contents (Elt F) → (⟨S50000x64, .f32⟩ : BufTy).Contents (Elt F)),
    nullary main_c_8 (constantI S_ 32 0#32),
    unary main_c_8 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v40 (broadcastInDim S800000x1 ![0] bcast_S800000_S800000x1_0 : (⟨S800000, .f32⟩ : BufTy).Contents (Elt F) → (⟨S800000x1, .f32⟩ : BufTy).Contents (Elt F)),
    unary main_v40 main_v41 (broadcastInDim S800000x64 ![0, 1] bcast_S800000x1_S800000x64_0_1 : (⟨S800000x1, .f32⟩ : BufTy).Contents (Elt F) → (⟨S800000x64, .f32⟩ : BufTy).Contents (Elt F)),
    binary main_v39 main_v41 main_v42 (mulf : (⟨S800000x64, .f32⟩ : BufTy).Contents (Elt F) → (⟨S800000x64, .f32⟩ : BufTy).Contents (Elt F) → (⟨S800000x64, .f32⟩ : BufTy).Contents (Elt F)),
    nullary main_c_10 (constantI S_ 32 0#32),
    unary main_c_10 main_v43 (broadcastInDim S800000 ![] bcast_S_S800000 : (⟨S_, .i32⟩ : BufTy).Contents (Elt F) → (⟨S800000, .i32⟩ : BufTy).Contents (Elt F)),
    binary main_v3 main_v43 main_v44 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v45 (broadcastInDim S800000 ![] bcast_S_S800000 : (⟨S_, .i32⟩ : BufTy).Contents (Elt F) → (⟨S800000, .i32⟩ : BufTy).Contents (Elt F)),
    binary main_v3 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_v3 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    ternary main_v32 main_v48 main_v42 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v16 main_v16 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x64 ![0, 1] bcast_S50000x1_S50000x64_0_1 : (⟨S50000x1, .f32⟩ : BufTy).Contents (Elt F) → (⟨S50000x64, .f32⟩ : BufTy).Contents (Elt F)),
    binary main_v4 main_v52 main_v53 (mulf : (⟨S50000x64, .f32⟩ : BufTy).Contents (Elt F) → (⟨S50000x64, .f32⟩ : BufTy).Contents (Elt F) → (⟨S50000x64, .f32⟩ : BufTy).Contents (Elt F)),
    binary main_v49 main_v53 main_v54 (addf : (⟨S50000x64, .f32⟩ : BufTy).Contents (Elt F) → (⟨S50000x64, .f32⟩ : BufTy).Contents (Elt F) → (⟨S50000x64, .f32⟩ : BufTy).Contents (Elt F)),
    unary main_arg3 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v54 main_v56 main_v57 (addf : (⟨S50000x64, .f32⟩ : BufTy).Contents (Elt F) → (⟨S50000x64, .f32⟩ : BufTy).Contents (Elt F) → (⟨S50000x64, .f32⟩ : BufTy).Contents (Elt F)) ]

/-- Stretch `relu1`. -/
abbrev relu1 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v57) (TRef.of (T := ⟨S50000x64, .f32⟩) main_call0_v0) (TRef.of (T := ⟨S50000x64, .f32⟩) main_v58) maximumf ]

/-- Stretch `lay2`. -/
abbrev lay2 : List (HloOp τ sig (Elt F)) :=
  [ binary main_v58 main_arg4 main_v59 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_12 (constant S_ .f32 0x00000000#32),
    unary main_cst_12 main_v60 (broadcastInDim S50000 ![] bcast_S_S50000 : (⟨S_, .f32⟩ : BufTy).Contents (Elt F) → (⟨S50000, .f32⟩ : BufTy).Contents (Elt F)),
    nullary main_c_13 (constantI S_ 32 0#32),
    unary main_c_13 main_v61 (broadcastInDim S800000 ![] bcast_S_S800000 : (⟨S_, .i32⟩ : BufTy).Contents (Elt F) → (⟨S800000, .i32⟩ : BufTy).Contents (Elt F)),
    binary main_v3 main_v61 main_v62 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v63 (broadcastInDim S800000 ![] bcast_S_S800000 : (⟨S_, .i32⟩ : BufTy).Contents (Elt F) → (⟨S800000, .i32⟩ : BufTy).Contents (Elt F)),
    binary main_v3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    nullary main_cst_15 (constant S_ .f32 0x3F800000#32),
    unary main_cst_15 main_v67 (broadcastInDim S800000 ![] bcast_S_S800000 : (⟨S_, .f32⟩ : BufTy).Contents (Elt F) → (⟨S800000, .f32⟩ : BufTy).Contents (Elt F)),
    ternary main_v60 main_v66 main_v67 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x3F800000#32),
    unary main_cst_16 main_v69 (broadcastInDim S50000 ![] bcast_S_S50000 : (⟨S_, .f32⟩ : BufTy).Contents (Elt F) → (⟨S50000, .f32⟩ : BufTy).Contents (Elt F)),
    binary main_v68 main_v69 main_v70 (addf : (⟨S50000, .f32⟩ : BufTy).Contents (Elt F) → (⟨S50000, .f32⟩ : BufTy).Contents (Elt F) → (⟨S50000, .f32⟩ : BufTy).Contents (Elt F)),
    unary main_v70 main_v71 (Host.rsqrt : (⟨S50000, .f32⟩ : BufTy).Contents (Elt F) → (⟨S50000, .f32⟩ : BufTy).Contents (Elt F)),
    nullary main_c_17 (constantI S_ 32 0#32),
    unary main_c_17 main_v72 (broadcastInDim S800000 ![] bcast_S_S800000 : (⟨S_, .i32⟩ : BufTy).Contents (Elt F) → (⟨S800000, .i32⟩ : BufTy).Contents (Elt F)),
    binary main_v1 main_v72 main_v73 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v74 (broadcastInDim S800000 ![] bcast_S_S800000 : (⟨S_, .i32⟩ : BufTy).Contents (Elt F) → (⟨S800000, .i32⟩ : BufTy).Contents (Elt F)),
    binary main_v1 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v71 main_v77 main_v78 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_19 (constantI S_ 32 0#32),
    unary main_c_19 main_v79 (broadcastInDim S800000 ![] bcast_S_S800000 : (⟨S_, .i32⟩ : BufTy).Contents (Elt F) → (⟨S800000, .i32⟩ : BufTy).Contents (Elt F)),
    binary main_v3 main_v79 main_v80 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v81 (broadcastInDim S800000 ![] bcast_S_S800000 : (⟨S_, .i32⟩ : BufTy).Contents (Elt F) → (⟨S800000, .i32⟩ : BufTy).Contents (Elt F)),
    binary main_v3 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v3 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v71 main_v84 main_v85 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v78 main_v85 main_v86 (mulf : (⟨S800000, .f32⟩ : BufTy).Contents (Elt F) → (⟨S800000, .f32⟩ : BufTy).Contents (Elt F) → (⟨S800000, .f32⟩ : BufTy).Contents (Elt F)),
    nullary main_cst_21 (constant S_ .f32 0x00000000#32),
    unary main_cst_21 main_v87 (broadcastInDim S50000x64 ![] bcast_S_S50000x64 : (⟨S_, .f32⟩ : BufTy).Contents (Elt F) → (⟨S50000x64, .f32⟩ : BufTy).Contents (Elt F)),
    nullary main_c_22 (constantI S_ 32 0#32),
    unary main_c_22 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v59 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v86 main_v95 (broadcastInDim S800000x1 ![0] bcast_S800000_S800000x1_0 : (⟨S800000, .f32⟩ : BufTy).Contents (Elt F) → (⟨S800000x1, .f32⟩ : BufTy).Contents (Elt F)),
    unary main_v95 main_v96 (broadcastInDim S800000x64 ![0, 1] bcast_S800000x1_S800000x64_0_1 : (⟨S800000x1, .f32⟩ : BufTy).Contents (Elt F) → (⟨S800000x64, .f32⟩ : BufTy).Contents (Elt F)),
    binary main_v94 main_v96 main_v97 (mulf : (⟨S800000x64, .f32⟩ : BufTy).Contents (Elt F) → (⟨S800000x64, .f32⟩ : BufTy).Contents (Elt F) → (⟨S800000x64, .f32⟩ : BufTy).Contents (Elt F)),
    nullary main_c_24 (constantI S_ 32 0#32),
    unary main_c_24 main_v98 (broadcastInDim S800000 ![] bcast_S_S800000 : (⟨S_, .i32⟩ : BufTy).Contents (Elt F) → (⟨S800000, .i32⟩ : BufTy).Contents (Elt F)),
    binary main_v3 main_v98 main_v99 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v100 (broadcastInDim S800000 ![] bcast_S_S800000 : (⟨S_, .i32⟩ : BufTy).Contents (Elt F) → (⟨S800000, .i32⟩ : BufTy).Contents (Elt F)),
    binary main_v3 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v3 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    ternary main_v87 main_v103 main_v97 main_v104 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v71 main_v71 main_v105 (mulf : (⟨S50000, .f32⟩ : BufTy).Contents (Elt F) → (⟨S50000, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    unary main_v106 main_v107 (broadcastInDim S50000x64 ![0, 1] bcast_S50000x1_S50000x64_0_1 : (⟨S50000x1, .f32⟩ : BufTy).Contents (Elt F) → (⟨S50000x64, .f32⟩ : BufTy).Contents (Elt F)),
    binary main_v59 main_v107 main_v108 (mulf : (⟨S50000x64, .f32⟩ : BufTy).Contents (Elt F) → (⟨S50000x64, .f32⟩ : BufTy).Contents (Elt F) → (⟨S50000x64, .f32⟩ : BufTy).Contents (Elt F)),
    binary main_v104 main_v108 main_v109 (addf : (⟨S50000x64, .f32⟩ : BufTy).Contents (Elt F) → (⟨S50000x64, .f32⟩ : BufTy).Contents (Elt F) → (⟨S50000x64, .f32⟩ : BufTy).Contents (Elt F)),
    unary main_arg5 main_v110 (broadcastInDim S1x64 ![1] bcast_S64_S1x64_1 : (⟨S64, .f32⟩ : BufTy).Contents (Elt F) → (⟨S1x64, .f32⟩ : BufTy).Contents (Elt F)),
    unary main_v110 main_v111 (broadcastInDim S50000x64 ![0, 1] bcast_S1x64_S50000x64_0_1 : (⟨S1x64, .f32⟩ : BufTy).Contents (Elt F) → (⟨S50000x64, .f32⟩ : BufTy).Contents (Elt F)),
    binary main_v109 main_v111 main_v112 (addf : (⟨S50000x64, .f32⟩ : BufTy).Contents (Elt F) → (⟨S50000x64, .f32⟩ : BufTy).Contents (Elt F) → (⟨S50000x64, .f32⟩ : BufTy).Contents (Elt F)) ]

/-- Stretch `relu2`. -/
abbrev relu2 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v112) (TRef.of (T := ⟨S50000x64, .f32⟩) main_call1_v0) (TRef.of (T := ⟨S50000x64, .f32⟩) main_v113) maximumf ]

/-- Stretch `lay3`. -/
abbrev lay3 : List (HloOp τ sig (Elt F)) :=
  [ binary main_v113 main_arg6 main_v114 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_26 (constant S_ .f32 0x00000000#32),
    unary main_cst_26 main_v115 (broadcastInDim S50000 ![] bcast_S_S50000 : (⟨S_, .f32⟩ : BufTy).Contents (Elt F) → (⟨S50000, .f32⟩ : BufTy).Contents (Elt F)),
    nullary main_c_27 (constantI S_ 32 0#32),
    unary main_c_27 main_v116 (broadcastInDim S800000 ![] bcast_S_S800000 : (⟨S_, .i32⟩ : BufTy).Contents (Elt F) → (⟨S800000, .i32⟩ : BufTy).Contents (Elt F)),
    binary main_v3 main_v116 main_v117 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v118 (broadcastInDim S800000 ![] bcast_S_S800000 : (⟨S_, .i32⟩ : BufTy).Contents (Elt F) → (⟨S800000, .i32⟩ : BufTy).Contents (Elt F)),
    binary main_v3 main_v118 main_v119 (addi : (⟨S800000, .i32⟩ : BufTy).Contents (Elt F) → (⟨S800000, .i32⟩ : BufTy).Contents (Elt F) → (⟨S800000, .i32⟩ : BufTy).Contents (Elt F)),
    ternary main_v117 main_v119 main_v3 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v120 main_v121 (broadcastInDim S800000x1 ![0] bcast_S800000_S800000x1_0 : (⟨S800000, .i32⟩ : BufTy).Contents (Elt F) → (⟨S800000x1, .i32⟩ : BufTy).Contents (Elt F)),
    nullary main_cst_29 (constant S_ .f32 0x3F800000#32),
    unary main_cst_29 main_v122 (broadcastInDim S800000 ![] bcast_S_S800000 : (⟨S_, .f32⟩ : BufTy).Contents (Elt F) → (⟨S800000, .f32⟩ : BufTy).Contents (Elt F)),
    ternary main_v115 main_v121 main_v122 main_v123 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_30 (constant S_ .f32 0x3F800000#32),
    unary main_cst_30 main_v124 (broadcastInDim S50000 ![] bcast_S_S50000 : (⟨S_, .f32⟩ : BufTy).Contents (Elt F) → (⟨S50000, .f32⟩ : BufTy).Contents (Elt F)),
    binary main_v123 main_v124 main_v125 (addf : (⟨S50000, .f32⟩ : BufTy).Contents (Elt F) → (⟨S50000, .f32⟩ : BufTy).Contents (Elt F) → (⟨S50000, .f32⟩ : BufTy).Contents (Elt F)),
    unary main_v125 main_v126 (Host.rsqrt : (⟨S50000, .f32⟩ : BufTy).Contents (Elt F) → (⟨S50000, .f32⟩ : BufTy).Contents (Elt F)),
    nullary main_c_31 (constantI S_ 32 0#32),
    unary main_c_31 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v126 main_v132 main_v133 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_33 (constantI S_ 32 0#32),
    unary main_c_33 main_v134 (broadcastInDim S800000 ![] bcast_S_S800000 : (⟨S_, .i32⟩ : BufTy).Contents (Elt F) → (⟨S800000, .i32⟩ : BufTy).Contents (Elt F)),
    binary main_v3 main_v134 main_v135 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v136 (broadcastInDim S800000 ![] bcast_S_S800000 : (⟨S_, .i32⟩ : BufTy).Contents (Elt F) → (⟨S800000, .i32⟩ : BufTy).Contents (Elt F)),
    binary main_v3 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v3 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v126 main_v139 main_v140 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v133 main_v140 main_v141 (mulf : (⟨S800000, .f32⟩ : BufTy).Contents (Elt F) → (⟨S800000, .f32⟩ : BufTy).Contents (Elt F) → (⟨S800000, .f32⟩ : BufTy).Contents (Elt F)),
    nullary main_cst_35 (constant S_ .f32 0x00000000#32),
    unary main_cst_35 main_v142 (broadcastInDim S50000x64 ![] bcast_S_S50000x64 : (⟨S_, .f32⟩ : BufTy).Contents (Elt F) → (⟨S50000x64, .f32⟩ : BufTy).Contents (Elt F)),
    nullary main_c_36 (constantI S_ 32 0#32),
    unary main_c_36 main_v143 (broadcastInDim S800000 ![] bcast_S_S800000 : (⟨S_, .i32⟩ : BufTy).Contents (Elt F) → (⟨S800000, .i32⟩ : BufTy).Contents (Elt F)),
    binary main_v1 main_v143 main_v144 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v145 (broadcastInDim S800000 ![] bcast_S_S800000 : (⟨S_, .i32⟩ : BufTy).Contents (Elt F) → (⟨S800000, .i32⟩ : BufTy).Contents (Elt F)),
    binary main_v1 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v114 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v141 main_v150 (broadcastInDim S800000x1 ![0] bcast_S800000_S800000x1_0 : (⟨S800000, .f32⟩ : BufTy).Contents (Elt F) → (⟨S800000x1, .f32⟩ : BufTy).Contents (Elt F)),
    unary main_v150 main_v151 (broadcastInDim S800000x64 ![0, 1] bcast_S800000x1_S800000x64_0_1 : (⟨S800000x1, .f32⟩ : BufTy).Contents (Elt F) → (⟨S800000x64, .f32⟩ : BufTy).Contents (Elt F)),
    binary main_v149 main_v151 main_v152 (mulf : (⟨S800000x64, .f32⟩ : BufTy).Contents (Elt F) → (⟨S800000x64, .f32⟩ : BufTy).Contents (Elt F) → (⟨S800000x64, .f32⟩ : BufTy).Contents (Elt F)),
    nullary main_c_38 (constantI S_ 32 0#32),
    unary main_c_38 main_v153 (broadcastInDim S800000 ![] bcast_S_S800000 : (⟨S_, .i32⟩ : BufTy).Contents (Elt F) → (⟨S800000, .i32⟩ : BufTy).Contents (Elt F)),
    binary main_v3 main_v153 main_v154 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v155 (broadcastInDim S800000 ![] bcast_S_S800000 : (⟨S_, .i32⟩ : BufTy).Contents (Elt F) → (⟨S800000, .i32⟩ : BufTy).Contents (Elt F)),
    binary main_v3 main_v155 main_v156 (addi : (⟨S800000, .i32⟩ : BufTy).Contents (Elt F) → (⟨S800000, .i32⟩ : BufTy).Contents (Elt F) → (⟨S800000, .i32⟩ : BufTy).Contents (Elt F)),
    ternary main_v154 main_v156 main_v3 main_v157 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v157 main_v158 (broadcastInDim S800000x1 ![0] bcast_S800000_S800000x1_0 : (⟨S800000, .i32⟩ : BufTy).Contents (Elt F) → (⟨S800000x1, .i32⟩ : BufTy).Contents (Elt F)),
    ternary main_v142 main_v158 main_v152 main_v159 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v126 main_v126 main_v160 (mulf : (⟨S50000, .f32⟩ : BufTy).Contents (Elt F) → (⟨S50000, .f32⟩ : BufTy).Contents (Elt F) → (⟨S50000, .f32⟩ : BufTy).Contents (Elt F)),
    unary main_v160 main_v161 (broadcastInDim S50000x1 ![0] bcast_S50000_S50000x1_0 : (⟨S50000, .f32⟩ : BufTy).Contents (Elt F) → (⟨S50000x1, .f32⟩ : BufTy).Contents (Elt F)),
    unary main_v161 main_v162 (broadcastInDim S50000x64 ![0, 1] bcast_S50000x1_S50000x64_0_1 : (⟨S50000x1, .f32⟩ : BufTy).Contents (Elt F) → (⟨S50000x64, .f32⟩ : BufTy).Contents (Elt F)),
    binary main_v114 main_v162 main_v163 (mulf : (⟨S50000x64, .f32⟩ : BufTy).Contents (Elt F) → (⟨S50000x64, .f32⟩ : BufTy).Contents (Elt F) → (⟨S50000x64, .f32⟩ : BufTy).Contents (Elt F)),
    binary main_v159 main_v163 main_v164 (addf : (⟨S50000x64, .f32⟩ : BufTy).Contents (Elt F) → (⟨S50000x64, .f32⟩ : BufTy).Contents (Elt F) → (⟨S50000x64, .f32⟩ : BufTy).Contents (Elt F)),
    unary main_arg7 main_v165 (broadcastInDim S1x64 ![1] bcast_S64_S1x64_1 : (⟨S64, .f32⟩ : BufTy).Contents (Elt F) → (⟨S1x64, .f32⟩ : BufTy).Contents (Elt F)),
    unary main_v165 main_v166 (broadcastInDim S50000x64 ![0, 1] bcast_S1x64_S50000x64_0_1 : (⟨S1x64, .f32⟩ : BufTy).Contents (Elt F) → (⟨S50000x64, .f32⟩ : BufTy).Contents (Elt F)),
    binary main_v164 main_v166 main_v167 (addf : (⟨S50000x64, .f32⟩ : BufTy).Contents (Elt F) → (⟨S50000x64, .f32⟩ : BufTy).Contents (Elt F) → (⟨S50000x64, .f32⟩ : BufTy).Contents (Elt F)) ]

/-- Stretch `relu3`. -/
abbrev relu3 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v167) (TRef.of (T := ⟨S50000x64, .f32⟩) main_call2_v0) (TRef.of (T := ⟨S50000x64, .f32⟩) main_v168) maximumf ]

/-- Stretch `headOps`: the head's two dense layers. -/
abbrev headOps : List (HloOp τ sig (Elt F)) :=
  [ binary main_v168 main_arg8 main_v169 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v169 main_v171 main_v172 (addf : (⟨S50000x64, .f32⟩ : BufTy).Contents (Elt F) → (⟨S50000x64, .f32⟩ : BufTy).Contents (Elt F) → (⟨S50000x64, .f32⟩ : BufTy).Contents (Elt F)),
    binary main_v172 main_arg10 main_v173 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    unary main_arg11 main_v174 (broadcastInDim S1x2 ![1] bcast_S2_S1x2_1 : (⟨S2, .f32⟩ : BufTy).Contents (Elt F) → (⟨S1x2, .f32⟩ : BufTy).Contents (Elt F)),
    unary main_v174 main_v175 (broadcastInDim S50000x2 ![0, 1] bcast_S1x2_S50000x2_0_1 : (⟨S1x2, .f32⟩ : BufTy).Contents (Elt F) → (⟨S50000x2, .f32⟩ : BufTy).Contents (Elt F)),
    binary main_v173 main_v175 main_v176 (addf : (⟨S50000x2, .f32⟩ : BufTy).Contents (Elt F) → (⟨S50000x2, .f32⟩ : BufTy).Contents (Elt F) → (⟨S50000x2, .f32⟩ : BufTy).Contents (Elt F)) ]

/-- Stretch `lsmOps`: the log-softmax. -/
abbrev lsmOps : List (HloOp τ sig (Elt F)) :=
  [ TRef.nullary (TRef.of (T := ⟨S_, .f32⟩) main_call3_cst) (constant S_ .f32 0xFF800000#32),
    TRef.binary (TRef.of (T := ⟨S50000x2, .f32⟩) main_v176) (TRef.of (T := ⟨S_, .f32⟩) main_call3_cst) (TRef.of (T := ⟨S50000, .f32⟩) main_call3_v0) (fun x v => Host.reduce FloatOps.maximumf x v reducesTo_S50000x2_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x2, .f32⟩) main_call3_v4) (broadcastInDim S50000x2 ![0, 1] bcast_S50000x1_S50000x2_0_1),
    TRef.binary (TRef.of (T := ⟨S50000x2, .f32⟩) main_v176) (TRef.of (T := ⟨S50000x2, .f32⟩) main_call3_v4) (TRef.of (T := ⟨S50000x2, .f32⟩) main_call3_v5) subf,
    TRef.unary (TRef.of (T := ⟨S50000x2, .f32⟩) main_call3_v5) (TRef.of (T := ⟨S50000x2, .f32⟩) main_call3_v6) Host.exp,
    TRef.nullary (TRef.of (T := ⟨S_, .f32⟩) main_call3_cst_1) (constant S_ .f32 0x00000000#32),
    TRef.binary (TRef.of (T := ⟨S50000x2, .f32⟩) main_call3_v6) (TRef.of (T := ⟨S_, .f32⟩) main_call3_cst_1) (TRef.of (T := ⟨S50000, .f32⟩) main_call3_v7) (fun x v => Host.reduceAdd x v reducesTo_S50000x2_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x2, .f32⟩) main_call3_v10) (broadcastInDim S50000x2 ![0, 1] bcast_S50000x1_S50000x2_0_1),
    TRef.binary (TRef.of (T := ⟨S50000x2, .f32⟩) main_call3_v5) (TRef.of (T := ⟨S50000x2, .f32⟩) main_call3_v10) (TRef.of (T := ⟨S50000x2, .f32⟩) main_v177) subf ]

/-- @main's 240 operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst (constant S_ .f32 0x00000000#32),
    unary main_cst main_v5 (broadcastInDim S50000 ![] bcast_S_S50000 : (⟨S_, .f32⟩ : BufTy).Contents (Elt F) → (⟨S50000, .f32⟩ : BufTy).Contents (Elt F)),
    nullary main_c (constantI S_ 32 0#32),
    unary main_c main_v6 (broadcastInDim S800000 ![] bcast_S_S800000 : (⟨S_, .i32⟩ : BufTy).Contents (Elt F) → (⟨S800000, .i32⟩ : BufTy).Contents (Elt F)),
    binary main_v3 main_v6 main_v7 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v8 (broadcastInDim S800000 ![] bcast_S_S800000 : (⟨S_, .i32⟩ : BufTy).Contents (Elt F) → (⟨S800000, .i32⟩ : BufTy).Contents (Elt F)),
    binary main_v3 main_v8 main_v9 (addi : (⟨S800000, .i32⟩ : BufTy).Contents (Elt F) → (⟨S800000, .i32⟩ : BufTy).Contents (Elt F) → (⟨S800000, .i32⟩ : BufTy).Contents (Elt F)),
    ternary main_v7 main_v9 main_v3 main_v10 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v10 main_v11 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v12 (broadcastInDim S800000 ![] bcast_S_S800000 : (⟨S_, .f32⟩ : BufTy).Contents (Elt F) → (⟨S800000, .f32⟩ : BufTy).Contents (Elt F)),
    ternary main_v5 main_v11 main_v12 main_v13 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v14 (broadcastInDim S50000 ![] bcast_S_S50000 : (⟨S_, .f32⟩ : BufTy).Contents (Elt F) → (⟨S50000, .f32⟩ : BufTy).Contents (Elt F)),
    binary main_v13 main_v14 main_v15 (addf : (⟨S50000, .f32⟩ : BufTy).Contents (Elt F) → (⟨S50000, .f32⟩ : BufTy).Contents (Elt F) → (⟨S50000, .f32⟩ : BufTy).Contents (Elt F)),
    unary main_v15 main_v16 (Host.rsqrt : (⟨S50000, .f32⟩ : BufTy).Contents (Elt F) → (⟨S50000, .f32⟩ : BufTy).Contents (Elt F)),
    nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v16 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v16 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    nullary main_cst_7 (constant S_ .f32 0x00000000#32),
    unary main_cst_7 main_v32 (broadcastInDim S50000x64 ![] bcast_S_S50000x64 : (⟨S_, .f32⟩ : BufTy).Contents (Elt F) → (⟨S50000x64, .f32⟩ : BufTy).Contents (Elt F)),
    nullary main_c_8 (constantI S_ 32 0#32),
    unary main_c_8 main_v33 (broadcastInDim S800000 ![] bcast_S_S800000 : (⟨S_, .i32⟩ : BufTy).Contents (Elt F) → (⟨S800000, .i32⟩ : BufTy).Contents (Elt F)),
    binary main_v1 main_v33 main_v34 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v35 (broadcastInDim S800000 ![] bcast_S_S800000 : (⟨S_, .i32⟩ : BufTy).Contents (Elt F) → (⟨S800000, .i32⟩ : BufTy).Contents (Elt F)),
    binary main_v1 main_v35 main_v36 (addi : (⟨S800000, .i32⟩ : BufTy).Contents (Elt F) → (⟨S800000, .i32⟩ : BufTy).Contents (Elt F) → (⟨S800000, .i32⟩ : BufTy).Contents (Elt F)),
    ternary main_v34 main_v36 main_v1 main_v37 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v37 main_v38 (broadcastInDim S800000x1 ![0] bcast_S800000_S800000x1_0 : (⟨S800000, .i32⟩ : BufTy).Contents (Elt F) → (⟨S800000x1, .i32⟩ : BufTy).Contents (Elt F)),
    binary main_v4 main_v38 main_v39 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v31 main_v40 (broadcastInDim S800000x1 ![0] bcast_S800000_S800000x1_0 : (⟨S800000, .f32⟩ : BufTy).Contents (Elt F) → (⟨S800000x1, .f32⟩ : BufTy).Contents (Elt F)),
    unary main_v40 main_v41 (broadcastInDim S800000x64 ![0, 1] bcast_S800000x1_S800000x64_0_1 : (⟨S800000x1, .f32⟩ : BufTy).Contents (Elt F) → (⟨S800000x64, .f32⟩ : BufTy).Contents (Elt F)),
    binary main_v39 main_v41 main_v42 (mulf : (⟨S800000x64, .f32⟩ : BufTy).Contents (Elt F) → (⟨S800000x64, .f32⟩ : BufTy).Contents (Elt F) → (⟨S800000x64, .f32⟩ : BufTy).Contents (Elt F)),
    nullary main_c_10 (constantI S_ 32 0#32),
    unary main_c_10 main_v43 (broadcastInDim S800000 ![] bcast_S_S800000 : (⟨S_, .i32⟩ : BufTy).Contents (Elt F) → (⟨S800000, .i32⟩ : BufTy).Contents (Elt F)),
    binary main_v3 main_v43 main_v44 (cmpi .slt : (⟨S800000, .i32⟩ : BufTy).Contents (Elt F) → (⟨S800000, .i32⟩ : BufTy).Contents (Elt F) → (⟨S800000, .i1⟩ : BufTy).Contents (Elt F)),
    nullary main_c_11 (constantI S_ 32 50000#32),
    unary main_c_11 main_v45 (broadcastInDim S800000 ![] bcast_S_S800000 : (⟨S_, .i32⟩ : BufTy).Contents (Elt F) → (⟨S800000, .i32⟩ : BufTy).Contents (Elt F)),
    binary main_v3 main_v45 main_v46 (addi : (⟨S800000, .i32⟩ : BufTy).Contents (Elt F) → (⟨S800000, .i32⟩ : BufTy).Contents (Elt F) → (⟨S800000, .i32⟩ : BufTy).Contents (Elt F)),
    ternary main_v44 main_v46 main_v3 main_v47 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v47 main_v48 (broadcastInDim S800000x1 ![0] bcast_S800000_S800000x1_0 : (⟨S800000, .i32⟩ : BufTy).Contents (Elt F) → (⟨S800000x1, .i32⟩ : BufTy).Contents (Elt F)),
    ternary main_v32 main_v48 main_v42 main_v49 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v16 main_v16 main_v50 (mulf : (⟨S50000, .f32⟩ : BufTy).Contents (Elt F) → (⟨S50000, .f32⟩ : BufTy).Contents (Elt F) → (⟨S50000, .f32⟩ : BufTy).Contents (Elt F)),
    unary main_v50 main_v51 (broadcastInDim S50000x1 ![0] bcast_S50000_S50000x1_0 : (⟨S50000, .f32⟩ : BufTy).Contents (Elt F) → (⟨S50000x1, .f32⟩ : BufTy).Contents (Elt F)),
    unary main_v51 main_v52 (broadcastInDim S50000x64 ![0, 1] bcast_S50000x1_S50000x64_0_1 : (⟨S50000x1, .f32⟩ : BufTy).Contents (Elt F) → (⟨S50000x64, .f32⟩ : BufTy).Contents (Elt F)),
    binary main_v4 main_v52 main_v53 (mulf : (⟨S50000x64, .f32⟩ : BufTy).Contents (Elt F) → (⟨S50000x64, .f32⟩ : BufTy).Contents (Elt F) → (⟨S50000x64, .f32⟩ : BufTy).Contents (Elt F)),
    binary main_v49 main_v53 main_v54 (addf : (⟨S50000x64, .f32⟩ : BufTy).Contents (Elt F) → (⟨S50000x64, .f32⟩ : BufTy).Contents (Elt F) → (⟨S50000x64, .f32⟩ : BufTy).Contents (Elt F)),
    unary main_arg3 main_v55 (broadcastInDim S1x64 ![1] bcast_S64_S1x64_1 : (⟨S64, .f32⟩ : BufTy).Contents (Elt F) → (⟨S1x64, .f32⟩ : BufTy).Contents (Elt F)),
    unary main_v55 main_v56 (broadcastInDim S50000x64 ![0, 1] bcast_S1x64_S50000x64_0_1 : (⟨S1x64, .f32⟩ : BufTy).Contents (Elt F) → (⟨S50000x64, .f32⟩ : BufTy).Contents (Elt F)),
    binary main_v54 main_v56 main_v57 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v57) (TRef.of (T := ⟨S50000x64, .f32⟩) main_call0_v0) (TRef.of (T := ⟨S50000x64, .f32⟩) main_v58) maximumf,
    binary main_v58 main_arg4 main_v59 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_12 (constant S_ .f32 0x00000000#32),
    unary main_cst_12 main_v60 (broadcastInDim S50000 ![] bcast_S_S50000 : (⟨S_, .f32⟩ : BufTy).Contents (Elt F) → (⟨S50000, .f32⟩ : BufTy).Contents (Elt F)),
    nullary main_c_13 (constantI S_ 32 0#32),
    unary main_c_13 main_v61 (broadcastInDim S800000 ![] bcast_S_S800000 : (⟨S_, .i32⟩ : BufTy).Contents (Elt F) → (⟨S800000, .i32⟩ : BufTy).Contents (Elt F)),
    binary main_v3 main_v61 main_v62 (cmpi .slt : (⟨S800000, .i32⟩ : BufTy).Contents (Elt F) → (⟨S800000, .i32⟩ : BufTy).Contents (Elt F) → (⟨S800000, .i1⟩ : BufTy).Contents (Elt F)),
    nullary main_c_14 (constantI S_ 32 50000#32),
    unary main_c_14 main_v63 (broadcastInDim S800000 ![] bcast_S_S800000 : (⟨S_, .i32⟩ : BufTy).Contents (Elt F) → (⟨S800000, .i32⟩ : BufTy).Contents (Elt F)),
    binary main_v3 main_v63 main_v64 (addi : (⟨S800000, .i32⟩ : BufTy).Contents (Elt F) → (⟨S800000, .i32⟩ : BufTy).Contents (Elt F) → (⟨S800000, .i32⟩ : BufTy).Contents (Elt F)),
    ternary main_v62 main_v64 main_v3 main_v65 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v65 main_v66 (broadcastInDim S800000x1 ![0] bcast_S800000_S800000x1_0 : (⟨S800000, .i32⟩ : BufTy).Contents (Elt F) → (⟨S800000x1, .i32⟩ : BufTy).Contents (Elt F)),
    nullary main_cst_15 (constant S_ .f32 0x3F800000#32),
    unary main_cst_15 main_v67 (broadcastInDim S800000 ![] bcast_S_S800000 : (⟨S_, .f32⟩ : BufTy).Contents (Elt F) → (⟨S800000, .f32⟩ : BufTy).Contents (Elt F)),
    ternary main_v60 main_v66 main_v67 main_v68 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_16 (constant S_ .f32 0x3F800000#32),
    unary main_cst_16 main_v69 (broadcastInDim S50000 ![] bcast_S_S50000 : (⟨S_, .f32⟩ : BufTy).Contents (Elt F) → (⟨S50000, .f32⟩ : BufTy).Contents (Elt F)),
    binary main_v68 main_v69 main_v70 (addf : (⟨S50000, .f32⟩ : BufTy).Contents (Elt F) → (⟨S50000, .f32⟩ : BufTy).Contents (Elt F) → (⟨S50000, .f32⟩ : BufTy).Contents (Elt F)),
    unary main_v70 main_v71 (Host.rsqrt : (⟨S50000, .f32⟩ : BufTy).Contents (Elt F) → (⟨S50000, .f32⟩ : BufTy).Contents (Elt F)),
    nullary main_c_17 (constantI S_ 32 0#32),
    unary main_c_17 main_v72 (broadcastInDim S800000 ![] bcast_S_S800000 : (⟨S_, .i32⟩ : BufTy).Contents (Elt F) → (⟨S800000, .i32⟩ : BufTy).Contents (Elt F)),
    binary main_v1 main_v72 main_v73 (cmpi .slt : (⟨S800000, .i32⟩ : BufTy).Contents (Elt F) → (⟨S800000, .i32⟩ : BufTy).Contents (Elt F) → (⟨S800000, .i1⟩ : BufTy).Contents (Elt F)),
    nullary main_c_18 (constantI S_ 32 50000#32),
    unary main_c_18 main_v74 (broadcastInDim S800000 ![] bcast_S_S800000 : (⟨S_, .i32⟩ : BufTy).Contents (Elt F) → (⟨S800000, .i32⟩ : BufTy).Contents (Elt F)),
    binary main_v1 main_v74 main_v75 (addi : (⟨S800000, .i32⟩ : BufTy).Contents (Elt F) → (⟨S800000, .i32⟩ : BufTy).Contents (Elt F) → (⟨S800000, .i32⟩ : BufTy).Contents (Elt F)),
    ternary main_v73 main_v75 main_v1 main_v76 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v76 main_v77 (broadcastInDim S800000x1 ![0] bcast_S800000_S800000x1_0 : (⟨S800000, .i32⟩ : BufTy).Contents (Elt F) → (⟨S800000x1, .i32⟩ : BufTy).Contents (Elt F)),
    binary main_v71 main_v77 main_v78 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_19 (constantI S_ 32 0#32),
    unary main_c_19 main_v79 (broadcastInDim S800000 ![] bcast_S_S800000 : (⟨S_, .i32⟩ : BufTy).Contents (Elt F) → (⟨S800000, .i32⟩ : BufTy).Contents (Elt F)),
    binary main_v3 main_v79 main_v80 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v81 (broadcastInDim S800000 ![] bcast_S_S800000 : (⟨S_, .i32⟩ : BufTy).Contents (Elt F) → (⟨S800000, .i32⟩ : BufTy).Contents (Elt F)),
    binary main_v3 main_v81 main_v82 (addi : (⟨S800000, .i32⟩ : BufTy).Contents (Elt F) → (⟨S800000, .i32⟩ : BufTy).Contents (Elt F) → (⟨S800000, .i32⟩ : BufTy).Contents (Elt F)),
    ternary main_v80 main_v82 main_v3 main_v83 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v83 main_v84 (broadcastInDim S800000x1 ![0] bcast_S800000_S800000x1_0 : (⟨S800000, .i32⟩ : BufTy).Contents (Elt F) → (⟨S800000x1, .i32⟩ : BufTy).Contents (Elt F)),
    binary main_v71 main_v84 main_v85 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v78 main_v85 main_v86 (mulf : (⟨S800000, .f32⟩ : BufTy).Contents (Elt F) → (⟨S800000, .f32⟩ : BufTy).Contents (Elt F) → (⟨S800000, .f32⟩ : BufTy).Contents (Elt F)),
    nullary main_cst_21 (constant S_ .f32 0x00000000#32),
    unary main_cst_21 main_v87 (broadcastInDim S50000x64 ![] bcast_S_S50000x64 : (⟨S_, .f32⟩ : BufTy).Contents (Elt F) → (⟨S50000x64, .f32⟩ : BufTy).Contents (Elt F)),
    nullary main_c_22 (constantI S_ 32 0#32),
    unary main_c_22 main_v88 (broadcastInDim S800000 ![] bcast_S_S800000 : (⟨S_, .i32⟩ : BufTy).Contents (Elt F) → (⟨S800000, .i32⟩ : BufTy).Contents (Elt F)),
    binary main_v1 main_v88 main_v89 (cmpi .slt : (⟨S800000, .i32⟩ : BufTy).Contents (Elt F) → (⟨S800000, .i32⟩ : BufTy).Contents (Elt F) → (⟨S800000, .i1⟩ : BufTy).Contents (Elt F)),
    nullary main_c_23 (constantI S_ 32 50000#32),
    unary main_c_23 main_v90 (broadcastInDim S800000 ![] bcast_S_S800000 : (⟨S_, .i32⟩ : BufTy).Contents (Elt F) → (⟨S800000, .i32⟩ : BufTy).Contents (Elt F)),
    binary main_v1 main_v90 main_v91 (addi : (⟨S800000, .i32⟩ : BufTy).Contents (Elt F) → (⟨S800000, .i32⟩ : BufTy).Contents (Elt F) → (⟨S800000, .i32⟩ : BufTy).Contents (Elt F)),
    ternary main_v89 main_v91 main_v1 main_v92 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v92 main_v93 (broadcastInDim S800000x1 ![0] bcast_S800000_S800000x1_0 : (⟨S800000, .i32⟩ : BufTy).Contents (Elt F) → (⟨S800000x1, .i32⟩ : BufTy).Contents (Elt F)),
    binary main_v59 main_v93 main_v94 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v86 main_v95 (broadcastInDim S800000x1 ![0] bcast_S800000_S800000x1_0 : (⟨S800000, .f32⟩ : BufTy).Contents (Elt F) → (⟨S800000x1, .f32⟩ : BufTy).Contents (Elt F)),
    unary main_v95 main_v96 (broadcastInDim S800000x64 ![0, 1] bcast_S800000x1_S800000x64_0_1 : (⟨S800000x1, .f32⟩ : BufTy).Contents (Elt F) → (⟨S800000x64, .f32⟩ : BufTy).Contents (Elt F)),
    binary main_v94 main_v96 main_v97 (mulf : (⟨S800000x64, .f32⟩ : BufTy).Contents (Elt F) → (⟨S800000x64, .f32⟩ : BufTy).Contents (Elt F) → (⟨S800000x64, .f32⟩ : BufTy).Contents (Elt F)),
    nullary main_c_24 (constantI S_ 32 0#32),
    unary main_c_24 main_v98 (broadcastInDim S800000 ![] bcast_S_S800000 : (⟨S_, .i32⟩ : BufTy).Contents (Elt F) → (⟨S800000, .i32⟩ : BufTy).Contents (Elt F)),
    binary main_v3 main_v98 main_v99 (cmpi .slt : (⟨S800000, .i32⟩ : BufTy).Contents (Elt F) → (⟨S800000, .i32⟩ : BufTy).Contents (Elt F) → (⟨S800000, .i1⟩ : BufTy).Contents (Elt F)),
    nullary main_c_25 (constantI S_ 32 50000#32),
    unary main_c_25 main_v100 (broadcastInDim S800000 ![] bcast_S_S800000 : (⟨S_, .i32⟩ : BufTy).Contents (Elt F) → (⟨S800000, .i32⟩ : BufTy).Contents (Elt F)),
    binary main_v3 main_v100 main_v101 (addi : (⟨S800000, .i32⟩ : BufTy).Contents (Elt F) → (⟨S800000, .i32⟩ : BufTy).Contents (Elt F) → (⟨S800000, .i32⟩ : BufTy).Contents (Elt F)),
    ternary main_v99 main_v101 main_v3 main_v102 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v102 main_v103 (broadcastInDim S800000x1 ![0] bcast_S800000_S800000x1_0 : (⟨S800000, .i32⟩ : BufTy).Contents (Elt F) → (⟨S800000x1, .i32⟩ : BufTy).Contents (Elt F)),
    ternary main_v87 main_v103 main_v97 main_v104 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v71 main_v71 main_v105 (mulf : (⟨S50000, .f32⟩ : BufTy).Contents (Elt F) → (⟨S50000, .f32⟩ : BufTy).Contents (Elt F) → (⟨S50000, .f32⟩ : BufTy).Contents (Elt F)),
    unary main_v105 main_v106 (broadcastInDim S50000x1 ![0] bcast_S50000_S50000x1_0 : (⟨S50000, .f32⟩ : BufTy).Contents (Elt F) → (⟨S50000x1, .f32⟩ : BufTy).Contents (Elt F)),
    unary main_v106 main_v107 (broadcastInDim S50000x64 ![0, 1] bcast_S50000x1_S50000x64_0_1 : (⟨S50000x1, .f32⟩ : BufTy).Contents (Elt F) → (⟨S50000x64, .f32⟩ : BufTy).Contents (Elt F)),
    binary main_v59 main_v107 main_v108 (mulf : (⟨S50000x64, .f32⟩ : BufTy).Contents (Elt F) → (⟨S50000x64, .f32⟩ : BufTy).Contents (Elt F) → (⟨S50000x64, .f32⟩ : BufTy).Contents (Elt F)),
    binary main_v104 main_v108 main_v109 (addf : (⟨S50000x64, .f32⟩ : BufTy).Contents (Elt F) → (⟨S50000x64, .f32⟩ : BufTy).Contents (Elt F) → (⟨S50000x64, .f32⟩ : BufTy).Contents (Elt F)),
    unary main_arg5 main_v110 (broadcastInDim S1x64 ![1] bcast_S64_S1x64_1 : (⟨S64, .f32⟩ : BufTy).Contents (Elt F) → (⟨S1x64, .f32⟩ : BufTy).Contents (Elt F)),
    unary main_v110 main_v111 (broadcastInDim S50000x64 ![0, 1] bcast_S1x64_S50000x64_0_1 : (⟨S1x64, .f32⟩ : BufTy).Contents (Elt F) → (⟨S50000x64, .f32⟩ : BufTy).Contents (Elt F)),
    binary main_v109 main_v111 main_v112 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v112) (TRef.of (T := ⟨S50000x64, .f32⟩) main_call1_v0) (TRef.of (T := ⟨S50000x64, .f32⟩) main_v113) maximumf,
    binary main_v113 main_arg6 main_v114 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    nullary main_cst_26 (constant S_ .f32 0x00000000#32),
    unary main_cst_26 main_v115 (broadcastInDim S50000 ![] bcast_S_S50000 : (⟨S_, .f32⟩ : BufTy).Contents (Elt F) → (⟨S50000, .f32⟩ : BufTy).Contents (Elt F)),
    nullary main_c_27 (constantI S_ 32 0#32),
    unary main_c_27 main_v116 (broadcastInDim S800000 ![] bcast_S_S800000 : (⟨S_, .i32⟩ : BufTy).Contents (Elt F) → (⟨S800000, .i32⟩ : BufTy).Contents (Elt F)),
    binary main_v3 main_v116 main_v117 (cmpi .slt : (⟨S800000, .i32⟩ : BufTy).Contents (Elt F) → (⟨S800000, .i32⟩ : BufTy).Contents (Elt F) → (⟨S800000, .i1⟩ : BufTy).Contents (Elt F)),
    nullary main_c_28 (constantI S_ 32 50000#32),
    unary main_c_28 main_v118 (broadcastInDim S800000 ![] bcast_S_S800000 : (⟨S_, .i32⟩ : BufTy).Contents (Elt F) → (⟨S800000, .i32⟩ : BufTy).Contents (Elt F)),
    binary main_v3 main_v118 main_v119 (addi : (⟨S800000, .i32⟩ : BufTy).Contents (Elt F) → (⟨S800000, .i32⟩ : BufTy).Contents (Elt F) → (⟨S800000, .i32⟩ : BufTy).Contents (Elt F)),
    ternary main_v117 main_v119 main_v3 main_v120 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v120 main_v121 (broadcastInDim S800000x1 ![0] bcast_S800000_S800000x1_0 : (⟨S800000, .i32⟩ : BufTy).Contents (Elt F) → (⟨S800000x1, .i32⟩ : BufTy).Contents (Elt F)),
    nullary main_cst_29 (constant S_ .f32 0x3F800000#32),
    unary main_cst_29 main_v122 (broadcastInDim S800000 ![] bcast_S_S800000 : (⟨S_, .f32⟩ : BufTy).Contents (Elt F) → (⟨S800000, .f32⟩ : BufTy).Contents (Elt F)),
    ternary main_v115 main_v121 main_v122 main_v123 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_30 (constant S_ .f32 0x3F800000#32),
    unary main_cst_30 main_v124 (broadcastInDim S50000 ![] bcast_S_S50000 : (⟨S_, .f32⟩ : BufTy).Contents (Elt F) → (⟨S50000, .f32⟩ : BufTy).Contents (Elt F)),
    binary main_v123 main_v124 main_v125 (addf : (⟨S50000, .f32⟩ : BufTy).Contents (Elt F) → (⟨S50000, .f32⟩ : BufTy).Contents (Elt F) → (⟨S50000, .f32⟩ : BufTy).Contents (Elt F)),
    unary main_v125 main_v126 (Host.rsqrt : (⟨S50000, .f32⟩ : BufTy).Contents (Elt F) → (⟨S50000, .f32⟩ : BufTy).Contents (Elt F)),
    nullary main_c_31 (constantI S_ 32 0#32),
    unary main_c_31 main_v127 (broadcastInDim S800000 ![] bcast_S_S800000 : (⟨S_, .i32⟩ : BufTy).Contents (Elt F) → (⟨S800000, .i32⟩ : BufTy).Contents (Elt F)),
    binary main_v1 main_v127 main_v128 (cmpi .slt : (⟨S800000, .i32⟩ : BufTy).Contents (Elt F) → (⟨S800000, .i32⟩ : BufTy).Contents (Elt F) → (⟨S800000, .i1⟩ : BufTy).Contents (Elt F)),
    nullary main_c_32 (constantI S_ 32 50000#32),
    unary main_c_32 main_v129 (broadcastInDim S800000 ![] bcast_S_S800000 : (⟨S_, .i32⟩ : BufTy).Contents (Elt F) → (⟨S800000, .i32⟩ : BufTy).Contents (Elt F)),
    binary main_v1 main_v129 main_v130 (addi : (⟨S800000, .i32⟩ : BufTy).Contents (Elt F) → (⟨S800000, .i32⟩ : BufTy).Contents (Elt F) → (⟨S800000, .i32⟩ : BufTy).Contents (Elt F)),
    ternary main_v128 main_v130 main_v1 main_v131 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v131 main_v132 (broadcastInDim S800000x1 ![0] bcast_S800000_S800000x1_0 : (⟨S800000, .i32⟩ : BufTy).Contents (Elt F) → (⟨S800000x1, .i32⟩ : BufTy).Contents (Elt F)),
    binary main_v126 main_v132 main_v133 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_33 (constantI S_ 32 0#32),
    unary main_c_33 main_v134 (broadcastInDim S800000 ![] bcast_S_S800000 : (⟨S_, .i32⟩ : BufTy).Contents (Elt F) → (⟨S800000, .i32⟩ : BufTy).Contents (Elt F)),
    binary main_v3 main_v134 main_v135 (cmpi .slt : (⟨S800000, .i32⟩ : BufTy).Contents (Elt F) → (⟨S800000, .i32⟩ : BufTy).Contents (Elt F) → (⟨S800000, .i1⟩ : BufTy).Contents (Elt F)),
    nullary main_c_34 (constantI S_ 32 50000#32),
    unary main_c_34 main_v136 (broadcastInDim S800000 ![] bcast_S_S800000 : (⟨S_, .i32⟩ : BufTy).Contents (Elt F) → (⟨S800000, .i32⟩ : BufTy).Contents (Elt F)),
    binary main_v3 main_v136 main_v137 (addi : (⟨S800000, .i32⟩ : BufTy).Contents (Elt F) → (⟨S800000, .i32⟩ : BufTy).Contents (Elt F) → (⟨S800000, .i32⟩ : BufTy).Contents (Elt F)),
    ternary main_v135 main_v137 main_v3 main_v138 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v138 main_v139 (broadcastInDim S800000x1 ![0] bcast_S800000_S800000x1_0 : (⟨S800000, .i32⟩ : BufTy).Contents (Elt F) → (⟨S800000x1, .i32⟩ : BufTy).Contents (Elt F)),
    binary main_v126 main_v139 main_v140 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v133 main_v140 main_v141 (mulf : (⟨S800000, .f32⟩ : BufTy).Contents (Elt F) → (⟨S800000, .f32⟩ : BufTy).Contents (Elt F) → (⟨S800000, .f32⟩ : BufTy).Contents (Elt F)),
    nullary main_cst_35 (constant S_ .f32 0x00000000#32),
    unary main_cst_35 main_v142 (broadcastInDim S50000x64 ![] bcast_S_S50000x64 : (⟨S_, .f32⟩ : BufTy).Contents (Elt F) → (⟨S50000x64, .f32⟩ : BufTy).Contents (Elt F)),
    nullary main_c_36 (constantI S_ 32 0#32),
    unary main_c_36 main_v143 (broadcastInDim S800000 ![] bcast_S_S800000 : (⟨S_, .i32⟩ : BufTy).Contents (Elt F) → (⟨S800000, .i32⟩ : BufTy).Contents (Elt F)),
    binary main_v1 main_v143 main_v144 (cmpi .slt : (⟨S800000, .i32⟩ : BufTy).Contents (Elt F) → (⟨S800000, .i32⟩ : BufTy).Contents (Elt F) → (⟨S800000, .i1⟩ : BufTy).Contents (Elt F)),
    nullary main_c_37 (constantI S_ 32 50000#32),
    unary main_c_37 main_v145 (broadcastInDim S800000 ![] bcast_S_S800000 : (⟨S_, .i32⟩ : BufTy).Contents (Elt F) → (⟨S800000, .i32⟩ : BufTy).Contents (Elt F)),
    binary main_v1 main_v145 main_v146 (addi : (⟨S800000, .i32⟩ : BufTy).Contents (Elt F) → (⟨S800000, .i32⟩ : BufTy).Contents (Elt F) → (⟨S800000, .i32⟩ : BufTy).Contents (Elt F)),
    ternary main_v144 main_v146 main_v1 main_v147 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v147 main_v148 (broadcastInDim S800000x1 ![0] bcast_S800000_S800000x1_0 : (⟨S800000, .i32⟩ : BufTy).Contents (Elt F) → (⟨S800000x1, .i32⟩ : BufTy).Contents (Elt F)),
    binary main_v114 main_v148 main_v149 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v141 main_v150 (broadcastInDim S800000x1 ![0] bcast_S800000_S800000x1_0 : (⟨S800000, .f32⟩ : BufTy).Contents (Elt F) → (⟨S800000x1, .f32⟩ : BufTy).Contents (Elt F)),
    unary main_v150 main_v151 (broadcastInDim S800000x64 ![0, 1] bcast_S800000x1_S800000x64_0_1 : (⟨S800000x1, .f32⟩ : BufTy).Contents (Elt F) → (⟨S800000x64, .f32⟩ : BufTy).Contents (Elt F)),
    binary main_v149 main_v151 main_v152 (mulf : (⟨S800000x64, .f32⟩ : BufTy).Contents (Elt F) → (⟨S800000x64, .f32⟩ : BufTy).Contents (Elt F) → (⟨S800000x64, .f32⟩ : BufTy).Contents (Elt F)),
    nullary main_c_38 (constantI S_ 32 0#32),
    unary main_c_38 main_v153 (broadcastInDim S800000 ![] bcast_S_S800000 : (⟨S_, .i32⟩ : BufTy).Contents (Elt F) → (⟨S800000, .i32⟩ : BufTy).Contents (Elt F)),
    binary main_v3 main_v153 main_v154 (cmpi .slt : (⟨S800000, .i32⟩ : BufTy).Contents (Elt F) → (⟨S800000, .i32⟩ : BufTy).Contents (Elt F) → (⟨S800000, .i1⟩ : BufTy).Contents (Elt F)),
    nullary main_c_39 (constantI S_ 32 50000#32),
    unary main_c_39 main_v155 (broadcastInDim S800000 ![] bcast_S_S800000 : (⟨S_, .i32⟩ : BufTy).Contents (Elt F) → (⟨S800000, .i32⟩ : BufTy).Contents (Elt F)),
    binary main_v3 main_v155 main_v156 (addi : (⟨S800000, .i32⟩ : BufTy).Contents (Elt F) → (⟨S800000, .i32⟩ : BufTy).Contents (Elt F) → (⟨S800000, .i32⟩ : BufTy).Contents (Elt F)),
    ternary main_v154 main_v156 main_v3 main_v157 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v157 main_v158 (broadcastInDim S800000x1 ![0] bcast_S800000_S800000x1_0 : (⟨S800000, .i32⟩ : BufTy).Contents (Elt F) → (⟨S800000x1, .i32⟩ : BufTy).Contents (Elt F)),
    ternary main_v142 main_v158 main_v152 main_v159 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    binary main_v126 main_v126 main_v160 (mulf : (⟨S50000, .f32⟩ : BufTy).Contents (Elt F) → (⟨S50000, .f32⟩ : BufTy).Contents (Elt F) → (⟨S50000, .f32⟩ : BufTy).Contents (Elt F)),
    unary main_v160 main_v161 (broadcastInDim S50000x1 ![0] bcast_S50000_S50000x1_0 : (⟨S50000, .f32⟩ : BufTy).Contents (Elt F) → (⟨S50000x1, .f32⟩ : BufTy).Contents (Elt F)),
    unary main_v161 main_v162 (broadcastInDim S50000x64 ![0, 1] bcast_S50000x1_S50000x64_0_1 : (⟨S50000x1, .f32⟩ : BufTy).Contents (Elt F) → (⟨S50000x64, .f32⟩ : BufTy).Contents (Elt F)),
    binary main_v114 main_v162 main_v163 (mulf : (⟨S50000x64, .f32⟩ : BufTy).Contents (Elt F) → (⟨S50000x64, .f32⟩ : BufTy).Contents (Elt F) → (⟨S50000x64, .f32⟩ : BufTy).Contents (Elt F)),
    binary main_v159 main_v163 main_v164 (addf : (⟨S50000x64, .f32⟩ : BufTy).Contents (Elt F) → (⟨S50000x64, .f32⟩ : BufTy).Contents (Elt F) → (⟨S50000x64, .f32⟩ : BufTy).Contents (Elt F)),
    unary main_arg7 main_v165 (broadcastInDim S1x64 ![1] bcast_S64_S1x64_1 : (⟨S64, .f32⟩ : BufTy).Contents (Elt F) → (⟨S1x64, .f32⟩ : BufTy).Contents (Elt F)),
    unary main_v165 main_v166 (broadcastInDim S50000x64 ![0, 1] bcast_S1x64_S50000x64_0_1 : (⟨S1x64, .f32⟩ : BufTy).Contents (Elt F) → (⟨S50000x64, .f32⟩ : BufTy).Contents (Elt F)),
    binary main_v164 main_v166 main_v167 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v167) (TRef.of (T := ⟨S50000x64, .f32⟩) main_call2_v0) (TRef.of (T := ⟨S50000x64, .f32⟩) main_v168) maximumf,
    binary main_v168 main_arg8 main_v169 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg9 main_v170 (broadcastInDim S1x64 ![1] bcast_S64_S1x64_1 : (⟨S64, .f32⟩ : BufTy).Contents (Elt F) → (⟨S1x64, .f32⟩ : BufTy).Contents (Elt F)),
    unary main_v170 main_v171 (broadcastInDim S50000x64 ![0, 1] bcast_S1x64_S50000x64_0_1 : (⟨S1x64, .f32⟩ : BufTy).Contents (Elt F) → (⟨S50000x64, .f32⟩ : BufTy).Contents (Elt F)),
    binary main_v169 main_v171 main_v172 (addf : (⟨S50000x64, .f32⟩ : BufTy).Contents (Elt F) → (⟨S50000x64, .f32⟩ : BufTy).Contents (Elt F) → (⟨S50000x64, .f32⟩ : BufTy).Contents (Elt F)),
    binary main_v172 main_arg10 main_v173 ((fun l r => Host.dotGeneral dot_S50000x64_S64x2_S50000x2_1_0_0_1_n_n none l r) : (⟨S50000x64, .f32⟩ : BufTy).Contents (Elt F) → (⟨S64x2, .f32⟩ : BufTy).Contents (Elt F) → (⟨S50000x2, .f32⟩ : BufTy).Contents (Elt F)),
    unary main_arg11 main_v174 (broadcastInDim S1x2 ![1] bcast_S2_S1x2_1 : (⟨S2, .f32⟩ : BufTy).Contents (Elt F) → (⟨S1x2, .f32⟩ : BufTy).Contents (Elt F)),
    unary main_v174 main_v175 (broadcastInDim S50000x2 ![0, 1] bcast_S1x2_S50000x2_0_1 : (⟨S1x2, .f32⟩ : BufTy).Contents (Elt F) → (⟨S50000x2, .f32⟩ : BufTy).Contents (Elt F)),
    binary main_v173 main_v175 main_v176 (addf : (⟨S50000x2, .f32⟩ : BufTy).Contents (Elt F) → (⟨S50000x2, .f32⟩ : BufTy).Contents (Elt F) → (⟨S50000x2, .f32⟩ : BufTy).Contents (Elt F)),
    TRef.nullary (TRef.of (T := ⟨S_, .f32⟩) main_call3_cst) (constant S_ .f32 0xFF800000#32),
    TRef.binary (TRef.of (T := ⟨S50000x2, .f32⟩) main_v176) (TRef.of (T := ⟨S_, .f32⟩) main_call3_cst) (TRef.of (T := ⟨S50000, .f32⟩) main_call3_v0) (fun x v => Host.reduce FloatOps.maximumf x v reducesTo_S50000x2_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x2, .f32⟩) main_call3_v4) (broadcastInDim S50000x2 ![0, 1] bcast_S50000x1_S50000x2_0_1),
    TRef.binary (TRef.of (T := ⟨S50000x2, .f32⟩) main_v176) (TRef.of (T := ⟨S50000x2, .f32⟩) main_call3_v4) (TRef.of (T := ⟨S50000x2, .f32⟩) main_call3_v5) subf,
    TRef.unary (TRef.of (T := ⟨S50000x2, .f32⟩) main_call3_v5) (TRef.of (T := ⟨S50000x2, .f32⟩) main_call3_v6) Host.exp,
    TRef.nullary (TRef.of (T := ⟨S_, .f32⟩) main_call3_cst_1) (constant S_ .f32 0x00000000#32),
    TRef.binary (TRef.of (T := ⟨S50000x2, .f32⟩) main_call3_v6) (TRef.of (T := ⟨S_, .f32⟩) main_call3_cst_1) (TRef.of (T := ⟨S50000, .f32⟩) main_call3_v7) (fun x v => Host.reduceAdd x v reducesTo_S50000x2_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x2, .f32⟩) main_call3_v10) (broadcastInDim S50000x2 ![0, 1] bcast_S50000x1_S50000x2_0_1),
    TRef.binary (TRef.of (T := ⟨S50000x2, .f32⟩) main_call3_v5) (TRef.of (T := ⟨S50000x2, .f32⟩) main_call3_v10) (TRef.of (T := ⟨S50000x2, .f32⟩) main_v177) subf ]

/-- The operations are the eight stretches in order. -/
theorem ops_eq : (ops : List (HloOp τ sig (Elt F))) = lay1 ++ (relu1 ++ (lay2 ++ (relu2 ++ (lay3 ++ (relu3 ++ (headOps ++ lsmOps)))))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., ternary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.RefOps

end
-- ==== Proof.RefRun.lean ====
/-
  The reference's run, read back.

  Every weakly fair execution of the reference ends with each buffer at the fold of its 240 operations' results
  over the launch contents.  The fold is taken stretch by stretch: each stretch's result is stated from ANY contents
  it starts from, as a stage function of the buffers it reads (a layer before its rectifier, a rectifier, the head's
  values, the log-softmax), together with the buffers it leaves alone, and the stretches are then chained.  A called
  function's operations store and read back through typed references; those pairs are cancelled before a stretch
  is compared with its stage function.  The result: the embedding and the log-probabilities as `emb` and `logp`
  of the twelve arguments, the arguments unchanged.
-/
import proofs.«133547_j15899968930260_2_alg».proof.Proof.Stages
import proofs.«133547_j15899968930260_2_alg».proof.Proof.RefOps
import proofs.«133547_j15899968930260_2_alg».proof.Proof.LibHostCast
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.Stages Cert.ReferenceIdeal.RefOps Idealize.ShloMosaic.RowLocal Idealize.ShloMosaic.HostCast

/-! ## Each stretch from any contents -/

set_option maxRecDepth 16384 in
/-- The first layer before its rectifier, from the arguments as the stretch finds them. -/
theorem lay1_v57 (W : Valuation τ sig (Elt Ideal)) :
    after (lay1 (F := Ideal)) W (Proc.devRef .tc main_v57) = pre (W (Proc.devRef .tc main_arg0)) (W (Proc.devRef .tc main_arg2)) (W (Proc.devRef .tc main_arg3)) (src (W (Proc.devRef .tc main_arg1))) (dst (W (Proc.devRef .tc main_arg1))) := by
  after_results_simp <;> rfl
set_option maxRecDepth 16384 in
/-- The first stretch leaves the source list in its buffer. -/
theorem lay1_v1 (W : Valuation τ sig (Elt Ideal)) :
    after (lay1 (F := Ideal)) W (Proc.devRef .tc main_v1) = src (W (Proc.devRef .tc main_arg1)) := by
  after_results_simp <;> rfl
set_option maxRecDepth 16384 in
/-- The first stretch leaves the destination list in its buffer. -/
theorem lay1_v3 (W : Valuation τ sig (Elt Ideal)) :
    after (lay1 (F := Ideal)) W (Proc.devRef .tc main_v3) = dst (W (Proc.devRef .tc main_arg1)) := by
  after_results_simp <;> rfl
/-- The first rectifier. -/
theorem relu1_v58w (W : Valuation τ sig (Elt Ideal)) :
    (TRef.of (T := ⟨S50000x64, .f32⟩) main_v58).ofBuf (after (relu1 (F := Ideal)) W (Proc.devRef .tc main_v58)) = reluH (W (Proc.devRef .tc main_v57)) := by
  after_results_simp
  try simp only [ofBuf_toBuf]
  rfl
theorem relu1_v58 (W : Valuation τ sig (Elt Ideal)) : after (relu1 (F := Ideal)) W (Proc.devRef .tc main_v58) = reluH (W (Proc.devRef .tc main_v57)) := (cast_eq _ _).symm.trans (relu1_v58w W)
set_option maxRecDepth 16384 in
/-- The second layer before its rectifier, from the first's output and the edge lists as the stretch finds them. -/
theorem lay2_v112 (W : Valuation τ sig (Elt Ideal)) :
    after (lay2 (F := Ideal)) W (Proc.devRef .tc main_v112) = pre (W (Proc.devRef .tc main_v58)) (W (Proc.devRef .tc main_arg4)) (W (Proc.devRef .tc main_arg5)) (W (Proc.devRef .tc main_v1)) (W (Proc.devRef .tc main_v3)) := by
  after_results_simp <;> rfl
/-- The second rectifier. -/
theorem relu2_v113w (W : Valuation τ sig (Elt Ideal)) :
    (TRef.of (T := ⟨S50000x64, .f32⟩) main_v113).ofBuf (after (relu2 (F := Ideal)) W (Proc.devRef .tc main_v113)) = reluH (W (Proc.devRef .tc main_v112)) := by
  after_results_simp
  try simp only [ofBuf_toBuf]
  rfl
theorem relu2_v113 (W : Valuation τ sig (Elt Ideal)) : after (relu2 (F := Ideal)) W (Proc.devRef .tc main_v113) = reluH (W (Proc.devRef .tc main_v112)) := (cast_eq _ _).symm.trans (relu2_v113w W)
set_option maxRecDepth 16384 in
/-- The third layer before its rectifier: the embedding. -/
theorem lay3_v167 (W : Valuation τ sig (Elt Ideal)) :
    after (lay3 (F := Ideal)) W (Proc.devRef .tc main_v167) = pre (W (Proc.devRef .tc main_v113)) (W (Proc.devRef .tc main_arg6)) (W (Proc.devRef .tc main_arg7)) (W (Proc.devRef .tc main_v1)) (W (Proc.devRef .tc main_v3)) := by
  after_results_simp <;> rfl
/-- The third rectifier. -/
theorem relu3_v168w (W : Valuation τ sig (Elt Ideal)) :
    (TRef.of (T := ⟨S50000x64, .f32⟩) main_v168).ofBuf (after (relu3 (F := Ideal)) W (Proc.devRef .tc main_v168)) = reluH (W (Proc.devRef .tc main_v167)) := by
  after_results_simp
  try simp only [ofBuf_toBuf]
  rfl
theorem relu3_v168 (W : Valuation τ sig (Elt Ideal)) : after (relu3 (F := Ideal)) W (Proc.devRef .tc main_v168) = reluH (W (Proc.devRef .tc main_v167)) := (cast_eq _ _).symm.trans (relu3_v168w W)
set_option maxRecDepth 16384 in
/-- The head's values before the log-softmax. -/
theorem head_v176 (W : Valuation τ sig (Elt Ideal)) :
    after (headOps (F := Ideal)) W (Proc.devRef .tc main_v176) = headH (W (Proc.devRef .tc main_v168)) (W (Proc.devRef .tc main_arg8)) (W (Proc.devRef .tc main_arg9)) (W (Proc.devRef .tc main_arg10)) (W (Proc.devRef .tc main_arg11)) := by
  after_results_simp <;> rfl
/-- The log-softmax. -/
theorem lsm_v177w (W : Valuation τ sig (Elt Ideal)) :
    (TRef.of (T := ⟨S50000x2, .f32⟩) main_v177).ofBuf (after (lsmOps (F := Ideal)) W (Proc.devRef .tc main_v177)) = logSoftmaxH (W (Proc.devRef .tc main_v176)) := by
  after_results_simp
  try simp only [ofBuf_toBuf]
  rfl
theorem lsm_v177 (W : Valuation τ sig (Elt Ideal)) : after (lsmOps (F := Ideal)) W (Proc.devRef .tc main_v177) = logSoftmaxH (W (Proc.devRef .tc main_v176)) := (cast_eq _ _).symm.trans (lsm_v177w W)

/-! ## What each stretch leaves alone -/

theorem relu1_keeps_v1 (W : Valuation τ sig (Elt Ideal)) :
    after (relu1 (F := Ideal)) W (Proc.devRef .tc main_v1) = W (Proc.devRef .tc main_v1) :=
  StableHlo.after_of_forall_not_mem (b := (Proc.devRef .tc main_v1)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_v3 (W : Valuation τ sig (Elt Ideal)) :
    after (relu1 (F := Ideal)) W (Proc.devRef .tc main_v3) = W (Proc.devRef .tc main_v3) :=
  StableHlo.after_of_forall_not_mem (b := (Proc.devRef .tc main_v3)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg4 (W : Valuation τ sig (Elt Ideal)) :
    after (relu1 (F := Ideal)) W (Proc.devRef .tc main_arg4) = W (Proc.devRef .tc main_arg4) :=
  StableHlo.after_of_forall_not_mem (b := (Proc.devRef .tc main_arg4)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg5 (W : Valuation τ sig (Elt Ideal)) :
    after (relu1 (F := Ideal)) W (Proc.devRef .tc main_arg5) = W (Proc.devRef .tc main_arg5) :=
  StableHlo.after_of_forall_not_mem (b := (Proc.devRef .tc main_arg5)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg6 (W : Valuation τ sig (Elt Ideal)) :
    after (relu1 (F := Ideal)) W (Proc.devRef .tc main_arg6) = W (Proc.devRef .tc main_arg6) :=
  StableHlo.after_of_forall_not_mem (b := (Proc.devRef .tc main_arg6)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg7 (W : Valuation τ sig (Elt Ideal)) :
    after (relu1 (F := Ideal)) W (Proc.devRef .tc main_arg7) = W (Proc.devRef .tc main_arg7) :=
  StableHlo.after_of_forall_not_mem (b := (Proc.devRef .tc main_arg7)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg8 (W : Valuation τ sig (Elt Ideal)) :
    after (relu1 (F := Ideal)) W (Proc.devRef .tc main_arg8) = W (Proc.devRef .tc main_arg8) :=
  StableHlo.after_of_forall_not_mem (b := (Proc.devRef .tc main_arg8)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg9 (W : Valuation τ sig (Elt Ideal)) :
    after (relu1 (F := Ideal)) W (Proc.devRef .tc main_arg9) = W (Proc.devRef .tc main_arg9) :=
  StableHlo.after_of_forall_not_mem (b := (Proc.devRef .tc main_arg9)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg10 (W : Valuation τ sig (Elt Ideal)) :
    after (relu1 (F := Ideal)) W (Proc.devRef .tc main_arg10) = W (Proc.devRef .tc main_arg10) :=
  StableHlo.after_of_forall_not_mem (b := (Proc.devRef .tc main_arg10)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu1_keeps_arg11 (W : Valuation τ sig (Elt Ideal)) :
    after (relu1 (F := Ideal)) W (Proc.devRef .tc main_arg11) = W (Proc.devRef .tc main_arg11) :=
  StableHlo.after_of_forall_not_mem (b := (Proc.devRef .tc main_arg11)) _ _ (List.forall_iff_forall_mem.mp (by
    simp only [relu1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg4 (W : Valuation τ sig (Elt Ideal)) :
    after (lay1 (F := Ideal)) W (Proc.devRef .tc main_arg4) = W (Proc.devRef .tc main_arg4) :=
  StableHlo.after_of_forall_not_mem (b := (Proc.devRef .tc main_arg4)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg5 (W : Valuation τ sig (Elt Ideal)) :
    after (lay1 (F := Ideal)) W (Proc.devRef .tc main_arg5) = W (Proc.devRef .tc main_arg5) :=
  StableHlo.after_of_forall_not_mem (b := (Proc.devRef .tc main_arg5)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg6 (W : Valuation τ sig (Elt Ideal)) :
    after (lay1 (F := Ideal)) W (Proc.devRef .tc main_arg6) = W (Proc.devRef .tc main_arg6) :=
  StableHlo.after_of_forall_not_mem (b := (Proc.devRef .tc main_arg6)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg7 (W : Valuation τ sig (Elt Ideal)) :
    after (lay1 (F := Ideal)) W (Proc.devRef .tc main_arg7) = W (Proc.devRef .tc main_arg7) :=
  StableHlo.after_of_forall_not_mem (b := (Proc.devRef .tc main_arg7)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg8 (W : Valuation τ sig (Elt Ideal)) :
    after (lay1 (F := Ideal)) W (Proc.devRef .tc main_arg8) = W (Proc.devRef .tc main_arg8) :=
  StableHlo.after_of_forall_not_mem (b := (Proc.devRef .tc main_arg8)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg9 (W : Valuation τ sig (Elt Ideal)) :
    after (lay1 (F := Ideal)) W (Proc.devRef .tc main_arg9) = W (Proc.devRef .tc main_arg9) :=
  StableHlo.after_of_forall_not_mem (b := (Proc.devRef .tc main_arg9)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg10 (W : Valuation τ sig (Elt Ideal)) :
    after (lay1 (F := Ideal)) W (Proc.devRef .tc main_arg10) = W (Proc.devRef .tc main_arg10) :=
  StableHlo.after_of_forall_not_mem (b := (Proc.devRef .tc main_arg10)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay1_keeps_arg11 (W : Valuation τ sig (Elt Ideal)) :
    after (lay1 (F := Ideal)) W (Proc.devRef .tc main_arg11) = W (Proc.devRef .tc main_arg11) :=
  StableHlo.after_of_forall_not_mem (b := (Proc.devRef .tc main_arg11)) _ _ (List.forall_iff_forall_mem.mp (by
    simp only [lay1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_v1 (W : Valuation τ sig (Elt Ideal)) :
    after (lay2 (F := Ideal)) W (Proc.devRef .tc main_v1) = W (Proc.devRef .tc main_v1) :=
  StableHlo.after_of_forall_not_mem (b := (Proc.devRef .tc main_v1)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_v3 (W : Valuation τ sig (Elt Ideal)) :
    after (lay2 (F := Ideal)) W (Proc.devRef .tc main_v3) = W (Proc.devRef .tc main_v3) :=
  StableHlo.after_of_forall_not_mem (b := (Proc.devRef .tc main_v3)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg6 (W : Valuation τ sig (Elt Ideal)) :
    after (lay2 (F := Ideal)) W (Proc.devRef .tc main_arg6) = W (Proc.devRef .tc main_arg6) :=
  StableHlo.after_of_forall_not_mem (b := (Proc.devRef .tc main_arg6)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg7 (W : Valuation τ sig (Elt Ideal)) :
    after (lay2 (F := Ideal)) W (Proc.devRef .tc main_arg7) = W (Proc.devRef .tc main_arg7) :=
  StableHlo.after_of_forall_not_mem (b := (Proc.devRef .tc main_arg7)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg8 (W : Valuation τ sig (Elt Ideal)) :
    after (lay2 (F := Ideal)) W (Proc.devRef .tc main_arg8) = W (Proc.devRef .tc main_arg8) :=
  StableHlo.after_of_forall_not_mem (b := (Proc.devRef .tc main_arg8)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg9 (W : Valuation τ sig (Elt Ideal)) :
    after (lay2 (F := Ideal)) W (Proc.devRef .tc main_arg9) = W (Proc.devRef .tc main_arg9) :=
  StableHlo.after_of_forall_not_mem (b := (Proc.devRef .tc main_arg9)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg10 (W : Valuation τ sig (Elt Ideal)) :
    after (lay2 (F := Ideal)) W (Proc.devRef .tc main_arg10) = W (Proc.devRef .tc main_arg10) :=
  StableHlo.after_of_forall_not_mem (b := (Proc.devRef .tc main_arg10)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay2_keeps_arg11 (W : Valuation τ sig (Elt Ideal)) :
    after (lay2 (F := Ideal)) W (Proc.devRef .tc main_arg11) = W (Proc.devRef .tc main_arg11) :=
  StableHlo.after_of_forall_not_mem (b := (Proc.devRef .tc main_arg11)) _ _ (List.forall_iff_forall_mem.mp (by
    simp only [lay2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_v1 (W : Valuation τ sig (Elt Ideal)) :
    after (relu2 (F := Ideal)) W (Proc.devRef .tc main_v1) = W (Proc.devRef .tc main_v1) :=
  StableHlo.after_of_forall_not_mem (b := (Proc.devRef .tc main_v1)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_v3 (W : Valuation τ sig (Elt Ideal)) :
    after (relu2 (F := Ideal)) W (Proc.devRef .tc main_v3) = W (Proc.devRef .tc main_v3) :=
  StableHlo.after_of_forall_not_mem (b := (Proc.devRef .tc main_v3)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg6 (W : Valuation τ sig (Elt Ideal)) :
    after (relu2 (F := Ideal)) W (Proc.devRef .tc main_arg6) = W (Proc.devRef .tc main_arg6) :=
  StableHlo.after_of_forall_not_mem (b := (Proc.devRef .tc main_arg6)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg7 (W : Valuation τ sig (Elt Ideal)) :
    after (relu2 (F := Ideal)) W (Proc.devRef .tc main_arg7) = W (Proc.devRef .tc main_arg7) :=
  StableHlo.after_of_forall_not_mem (b := (Proc.devRef .tc main_arg7)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg8 (W : Valuation τ sig (Elt Ideal)) :
    after (relu2 (F := Ideal)) W (Proc.devRef .tc main_arg8) = W (Proc.devRef .tc main_arg8) :=
  StableHlo.after_of_forall_not_mem (b := (Proc.devRef .tc main_arg8)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg9 (W : Valuation τ sig (Elt Ideal)) :
    after (relu2 (F := Ideal)) W (Proc.devRef .tc main_arg9) = W (Proc.devRef .tc main_arg9) :=
  StableHlo.after_of_forall_not_mem (b := (Proc.devRef .tc main_arg9)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg10 (W : Valuation τ sig (Elt Ideal)) :
    after (relu2 (F := Ideal)) W (Proc.devRef .tc main_arg10) = W (Proc.devRef .tc main_arg10) :=
  StableHlo.after_of_forall_not_mem (b := (Proc.devRef .tc main_arg10)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu2_keeps_arg11 (W : Valuation τ sig (Elt Ideal)) :
    after (relu2 (F := Ideal)) W (Proc.devRef .tc main_arg11) = W (Proc.devRef .tc main_arg11) :=
  StableHlo.after_of_forall_not_mem (b := (Proc.devRef .tc main_arg11)) _ _ (List.forall_iff_forall_mem.mp (by
    simp only [relu2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay3_keeps_arg8 (W : Valuation τ sig (Elt Ideal)) :
    after (lay3 (F := Ideal)) W (Proc.devRef .tc main_arg8) = W (Proc.devRef .tc main_arg8) :=
  StableHlo.after_of_forall_not_mem (b := (Proc.devRef .tc main_arg8)) _ _ (List.forall_iff_forall_mem.mp (by
    simp only [lay3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay3_keeps_arg9 (W : Valuation τ sig (Elt Ideal)) :
    after (lay3 (F := Ideal)) W (Proc.devRef .tc main_arg9) = W (Proc.devRef .tc main_arg9) :=
  StableHlo.after_of_forall_not_mem (b := (Proc.devRef .tc main_arg9)) _ _ (List.forall_iff_forall_mem.mp (by
    simp only [lay3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay3_keeps_arg10 (W : Valuation τ sig (Elt Ideal)) :
    after (lay3 (F := Ideal)) W (Proc.devRef .tc main_arg10) = W (Proc.devRef .tc main_arg10) :=
  StableHlo.after_of_forall_not_mem (b := (Proc.devRef .tc main_arg10)) _ _ (List.forall_iff_forall_mem.mp (by
    simp only [lay3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lay3_keeps_arg11 (W : Valuation τ sig (Elt Ideal)) :
    after (lay3 (F := Ideal)) W (Proc.devRef .tc main_arg11) = W (Proc.devRef .tc main_arg11) :=
  StableHlo.after_of_forall_not_mem (b := (Proc.devRef .tc main_arg11)) _ _ (List.forall_iff_forall_mem.mp (by
    simp only [lay3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu3_keeps_v167 (W : Valuation τ sig (Elt Ideal)) :
    after (relu3 (F := Ideal)) W (Proc.devRef .tc main_v167) = W (Proc.devRef .tc main_v167) :=
  StableHlo.after_of_forall_not_mem (b := (Proc.devRef .tc main_v167)) _ _ (List.forall_iff_forall_mem.mp (by
    simp only [relu3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu3_keeps_arg8 (W : Valuation τ sig (Elt Ideal)) :
    after (relu3 (F := Ideal)) W (Proc.devRef .tc main_arg8) = W (Proc.devRef .tc main_arg8) :=
  StableHlo.after_of_forall_not_mem (b := (Proc.devRef .tc main_arg8)) _ _ (List.forall_iff_forall_mem.mp (by
    simp only [relu3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu3_keeps_arg9 (W : Valuation τ sig (Elt Ideal)) :
    after (relu3 (F := Ideal)) W (Proc.devRef .tc main_arg9) = W (Proc.devRef .tc main_arg9) :=
  StableHlo.after_of_forall_not_mem (b := (Proc.devRef .tc main_arg9)) _ _ (List.forall_iff_forall_mem.mp (by
    simp only [relu3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu3_keeps_arg10 (W : Valuation τ sig (Elt Ideal)) :
    after (relu3 (F := Ideal)) W (Proc.devRef .tc main_arg10) = W (Proc.devRef .tc main_arg10) :=
  StableHlo.after_of_forall_not_mem (b := (Proc.devRef .tc main_arg10)) _ _ (List.forall_iff_forall_mem.mp (by
    simp only [relu3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem relu3_keeps_arg11 (W : Valuation τ sig (Elt Ideal)) :
    after (relu3 (F := Ideal)) W (Proc.devRef .tc main_arg11) = W (Proc.devRef .tc main_arg11) :=
  StableHlo.after_of_forall_not_mem (b := (Proc.devRef .tc main_arg11)) _ _ (List.forall_iff_forall_mem.mp (by
    simp only [relu3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem head_keeps_v167 (W : Valuation τ sig (Elt Ideal)) :
    after (headOps (F := Ideal)) W (Proc.devRef .tc main_v167) = W (Proc.devRef .tc main_v167) :=
  StableHlo.after_of_forall_not_mem (b := (Proc.devRef .tc main_v167)) _ _ (List.forall_iff_forall_mem.mp (by
    simp only [headOps, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem lsm_keeps_v167 (W : Valuation τ sig (Elt Ideal)) :
    after (lsmOps (F := Ideal)) W (Proc.devRef .tc main_v167) = W (Proc.devRef .tc main_v167) :=
  StableHlo.after_of_forall_not_mem (b := (Proc.devRef .tc main_v167)) _ _ (List.forall_iff_forall_mem.mp (by
    simp only [lsmOps, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The two results as functions of the arguments -/

section Results
variable (W : Valuation τ sig (Elt Ideal))

/-- After all the stretches the embedding's buffer holds `emb` of the arguments. -/
theorem result_emb :
    (after (ops (F := Ideal)) W (Proc.devRef .tc main_v167) : Mat 50000 64)
      = emb (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_eq, StableHlo.after_append, StableHlo.after_append, StableHlo.after_append, StableHlo.after_append, StableHlo.after_append, StableHlo.after_append, StableHlo.after_append]
  rw [lsm_keeps_v167, head_keeps_v167, relu3_keeps_v167, lay3_v167, relu2_v113, relu2_keeps_arg6, relu2_keeps_arg7, relu2_keeps_v1, relu2_keeps_v3,
    lay2_v112, lay2_keeps_arg6, lay2_keeps_arg7, lay2_keeps_v1, lay2_keeps_v3,
    relu1_v58, relu1_keeps_arg4, relu1_keeps_arg5, relu1_keeps_arg6, relu1_keeps_arg7, relu1_keeps_v1, relu1_keeps_v3,
    lay1_v57, lay1_v1, lay1_v3, lay1_keeps_arg4, lay1_keeps_arg5, lay1_keeps_arg6, lay1_keeps_arg7]
  rw [pre_eq, reluH_pre_eq, reluH_pre_eq]
  rfl

/-- After all the stretches the head's buffer holds `logp` of the arguments. -/
theorem result_logp :
    (after (ops (F := Ideal)) W (Proc.devRef .tc main_v177) : Mat 50000 2)
      = logp (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_eq, StableHlo.after_append, StableHlo.after_append, StableHlo.after_append, StableHlo.after_append, StableHlo.after_append, StableHlo.after_append, StableHlo.after_append]
  rw [lsm_v177, head_v176, relu3_v168, relu3_keeps_arg8, relu3_keeps_arg9, relu3_keeps_arg10, relu3_keeps_arg11,
    lay3_v167, lay3_keeps_arg8, lay3_keeps_arg9, lay3_keeps_arg10, lay3_keeps_arg11,
    relu2_v113, relu2_keeps_arg6, relu2_keeps_arg7, relu2_keeps_v1, relu2_keeps_v3, relu2_keeps_arg8, relu2_keeps_arg9, relu2_keeps_arg10, relu2_keeps_arg11,
    lay2_v112, lay2_keeps_arg6, lay2_keeps_arg7, lay2_keeps_v1, lay2_keeps_v3, lay2_keeps_arg8, lay2_keeps_arg9, lay2_keeps_arg10, lay2_keeps_arg11,
    relu1_v58, relu1_keeps_arg4, relu1_keeps_arg5, relu1_keeps_arg6, relu1_keeps_arg7, relu1_keeps_v1, relu1_keeps_v3,
    relu1_keeps_arg8, relu1_keeps_arg9, relu1_keeps_arg10, relu1_keeps_arg11,
    lay1_v57, lay1_v1, lay1_v3, lay1_keeps_arg4, lay1_keeps_arg5, lay1_keeps_arg6, lay1_keeps_arg7,
    lay1_keeps_arg8, lay1_keeps_arg9, lay1_keeps_arg10, lay1_keeps_arg11]
  rw [logSoftmaxH_eq, headH_eq, reluH_pre_eq, reluH_pre_eq, reluH_pre_eq]
  rfl

end Results

/-! ## No operation writes an argument -/

set_option maxRecDepth 65536 in
theorem ops_arg0 (W : Valuation τ sig (Elt Ideal)) :
    after (ops (F := Ideal)) W (Proc.devRef .tc main_arg0) = W (Proc.devRef .tc main_arg0) :=
  StableHlo.after_of_forall_not_mem (b := (Proc.devRef .tc main_arg0)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg1 (W : Valuation τ sig (Elt Ideal)) :
    after (ops (F := Ideal)) W (Proc.devRef .tc main_arg1) = W (Proc.devRef .tc main_arg1) :=
  StableHlo.after_of_forall_not_mem (b := (Proc.devRef .tc main_arg1)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg2 (W : Valuation τ sig (Elt Ideal)) :
    after (ops (F := Ideal)) W (Proc.devRef .tc main_arg2) = W (Proc.devRef .tc main_arg2) :=
  StableHlo.after_of_forall_not_mem (b := (Proc.devRef .tc main_arg2)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg3 (W : Valuation τ sig (Elt Ideal)) :
    after (ops (F := Ideal)) W (Proc.devRef .tc main_arg3) = W (Proc.devRef .tc main_arg3) :=
  StableHlo.after_of_forall_not_mem (b := (Proc.devRef .tc main_arg3)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg4 (W : Valuation τ sig (Elt Ideal)) :
    after (ops (F := Ideal)) W (Proc.devRef .tc main_arg4) = W (Proc.devRef .tc main_arg4) :=
  StableHlo.after_of_forall_not_mem (b := (Proc.devRef .tc main_arg4)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg5 (W : Valuation τ sig (Elt Ideal)) :
    after (ops (F := Ideal)) W (Proc.devRef .tc main_arg5) = W (Proc.devRef .tc main_arg5) :=
  StableHlo.after_of_forall_not_mem (b := (Proc.devRef .tc main_arg5)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg6 (W : Valuation τ sig (Elt Ideal)) :
    after (ops (F := Ideal)) W (Proc.devRef .tc main_arg6) = W (Proc.devRef .tc main_arg6) :=
  StableHlo.after_of_forall_not_mem (b := (Proc.devRef .tc main_arg6)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg7 (W : Valuation τ sig (Elt Ideal)) :
    after (ops (F := Ideal)) W (Proc.devRef .tc main_arg7) = W (Proc.devRef .tc main_arg7) :=
  StableHlo.after_of_forall_not_mem (b := (Proc.devRef .tc main_arg7)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg8 (W : Valuation τ sig (Elt Ideal)) :
    after (ops (F := Ideal)) W (Proc.devRef .tc main_arg8) = W (Proc.devRef .tc main_arg8) :=
  StableHlo.after_of_forall_not_mem (b := (Proc.devRef .tc main_arg8)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg9 (W : Valuation τ sig (Elt Ideal)) :
    after (ops (F := Ideal)) W (Proc.devRef .tc main_arg9) = W (Proc.devRef .tc main_arg9) :=
  StableHlo.after_of_forall_not_mem (b := (Proc.devRef .tc main_arg9)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg10 (W : Valuation τ sig (Elt Ideal)) :
    after (ops (F := Ideal)) W (Proc.devRef .tc main_arg10) = W (Proc.devRef .tc main_arg10) :=
  StableHlo.after_of_forall_not_mem (b := (Proc.devRef .tc main_arg10)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
set_option maxRecDepth 65536 in
theorem ops_arg11 (W : Valuation τ sig (Elt Ideal)) :
    after (ops (F := Ideal)) W (Proc.devRef .tc main_arg11) = W (Proc.devRef .tc main_arg11) :=
  StableHlo.after_of_forall_not_mem (b := (Proc.devRef .tc main_arg11)) _ _ (List.forall_iff_forall_mem.mp (by
    simp only [ops, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The run -/

/-- Every weakly fair execution of the reference terminates without a fault, with the embedding's buffer at `emb` of
    the arguments, the head's at `logp` of them, and the arguments as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v167)
        = emb (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v177)
        = logp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v167).trans (result_emb _), (h c main_v177).trans (result_logp _),
      (h c main_arg0).trans (ops_arg0 _),
      (h c main_arg1).trans (ops_arg1 _),
      (h c main_arg2).trans (ops_arg2 _),
      (h c main_arg3).trans (ops_arg3 _),
      (h c main_arg4).trans (ops_arg4 _),
      (h c main_arg5).trans (ops_arg5 _),
      (h c main_arg6).trans (ops_arg6 _),
      (h c main_arg7).trans (ops_arg7 _),
      (h c main_arg8).trans (ops_arg8 _),
      (h c main_arg9).trans (ops_arg9 _),
      (h c main_arg10).trans (ops_arg10 _),
      (h c main_arg11).trans (ops_arg11 _)⟩)
    (run_seq scopedRefs_eq scopedSems_eq defs main (fun _ => ops) main_eq (fun _ => ops_sub) m ρ)

end Cert.ReferenceIdeal.RefRun

end
-- ==== Proof.lean ====
/-
  A three-layer graph convolutional network with a two-layer head, as a kernel and as its reference, over the
  extended reals.

  Both programs compute, for node features `x`, an edge index with sources `s` and destinations `d`, and per
  layer weights `W` and a bias `b`:  `deg = in-degree + 1`, `dis = deg^(-1/2)`,
  `layer h = scatter-add over d of ((h·W)[s] · dis[s] · dis[d]) + (h·W) · dis² + b`, three times with a rectifier
  between, and return `emb`, the third layer before its rectifier, and `logp`, the row-wise log-softmax of
  `(relu emb · Wp1 + bp1) · Wp2 + bp2`.

  The reference computes each layer whole on the host.  The kernel computes the products (with the previous layer's
  bias and rectifier fused in front, and the head with its log-softmax fused behind) in four pipelined regions, ten
  blocks of 5000 rows each, and leaves the gather and the scatter-add to host operations between the regions; it
  computes `dis²` and the edge coefficients once, as columns, and rounds the products' operands to a shorter float
  format.  Over the extended reals a change of float format is the identity; a product, a bias row, a rectifier and
  the log-softmax act row by row, so the ten blocks of rows of each are the whole array's; a vector reshaped to a
  column is the vector broadcast to a column; and the gather and scatter-add are the same operations applied to
  equal arrays.  No algebraic law beyond these is used, and the finiteness of the inputs is not needed.

  The kernel's run is read boundary by boundary (Proof/KStages.lean over Proof/Region0–3.lean and
  Proof/KernelRun.lean), the reference's stretch by stretch (Proof/RefRun.lean), both against the stage functions of
  Proof/Stages.lean; the frames of the two kernels are the generated ones.
-/
import proofs.«133547_j15899968930260_2_alg».proof.Defs
import proofs.«133547_j15899968930260_2_alg».proof.Proof.Gen.Kernel
import proofs.«133547_j15899968930260_2_alg».proof.Proof.Gen.Kernel.Frame
import proofs.«133547_j15899968930260_2_alg».proof.Proof.Gen.KernelIdeal
import proofs.«133547_j15899968930260_2_alg».proof.Proof.Gen.KernelIdeal.Frame
import proofs.«133547_j15899968930260_2_alg».proof.Proof.Gen.ReferenceIdeal
import proofs.«133547_j15899968930260_2_alg».proof.Proof.Gen.Pre_finite_inputs
import proofs.«133547_j15899968930260_2_alg».proof.Proof.KStages
import proofs.«133547_j15899968930260_2_alg».proof.Proof.RefRun
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the two results dropped. -/
theorem frame_ri : Cert.frame_ReferenceIdeal := fun m ρ _ =>
  (θ_run Cert.ReferenceIdeal.defs _ _).mono (fun _ h c => (h c).2.2) (Cert.ReferenceIdeal.RefRun.run m ρ)

/-- The ideal pass rewrote nothing. -/
theorem preserves : Cert.preserves_Kernel_KernelIdeal := trivial

/-- From memories agreeing on the arguments both idealized programs end with the embedding at `emb` and the
    log-probabilities at `logp` of the kernel's arguments. -/
theorem algebraic : Cert.algebraic_KernelIdeal_ReferenceIdeal := by
  intro m ρ m' ρ' _ hagree
  refine ⟨fun c => Cert.ReferenceIdeal.Stages.emb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Stages.logp (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KStages.emb_eq m ρ c),
        (h c).2.1.trans (Cert.KernelIdeal.KStages.logp_eq m ρ c), (h c).2.2⟩)
      (Cert.KernelIdeal.KernelRun.run_results m ρ)
  · refine (θ_run Cert.ReferenceIdeal.defs _ _).mono (fun r h c => ?_) (Cert.ReferenceIdeal.RefRun.run m' ρ')
    obtain ⟨g0, g1, g2, g3, g4, g5, g6, g7, g8, g9, g10, g11⟩ := hagree c
    refine ⟨(h c).1.trans ?_, (h c).2.1.trans ?_, (h c).2.2⟩
    · rw [g0, g1, g2, g3, g4, g5, g6, g7]
    · rw [g0, g1, g2, g3, g4, g5, g6, g7, g8, g9, g10, g11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
